-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S512 .f32) (main_arg5 : FVec F S512x256 .f32) (main_arg6 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x4096x512 .f32) (main_arg1 : FVec F S512x512 .f32) (main_arg2 : FVec F S512 .f32) (main_arg3 : FVec F S512x512 .f32) (main_arg4 : FVec F S512 .f32) (main_arg5 : FVec F S512x256 .f32) (main_arg6 : FVec F S256 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4x4096x512 : Shape := ⟨3, ![4, 4096, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩
abbrev S512x1280 : Shape := ⟨2, ![512, 1280]⟩
abbrev S1280 : Shape := ⟨1, ![1280]⟩
abbrev S1x1280 : Shape := ⟨2, ![1, 1280]⟩
abbrev S16384x512 : Shape := ⟨2, ![16384, 512]⟩
abbrev S16384x256 : Shape := ⟨2, ![16384, 256]⟩
abbrev S1024x512 : Shape := ⟨2, ![1024, 512]⟩
abbrev S1024x256 : Shape := ⟨2, ![1024, 256]⟩
abbrev S1024x1280 : Shape := ⟨2, ![1024, 1280]⟩
abbrev S4x4096x256 : Shape := ⟨3, ![4, 4096, 256]⟩
abbrev S4x1024x512 : Shape := ⟨3, ![4, 1024, 512]⟩
abbrev S4x256x512 : Shape := ⟨3, ![4, 256, 512]⟩
abbrev S4x256x256 : Shape := ⟨3, ![4, 256, 256]⟩
abbrev S4x1024x256 : Shape := ⟨3, ![4, 1024, 256]⟩
abbrev S4x1024x1 : Shape := ⟨3, ![4, 1024, 1]⟩
abbrev S4x1024 : Shape := ⟨2, ![4, 1024]⟩

abbrev nBuf : Space → Nat
  | .hbm => 25
  | .vmem => 21
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S512x1280, .f32⟩
  | .hbm, ⟨14, _⟩ => ⟨S1280, .f32⟩
  | .hbm, ⟨15, _⟩ => ⟨S512x1280, .bf16⟩
  | .hbm, ⟨16, _⟩ => ⟨S1x1280, .f32⟩
  | .hbm, ⟨17, _⟩ => ⟨S16384x512, .f32⟩
  | .hbm, ⟨18, _⟩ => ⟨S16384x512, .bf16⟩
  | .hbm, ⟨19, _⟩ => ⟨S16384x512, .bf16⟩
  | .hbm, ⟨20, _⟩ => ⟨S16384x256, .bf16⟩
  | .hbm, ⟨21, _⟩ => ⟨S4x4096x512, .bf16⟩
  | .hbm, ⟨22, _⟩ => ⟨S4x4096x512, .bf16⟩
  | .hbm, ⟨23, _⟩ => ⟨S4x4096x256, .bf16⟩
  | .hbm, ⟨24, _⟩ => ⟨S4x4096x256, .f32⟩
  | .local _ .vmem, ⟨0, _⟩ => ⟨S1024x512, .f32⟩
  | .local _ .vmem, ⟨1, _⟩ => ⟨S1024x512, .f32⟩
  | .local _ .vmem, ⟨2, _⟩ => ⟨S512x1280, .bf16⟩
  | .local _ .vmem, ⟨3, _⟩ => ⟨S1x1280, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x256, .bf16⟩
  | .local _ .vmem, ⟨9, _⟩ => ⟨S1024x256, .bf16⟩
  | .local _ .vmem, ⟨10, _⟩ => ⟨S4x1024x512, .bf16⟩
  | .local _ .vmem, ⟨11, _⟩ => ⟨S4x1024x512, .bf16⟩
  | .local _ .vmem, ⟨12, _⟩ => ⟨S4x256x512, .bf16⟩
  | .local _ .vmem, ⟨13, _⟩ => ⟨S4x256x512, .bf16⟩
  | .local _ .vmem, ⟨14, _⟩ => ⟨S4x256x256, .bf16⟩
  | .local _ .vmem, ⟨15, _⟩ => ⟨S4x256x256, .bf16⟩
  | .local _ .vmem, ⟨16, _⟩ => ⟨S4x1024x256, .f32⟩
  | .local _ .vmem, ⟨17, _⟩ => ⟨S4x1024x256, .f32⟩
  | .local _ .vmem, ⟨18, _⟩ => ⟨S4x1024x1, .f32⟩
  | .local _ .vmem, ⟨19, _⟩ => ⟨S4x1024x1, .f32⟩
  | .local _ .vmem, ⟨20, _⟩ => ⟨S4x1024x256, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_33 : BitVec 32 := 0#32
  let v42 : BitVec 1 := Scalar.cmpi .ne v41 c0_i32_33
  v42

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S512x512 : S_.BroadcastsInDim S512x512 (![] : Fin 0 → Fin S512x512.rank)
  bcast_S_S512 : S_.BroadcastsInDim S512 (![] : Fin 0 → Fin S512.rank)
  concatenates_S512x512_S512x512_S512x256_S512x1280_d1 : Shape.Concatenates [S512x512, S512x512, S512x256] S512x1280 1
  concatenates_S512_S512_S256_S1280_d0 : Shape.Concatenates [S512, S512, S256] S1280 0
  bitsLt_bf16_f32 : FTy.bits .bf16 < FTy.bits .f32
  shapeCasts_S1280_S1x1280 : S1280.ShapeCasts S1x1280
  shapeCasts_S4x4096x512_S16384x512 : S4x4096x512.ShapeCasts S16384x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  slices_S1024x1280_o0_0_S1024x512 : S1024x1280.Slices ![0, 0] S1024x512
  packedbf16_S1024x512_S1024x512_0_0 : (Rect.unit (s := S1024x512) ![0, 0] S1024x512.size inb_S1024x512_S1024x512_0_0).PackedRows (EltTy.packing .bf16)
  slices_S1024x1280_o0_512_S1024x512 : S1024x1280.Slices ![0, 512] S1024x512
  slices_S1024x1280_o0_1024_S1024x256 : S1024x1280.Slices ![0, 1024] S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S16384x512_S4x4096x512 : S16384x512.ShapeCasts S4x4096x512
  shapeCasts_S16384x256_S4x4096x256 : S16384x256.ShapeCasts S4x4096x256
  inb_S4x1024x1_S4x1024x1_0_0_0 : ∀ a, (![0, 0, 0] : Fin 3 → Nat) a + S4x1024x1.size a ≤ S4x1024x1.size a
  h_S4x1024x1 : 0 < S4x1024x1.numel
  shapeCasts_S4x1024x1_S4x1024x1 : S4x1024x1.ShapeCasts S4x1024x1
  inb_S4x1024x256_S4x1024x256_0_0_0 : ∀ a, (![0, 0, 0] : Fin 3 → Nat) a + S4x1024x256.size a ≤ S4x1024x256.size a
  h_S4x1024x256 : 0 < S4x1024x256.numel
  shapeCasts_S4x1024x256_S4x1024x256 : S4x1024x256.ShapeCasts S4x1024x256
  inb_S4x1024x512_S4x1024x512_0_0_0 : ∀ a, (![0, 0, 0] : Fin 3 → Nat) a + S4x1024x512.size a ≤ S4x1024x512.size a
  h_S4x1024x512 : 0 < S4x1024x512.numel
  shapeCasts_S4x1024x512_S4x1024x512 : S4x1024x512.ShapeCasts S4x1024x512
  inb_S4x256x512_S4x256x512_0_0_0 : ∀ a, (![0, 0, 0] : Fin 3 → Nat) a + S4x256x512.size a ≤ S4x256x512.size a
  h_S4x256x512 : 0 < S4x256x512.numel
  shapeCasts_S4x256x512_S4x256x512 : S4x256x512.ShapeCasts S4x256x512
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  reduces_S4x1024x256_S4x1024 : S4x1024x256.Reduces [2] S4x1024
  shapeCasts_S4x1024_S4x1024x1 : S4x1024.ShapeCasts S4x1024x1
  broadcasts_S4x1024x1_S4x1024x256 : S4x1024x1.Broadcasts S4x1024x256
  dot_S1024x512_S512x1280_S1024x1280_1_0_0_1_n_n_wf : DotDims.WF S1024x512 S512x1280 S1024x1280 [1] [0] [0] [1] [] []
  dot_S4x1024x512_S4x256x512_S4x1024x256_2_2_1_1_0_0_wf : DotDims.WF S4x1024x512 S4x256x512 S4x1024x256 [2] [2] [1] [1] [0] [0]
  dot_S4x1024x256_S4x256x256_S4x1024x256_2_1_1_2_0_0_wf : DotDims.WF S4x1024x256 S4x256x256 S4x1024x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S512x1280.size a
  hwx0_1 : ∀ i : grid0.Coords, EltTy.bits .bf16 = 32 ∨ (Rect.block (s := S512x1280) S512x1280.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x1280.size a
  hwx0_2 : ∀ i : grid0.Coords, EltTy.bits .f32 = 32 ∨ (Rect.block (s := S1x1280) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .bf16 = 32 ∨ (Rect.block (s := S16384x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .bf16 = 32 ∨ (Rect.block (s := S16384x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S16384x256.size a
  hwx0_5 : ∀ i : grid0.Coords, EltTy.bits .bf16 = 32 ∨ (Rect.block (s := S16384x256) S1024x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x512.size a ≤ S4x4096x512.size a
  hwx1_0 : ∀ i : grid1.Coords, EltTy.bits .bf16 = 32 ∨ (Rect.block (s := S4x4096x512) S4x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x256x512.size a ≤ S4x4096x512.size a
  hwx1_1 : ∀ i : grid1.Coords, EltTy.bits .bf16 = 32 ∨ (Rect.block (s := S4x4096x512) S4x256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x256x256.size a ≤ S4x4096x256.size a
  hwx1_2 : ∀ i : grid1.Coords, EltTy.bits .bf16 = 32 ∨ (Rect.block (s := S4x4096x256) S4x256x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x1024x256.size a ≤ S4x4096x256.size a
  hwx1_3 : ∀ i : grid1.Coords, EltTy.bits .f32 = 32 ∨ (Rect.block (s := S4x4096x256) S4x1024x256.size (cc1_transform_3 i) (hinb1_3 i)).WholeWords (EltTy.packing .f32)

variable [Facts₀]

def dot_S1024x512_S512x1280_S1024x1280_1_0_0_1_n_n : DotDims S1024x512 S512x1280 S1024x1280 where
  lhsContracting := [1]
  rhsContracting := [0]
  lhsNonContracting := [0]
  rhsNonContracting := [1]
  lhsBatch := []
  rhsBatch := []
  wf := dot_S1024x512_S512x1280_S1024x1280_1_0_0_1_n_n_wf
def dot_S4x1024x512_S4x256x512_S4x1024x256_2_2_1_1_0_0 : DotDims S4x1024x512 S4x256x512 S4x1024x256 where
  lhsContracting := [2]
  rhsContracting := [2]
  lhsNonContracting := [1]
  rhsNonContracting := [1]
  lhsBatch := [0]
  rhsBatch := [0]
  wf := dot_S4x1024x512_S4x256x512_S4x1024x256_2_2_1_1_0_0_wf
def dot_S4x1024x256_S4x256x256_S4x1024x256_2_1_1_2_0_0 : DotDims S4x1024x256 S4x256x256 S4x1024x256 where
  lhsContracting := [2]
  rhsContracting := [1]
  lhsNonContracting := [1]
  rhsNonContracting := [2]
  lhsBatch := [0]
  rhsBatch := [0]
  wf := dot_S4x1024x256_S4x256x256_S4x1024x256_2_1_1_2_0_0_wf

abbrev win0_0 : Pipeline.Window sig grid0 :=
  Pipeline.Window.ofSpec (Memref.whole main_v8) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S1024x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_2) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10) S4x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S4x1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x512 : Shape := ⟨3, ![4, 4096, 512]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x1x512 : Shape := ⟨3, ![1, 1, 512]⟩
abbrev S4x4096x256 : Shape := ⟨3, ![4, 4096, 256]⟩
abbrev S1x1x256 : Shape := ⟨3, ![1, 1, 256]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S4x4096x512, .f32⟩
  | .hbm, ⟨8, _⟩ => ⟨S1x1x512, .f32⟩
  | .hbm, ⟨9, _⟩ => ⟨S4x4096x512, .f32⟩
  | .hbm, ⟨10, _⟩ => ⟨S4x4096x512, .f32⟩
  | .hbm, ⟨11, _⟩ => ⟨S4x4096x512, .f32⟩
  | .hbm, ⟨12, _⟩ => ⟨S1x1x512, .f32⟩
  | .hbm, ⟨13, _⟩ => ⟨S4x4096x512, .f32⟩
  | .hbm, ⟨14, _⟩ => ⟨S4x4096x512, .f32⟩
  | .hbm, ⟨15, _⟩ => ⟨S4x4096x256, .f32⟩
  | .hbm, ⟨16, _⟩ => ⟨S1x1x256, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4x4096, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x256, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S512x512_S4x4096x512_2_0_01_1_n_n_wf : DotDims.WF S4x4096x512 S512x512 S4x4096x512 [2] [0] [0, 1] [1] [] []
  dot_S4x4096x512_S512x256_S4x4096x256_2_0_01_1_n_n_wf : DotDims.WF S4x4096x512 S512x256 S4x4096x256 [2] [0] [0, 1] [1] [] []
  dot_S4x4096x512_S4x4096x512_S4x4096x4096_2_2_1_1_0_0_wf : DotDims.WF S4x4096x512 S4x4096x512 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x512_S512x512_S4x4096x512_2_0_01_1_n_n : DotDims S4x4096x512 S512x512 S4x4096x512 where
  lhsContracting := [2]
  rhsContracting := [0]
  lhsNonContracting := [0, 1]
  rhsNonContracting := [1]
  lhsBatch := []
  rhsBatch := []
  wf := dot_S4x4096x512_S512x512_S4x4096x512_2_0_01_1_n_n_wf
def dot_S4x4096x512_S512x256_S4x4096x256_2_0_01_1_n_n : DotDims S4x4096x512 S512x256 S4x4096x256 where
  lhsContracting := [2]
  rhsContracting := [0]
  lhsNonContracting := [0, 1]
  rhsNonContracting := [1]
  lhsBatch := []
  rhsBatch := []
  wf := dot_S4x4096x512_S512x256_S4x4096x256_2_0_01_1_n_n_wf
def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.K.Region0.lean ====
/- Region 0 of @main: the projection kernel's half of the frame, at a parameter `V` (the TensorCore's buffer
   contents when the region is entered). The kernel reads a block of 1024 rows of the activations, the whole weight
   matrix and the whole bias row, forms rows · weights + bias (1024 × 1280), and stores its three column ranges
   [0, 512), [512, 1024), [1024, 1280) into three output blocks. Here: each window's block at a grid point, what the
   body leaves in each output block as a function of the three input blocks, the body's triple, the proof data of
   the pipeline and its body obligation. Generic in the float instance. -/
import proofs.«137375_j22127671509167_2_alg».proof.Proof.Gen.Kernel.Launch
import proofs.«137375_j22127671509167_2_alg».proof.Proof.Gen.Kernel.Skeleton
import proofs.«137375_j22127671509167_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 512 (the tiling check of the stores) recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window (a new block of 1024 rows at every point): its current staging buffer holds the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window (one block, the whole matrix, fetched at the first point only): at a later point the block
    index has not moved and the body left the block in place, so the buffer still holds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's window (one block, fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev r0_x : Rect S1024x512 := Rect.unit (s := S1024x512) ![0, 0] S1024x512.size inb_S1024x512_S1024x512_0_0
abbrev r0_w : Rect S512x1280 := Rect.unit (s := S512x1280) ![0, 0] S512x1280.size inb_S512x1280_S512x1280_0_0
abbrev r0_b : Rect S1x1280 := Rect.unit (s := S1x1280) ![0, 0] S1x1280.size inb_S1x1280_S1x1280_0_0
abbrev r0_v : Rect S1024x256 := Rect.unit (s := S1024x256) ![0, 0] S1024x256.size inb_S1024x256_S1024x256_0_0

/-! ## What the body leaves in each output window's buffer -/

/-- The first output block after the body: columns [0, 512) of rows · weights + bias, stored whole. -/
def out0_3 (x0 : Vec F S1024x512 .f32) (x1 : Vec F S512x1280 .bf16) (x2 : Vec F S1x1280 .f32) : Vec F S1024x512 .bf16 :=
  View.canon [⟨r0_x, k0_pay2 (View.ld x0 r0_x) (View.ld x1 r0_w) (View.ld x2 r0_b)⟩]

/-- The second output block: columns [512, 1024). -/
def out0_4 (x0 : Vec F S1024x512 .f32) (x1 : Vec F S512x1280 .bf16) (x2 : Vec F S1x1280 .f32) : Vec F S1024x512 .bf16 :=
  View.canon [⟨r0_x, k0_pay3 (View.ld x0 r0_x) (View.ld x1 r0_w) (View.ld x2 r0_b)⟩]

/-- The third output block: columns [1024, 1280). -/
def out0_5 (x0 : Vec F S1024x512 .f32) (x1 : Vec F S512x1280 .bf16) (x2 : Vec F S1x1280 .f32) : Vec F S1024x256 .bf16 :=
  View.canon [⟨r0_v, k0_pay4 (View.ld x0 r0_x) (View.ld x1 r0_w) (View.ld x2 r0_b)⟩]

/-- One whole-block store covers a 1024 × 512 buffer. -/
theorem cover0_x (p0 : Vec F S1024x512 .bf16) (y : S1024x512.Idx) :
    ∃ pc ∈ ([⟨r0_x, p0⟩] : List (View.Piece (Elt F) S1024x512 .bf16)), y ∈ pc.1.set :=
  View.cover_of_tiled [⟨r0_x, p0⟩] S1024x512.size (by rfl) y

/-- One whole-block store covers a 1024 × 256 buffer. -/
theorem cover0_v (p0 : Vec F S1024x256 .bf16) (y : S1024x256.Idx) :
    ∃ pc ∈ ([⟨r0_v, p0⟩] : List (View.Piece (Elt F) S1024x256 .bf16)), y ∈ pc.1.set :=
  View.cover_of_tiled [⟨r0_v, p0⟩] S1024x256.size (by rfl) y

/-! ## The body's triple -/

set_option maxHeartbeats 1000000 in
/-- The kernel body on whole staging memrefs, the three inputs' at read contents `x0`, `x1`, `x2` and the three
    outputs' at anything (the body loads each output buffer before storing it and drops what it read), runs to the
    continuation holding the inputs' as they were and each output's at `out0_W` of the inputs'. -/
theorem sound_kernel0 (c : Dev nD) (E : Set ℕ) (i : grid0.Coords)
    (arg1 : Memref sig .tc .vmem S1024x512 .f32) (harg1 : arg1.IsWhole) (arg2 : Memref sig .tc .vmem S512x1280 .bf16) (harg2 : arg2.IsWhole)
    (arg3 : Memref sig .tc .vmem S1x1280 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x256 .bf16) (harg6 : arg6.IsWhole)
    (x0 : Vec F S1024x512 .f32) (x1 : Vec F S512x1280 .bf16) (x2 : Vec F S1x1280 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_x _)
  isplitl [H4]
  · iexists _; isplitr
    swap; · iexact H4
    ipureintro
    exact View.read_writes_eq_canon _ _ _ (cover0_x _)
  iexists _; isplitr
  swap; · iexact H5
  ipureintro
  exact View.read_writes_eq_canon _ _ _ (cover0_v _)

/-! ## The pipeline's proof data -/

/-- The proof data of the projection pipeline on core `c`: the arrays as the region finds them; after the body at
    point `t` each input's buffer at its block and each output's at `out0_W` of the three input blocks; the invariant
    "the scoped rest and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Body.lean ====
/-
  The flash-attention body at one grid point (query block qi, key block ki), as a step on three carried arrays:
  the running row maximum m, the running denominator l and the running numerator a. With the blocks q, k, v of
  the point, s = q·kᵀ, the step is  m' = max m (row max of s),  l' = exp (m − m')·l + Σ exp (s − m'),
  a' = exp (m − m')·a + exp (s − m')·v.  At the first key block (ki = 0) the body first resets the three arrays to
  (−∞, 0, 0); at the last one (ki = 15) it also writes a'/l' to the output block. The three cases are run once
  each; the conditions are decided over the 4×16 grid in closed form.
-/
import proofs.«137375_j22127671509167_2_alg».proof.Proof.Gen.Kernel.Launch
import proofs.«137375_j22127671509167_2_alg».proof.Proof.Gen.Kernel.Skeleton
import proofs.«137375_j22127671509167_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The body resets the carried arrays: the key-block coordinate is 0. -/
abbrev cond1_0 (i : grid1.Coords) : Prop :=
  Scalar.cmpi .ne (Scalar.extui (Scalar.cmpi .eq (BitVec.ofNat 32 (i 1).val) 0#32)) 0#32 = 1#1
/-- The body writes the output block: the key-block coordinate is 15. -/
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-! ## The step on the carried arrays -/

/-- The three carried arrays: running maximum, denominator, numerator. -/
abbrev Carry (F : FTy → Type) : Type := Vec F S4x1024x1 .f32 × Vec F S4x1024x1 .f32 × Vec F S4x1024x256 .f32

/-- What the reset stores: (−∞, 0, 0). -/
def carry0 : Carry F := (k1_pay4, k1_pay5, k1_pay6)

/-- One point's update of the carried arrays from the point's blocks. -/
def carryStep (x0 : Vec F S4x1024x512 .bf16) (x1 : Vec F S4x256x512 .bf16) (x2 : Vec F S4x256x256 .bf16) (s : Carry F) : Carry F :=
  (k1_pay2 (k1_pay9 x0 x1 s.1), k1_pay12 x0 x1 s.1 s.1 s.2.1,
   k1_pay1 (k1_pay7 x2) (k1_pay10 x0 x1 s.1 s.1) (k1_pay11 x0 x1 s.1) s.2.2)

/-- What the last key block writes to the output block: numerator over denominator. -/
def carryOut (s : Carry F) : Vec F S4x1024x256 .f32 := k1_pay3 s.2.2 s.2.1

/-! ## Whole-buffer loads and stores read back -/

theorem zero3 : (![0, 0, 0] : Fin 3 → ℕ) = fun _ => 0 := by
  funext a; match a with | ⟨0, _⟩ => rfl | ⟨1, _⟩ => rfl | ⟨2, _⟩ => rfl

section ReadBack
variable {Val : EltTy → Type} [∀ e, Nonempty (Val e)] {S : Shape} {e : EltTy} {sig' : RefSig} {κ : Kind} {sp : Space}

/-- A load of the whole buffer reads its contents. -/
theorem readAt_whole (v : View sig' κ sp S e) (g : v.ty.Contents Val) {off : Fin S.rank → Nat} (h : off = fun _ => 0)
    (inb : ∀ a, off a + S.size a ≤ S.size a) : v.readAt Val (Rect.unit off S.size inb).toLoadRect g = v.read Val g := by
  rw [View.readAt_eq_ld]; exact View.ld_unit_zero h inb _

/-- After a last store of the whole buffer the buffer reads as that store's payload. -/
theorem read_writes_whole (v : View sig' κ sp S e) (g : v.ty.Contents Val) {off : Fin S.rank → Nat} (h : off = fun _ => 0)
    (inb : ∀ a, off a + S.size a ≤ S.size a) (w : S.Idx → Val e) (L : List (View.Piece Val S e)) :
    v.read Val (v.writes Val g ((⟨Rect.unit off S.size inb, w⟩ : View.Piece Val S e) :: L)) = w := by
  rw [View.read_writes_eq_canon v g _ (fun y => ⟨_, List.mem_cons_self, View.mem_set_unit_zero h inb y⟩)]
  exact View.canon_cons_unit_zero h inb w L

end ReadBack

/-! ## The body's triple, case by case -/

set_option maxHeartbeats 2000000 in
/-- A middle key block (neither reset nor output): the three carried arrays move by one step; the inputs and the output
    block's buffer are untouched. -/
theorem run_mid (c : Dev nD) (i : grid1.Coords) (arg2 : Memref sig .tc .vmem S4x1024x512 .bf16) (harg2 : arg2.IsWhole) (arg3 : Memref sig .tc .vmem S4x256x512 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x256 .f32) (harg8 : arg8.IsWhole) (hc0 : ¬cond1_0 i) (hc1 : ¬cond1_1 i)
    (x0 : Vec F S4x1024x512 .bf16) (x1 : Vec F S4x256x512 .bf16) (x2 : Vec F S4x256x256 .bf16) (s : Carry F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2
            ∗ owns (c : Thread nD τ) arg6 fullShare (carryStep x0 x1 x2 s).1 ∗ owns (c : Thread nD τ) arg7 fullShare (carryStep x0 x1 x2 s).2.1
            ∗ owns (c : Thread nD τ) arg8 fullShare (carryStep x0 x1 x2 s).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, Hk⟩
  obtain rfl := harg2.eq_unread hf0
  obtain rfl := harg3.eq_unread hf1
  obtain rfl := harg4.eq_unread hf2
  obtain rfl := harg6.eq_unread hf6
  obtain rfl := harg7.eq_unread hf7
  obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    refine (read_writes_whole _ _ zero3 _ _ _).trans ?_
    simp only [readAt_whole arg2.view _ zero3, readAt_whole arg3.view _ zero3, readAt_whole arg4.view _ zero3, readAt_whole arg6.view _ zero3,
      readAt_whole arg7.view _ zero3, readAt_whole arg8.view _ zero3, Memref.IsWhole.read_unread, carryStep]
  isplitl [H7]
  · iexists _; isplitr
    swap; · iexact H7
    ipureintro
    refine (read_writes_whole _ _ zero3 _ _ _).trans ?_
    simp only [readAt_whole arg2.view _ zero3, readAt_whole arg3.view _ zero3, readAt_whole arg4.view _ zero3, readAt_whole arg6.view _ zero3,
      readAt_whole arg7.view _ zero3, readAt_whole arg8.view _ zero3, Memref.IsWhole.read_unread, carryStep]
  iexists _; isplitr
  swap; · iexact H8
  ipureintro
  refine (read_writes_whole _ _ zero3 _ _ _).trans ?_
  sl_unfold_run_names
  simp only [readAt_whole arg2.view _ zero3, readAt_whole arg3.view _ zero3, readAt_whole arg4.view _ zero3, readAt_whole arg6.view _ zero3,
      readAt_whole arg7.view _ zero3, readAt_whole arg8.view _ zero3, Memref.IsWhole.read_unread, carryStep]

set_option maxHeartbeats 2000000 in
/-- The first key block of a query block: the body resets the carried arrays to (−∞, 0, 0), whatever they held, and
    takes one step from there. -/
theorem run_first (c : Dev nD) (i : grid1.Coords) (arg2 : Memref sig .tc .vmem S4x1024x512 .bf16) (harg2 : arg2.IsWhole) (arg3 : Memref sig .tc .vmem S4x256x512 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x256 .f32) (harg8 : arg8.IsWhole) (hc0 : cond1_0 i) (hc1 : ¬cond1_1 i)
    (x0 : Vec F S4x1024x512 .bf16) (x1 : Vec F S4x256x512 .bf16) (x2 : Vec F S4x256x256 .bf16) (s : Carry F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2
            ∗ owns (c : Thread nD τ) arg6 fullShare (carryStep x0 x1 x2 carry0).1 ∗ owns (c : Thread nD τ) arg7 fullShare (carryStep x0 x1 x2 carry0).2.1
            ∗ owns (c : Thread nD τ) arg8 fullShare (carryStep x0 x1 x2 carry0).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, Hk⟩
  obtain rfl := harg2.eq_unread hf0
  obtain rfl := harg3.eq_unread hf1
  obtain rfl := harg4.eq_unread hf2
  obtain rfl := harg6.eq_unread hf6
  obtain rfl := harg7.eq_unread hf7
  obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]
  isplitl [H7]
  · iexists _; isplitr
    swap; · iexact H7
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]
  iexists _; isplitr
  swap; · iexact H8
  ipureintro
  refine (read_writes_whole _ _ zero3 _ _ _).trans ?_
  sl_unfold_run_names
  simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]

set_option maxHeartbeats 2000000 in
/-- The last key block of a query block: one step, then the output block's buffer receives numerator / denominator. -/
theorem run_last (c : Dev nD) (i : grid1.Coords) (arg2 : Memref sig .tc .vmem S4x1024x512 .bf16) (harg2 : arg2.IsWhole) (arg3 : Memref sig .tc .vmem S4x256x512 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x256 .f32) (harg8 : arg8.IsWhole) (hc0 : ¬cond1_0 i) (hc1 : cond1_1 i)
    (x0 : Vec F S4x1024x512 .bf16) (x1 : Vec F S4x256x512 .bf16) (x2 : Vec F S4x256x256 .bf16) (s : Carry F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2
            ∗ owns (c : Thread nD τ) arg5 fullShare (carryOut (carryStep x0 x1 x2 s))
            ∗ owns (c : Thread nD τ) arg6 fullShare (carryStep x0 x1 x2 s).1 ∗ owns (c : Thread nD τ) arg7 fullShare (carryStep x0 x1 x2 s).2.1
            ∗ owns (c : Thread nD τ) arg8 fullShare (carryStep x0 x1 x2 s).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, ⟨%f8, %hf8, H8⟩, Hk⟩
  obtain rfl := harg2.eq_unread hf0
  obtain rfl := harg3.eq_unread hf1
  obtain rfl := harg4.eq_unread hf2
  obtain rfl := harg6.eq_unread hf6
  obtain rfl := harg7.eq_unread hf7
  obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0, carryOut]
  isplitl [H6]
  · iexists _; isplitr
    swap; · iexact H6
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]
  isplitl [H7]
  · iexists _; isplitr
    swap; · iexact H7
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]
  iexists _; isplitr
  swap; · iexact H8
  ipureintro
  refine (read_writes_whole _ _ zero3 _ _ _).trans ?_
  sl_unfold_run_names
  simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]

end Cert.Kernel.Hand

end
-- ==== Proof.K.Region1.lean ====
/-
  The flash-attention region's proof data. Grid point t = 16·qi + ki. The three carried arrays after point t are a
  recursion over the points: one step from the reset values at ki = 0, one step from the previous point's arrays
  otherwise. Between points the region's invariant holds the three scratch buffers at those arrays (before the
  first point: at anything). The output block's buffer is written only at ki = 15, with numerator / denominator of
  the arrays after that point; at the other points it is handed back as found.
-/
import proofs.«137375_j22127671509167_2_alg».proof.Proof.Gen.Kernel.Launch
import proofs.«137375_j22127671509167_2_alg».proof.Proof.Gen.Kernel.Skeleton
import proofs.«137375_j22127671509167_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«137375_j22127671509167_2_alg».proof.Proof.K.Region1Body
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window (a new block of 1024 rows every 16 points): its current staging buffer holds the point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window (a new block of 256 rows at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window (a new block of 256 rows at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The carried arrays, point by point -/

/-- The carried arrays after point `n`: one step from the reset values where the key-block coordinate is 0, else one
    step from what the previous point left. -/
def carryAt (c : Dev nD) : (n : ℕ) → n < cfg1.N → Carry F
  | 0, hn => carryStep (iblk1 V c 0 ⟨0, hn⟩) (iblk1 V c 1 ⟨0, hn⟩) (iblk1 V c 2 ⟨0, hn⟩) carry0
  | n + 1, hn => carryStep (iblk1 V c 0 ⟨n + 1, hn⟩) (iblk1 V c 1 ⟨n + 1, hn⟩) (iblk1 V c 2 ⟨n + 1, hn⟩)
      (if (n + 1) % 16 = 0 then carry0 else carryAt c n (Nat.lt_of_succ_lt hn))

theorem carryAt_reset (c : Dev nD) (t : Fin cfg1.N) (h0 : t.val % 16 = 0) :
    carryAt V c t.val t.isLt = carryStep (iblk1 V c 0 t) (iblk1 V c 1 t) (iblk1 V c 2 t) carry0 := by
  obtain ⟨n, hn⟩ := t
  cases n with
  | zero => rfl
  | succ n => show carryAt V c (n + 1) hn = _; rw [carryAt, if_pos h0]

theorem carryAt_step (c : Dev nD) (n : ℕ) (hn : n + 1 < cfg1.N) (h0 : (n + 1) % 16 ≠ 0) :
    carryAt V c (n + 1) hn = carryStep (iblk1 V c 0 ⟨n + 1, hn⟩) (iblk1 V c 1 ⟨n + 1, hn⟩) (iblk1 V c 2 ⟨n + 1, hn⟩)
      (carryAt V c n (Nat.lt_of_succ_lt hn)) := by
  rw [carryAt, if_neg h0]

/-! ## The region's invariant -/

abbrev scM0 : Memref sig .tc .vmem S4x1024x1 .f32 := Memref.whole cc1_scratch0
abbrev scM1 : Memref sig .tc .vmem S4x1024x1 .f32 := Memref.whole cc1_scratch1
abbrev scM2 : Memref sig .tc .vmem S4x1024x256 .f32 := Memref.whole cc1_scratch2

/-- The scoped buffers the region never touches (the other region's staging buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The three scratch buffers before position `n`: at anything before the first point, else at the carried arrays
    after point `n − 1`. -/
def carried (c : Dev nD) : (n : ℕ) → n ≤ cfg1.N → sProp 𝕄
  | 0, _ => iprop((∃ d, owns (c : Thread nD τ) scM0 fullShare d) ∗ (∃ d, owns (c : Thread nD τ) scM1 fullShare d)
      ∗ (∃ d, owns (c : Thread nD τ) scM2 fullShare d))
  | n + 1, h => iprop(owns (c : Thread nD τ) scM0 fullShare (carryAt V c n h).1 ∗ owns (c : Thread nD τ) scM1 fullShare (carryAt V c n h).2.1
      ∗ owns (c : Thread nD τ) scM2 fullShare (carryAt V c n h).2.2)

/-- Whatever the position, the scratch buffers hold SOME arrays; after the first point they are the carried ones. -/
theorem carried_elim (c : Dev nD) (n : ℕ) (h : n ≤ cfg1.N) :
    carried V c n h ⊢ (iprop(∃ s : Carry F, ⌜∀ k (hk : k < cfg1.N), n = k + 1 → s = carryAt V c k hk⌝
      ∗ owns (c : Thread nD τ) scM0 fullShare s.1 ∗ owns (c : Thread nD τ) scM1 fullShare s.2.1 ∗ owns (c : Thread nD τ) scM2 fullShare s.2.2) : sProp 𝕄) := by
  cases n with
  | zero =>
    rw [carried]
    iintro ⟨⟨%d0, H0⟩, ⟨%d1, H1⟩, ⟨%d2, H2⟩⟩
    iexists (d0, d1, d2); isplitr; · ipureintro; intro k hk e; omega
    isplitl [H0]; · iexact H0
    isplitl [H1]; · iexact H1
    iexact H2
  | succ n =>
    rw [carried]
    iintro ⟨H0, H1, H2⟩
    iexists carryAt V c n h; isplitr
    · ipureintro; intro k hk e; have : k = n := by omega
      subst this; rfl
    isplitl [H0]; · iexact H0
    isplitl [H1]; · iexact H1
    iexact H2

/-- The invariant before position `n`. -/
def PhiS (c : Dev nD) (n : ℕ) (h : n ≤ cfg1.N) : sProp 𝕄 :=
  iprop(rest1 (F := F) c ∗ carried V c n h ∗ (∃ r, prngReg c r))

/-! ## The pipeline's proof data -/

/-- The proof data of the region on core `c`: the arrays as the region finds them; after the body at point `t` each
    input's buffer at its block and the output's at numerator / denominator of the carried arrays after `t` (consulted
    only where the block is written back); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => carryOut (carryAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = carryOut (carryAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle, in closed form -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idle1_3 : ∀ t : Fin cfg1.N, cfg1.idle 3 (grid1.coords t) = true ↔ t.val % 16 ≠ 15 :=
  (by decide +kernel : ∀ t : Fin grid1.N, cfg1.idle 3 (grid1.coords t) = true ↔ t.val % 16 ≠ 15)
theorem live1_3 : ∀ t : Fin cfg1.N, cfg1.idle 3 (grid1.coords t) = false ↔ t.val % 16 = 15 :=
  (by decide +kernel : ∀ t : Fin grid1.N, cfg1.idle 3 (grid1.coords t) = false ↔ t.val % 16 = 15)
theorem noFlush1_3 : ∀ t : Fin cfg1.N, (cfg1.win 3).flush t = false ↔ t.val % 16 ≠ 15 :=
  (by decide +kernel : ∀ t : Fin grid1.N, win1_3.flush t = false ↔ t.val % 16 ≠ 15)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 3200000 in
/-- The body at any point: the inputs' buffers hold the point's blocks; the invariant hands over the scratch buffers at
    what the previous point left (or at anything, before the first point, where the body resets them); the closed forms
    of the two conditions select the case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_castSucc V c t]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  unfold PhiS
  have hN : t.val < 64 := lt_of_lt_of_eq t.isLt (show cfg1.N = 64 from N_1)
  by_cases h15 : t.val % 16 = 15
  · -- the last key block: one step from what the previous point left, and the output
    rw [show (dat1 V c).leavesExact 3 t = owns (c : Thread nD τ) (st1_3 t) fullShare ((dat1 V c).after 3 t) from by
        unfold Dat.leavesExact; rw [(live1_3 t).mpr h15], after1_3]
    obtain ⟨n, hn⟩ := t
    cases n with
    | zero => exfalso; dsimp only at h15; omega
    | succ n =>
      have h0 : (n + 1) % 16 ≠ 0 := by dsimp only at h15; omega
      iintro ⟨⟨Hrest, Hcar, Hg⟩, Ho, ⟨%d0, H0⟩, ⟨%d1, H1⟩, ⟨%d2, H2⟩, ⟨%d3, H3⟩⟩
      ihave Hc := (carried_elim V c (n + 1) (Nat.le_of_lt hn)) $$ Hcar
      icases Hc with ⟨%s, %hs, H6, H7, H8⟩
      obtain rfl := hs n (Nat.lt_of_succ_lt hn) rfl
      iapply (run_last c (grid1.coords ⟨n + 1, hn⟩) _ _ _ _ _ _ _ _ _ _ _ _ _ _ (fun h => h0 ((hcond1_0 ⟨n + 1, hn⟩).mp h)) ((hcond1_1 ⟨n + 1, hn⟩).mpr h15)
        (iblk1 V c 0 ⟨n + 1, hn⟩) (iblk1 V c 1 ⟨n + 1, hn⟩) (iblk1 V c 2 ⟨n + 1, hn⟩) (carryAt V c n (Nat.lt_of_succ_lt hn)) Set.univ _)
      isplitl [H0]; · iexact H0
      isplitl [H1]; · iexact H1
      isplitl [H2]; · iexact H2
      isplitl [H3]; · iexists _; iexact H3
      isplitl [H6]; · iexact H6
      isplitl [H7]; · iexact H7
      isplitl [H8]; · iexact H8
      iintro ⟨H0, H1, H2, H3, H6, H7, H8⟩
      rw [show carried V c (n + 1 + 1) hn = _ from carried.eq_2 V c (n + 1) hn, carryAt_step V c n hn h0]
      isplitl [Hrest H6 H7 H8 Hg]
      · isplitl [Hrest]; · iexact Hrest
        isplitr [Hg]
        · isplitl [H6]; · iexact H6
          isplitl [H7]; · iexact H7
          iexact H8
        iexact Hg
      isplitl [Ho]; · iexact Ho
      isplitl [H0]; · iexact H0
      isplitl [H1]; · iexact H1
      isplitl [H2]; · iexact H2
      iexact H3
  · rw [Dat.leavesExact_idle (dat1 V c) 3 t ((idle1_3 t).mpr h15) ((noFlush1_3 t).mpr h15)]
    by_cases h0 : t.val % 16 = 0
    · -- the first key block: the body resets the scratch buffers, whatever they held
      iintro ⟨⟨Hrest, Hcar, Hg⟩, Ho, ⟨%d0, H0⟩, ⟨%d1, H1⟩, ⟨%d2, H2⟩, ⟨%d3, H3⟩⟩
      ihave Hc := (carried_elim V c t.val (Nat.le_of_lt t.isLt)) $$ Hcar
      icases Hc with ⟨%s, -, H6, H7, H8⟩
      iapply (run_first c (grid1.coords t) _ _ _ _ _ _ _ _ _ _ _ _ _ _ ((hcond1_0 t).mpr h0) (fun h => h15 ((hcond1_1 t).mp h))
        (iblk1 V c 0 t) (iblk1 V c 1 t) (iblk1 V c 2 t) s Set.univ _)
      isplitl [H0]; · iexact H0
      isplitl [H1]; · iexact H1
      isplitl [H2]; · iexact H2
      isplitl [H6]; · iexact H6
      isplitl [H7]; · iexact H7
      isplitl [H8]; · iexact H8
      iintro ⟨H0, H1, H2, H6, H7, H8⟩
      rw [show carried V c (t.val + 1) t.isLt = _ from carried.eq_2 V c t.val t.isLt, carryAt_reset V c t h0]
      isplitl [Hrest H6 H7 H8 Hg]
      · isplitl [Hrest]; · iexact Hrest
        isplitr [Hg]
        · isplitl [H6]; · iexact H6
          isplitl [H7]; · iexact H7
          iexact H8
        iexact Hg
      isplitl [Ho]; · iexact Ho
      isplitl [H0]; · iexact H0
      isplitl [H1]; · iexact H1
      isplitl [H2]; · iexact H2
      iexists _; iexact H3
    · -- a middle key block: one step from what the previous point left
      obtain ⟨n, hn⟩ := t
      cases n with
      | zero => exfalso; exact h0 rfl
      | succ n =>
        iintro ⟨⟨Hrest, Hcar, Hg⟩, Ho, ⟨%d0, H0⟩, ⟨%d1, H1⟩, ⟨%d2, H2⟩, ⟨%d3, H3⟩⟩
        ihave Hc := (carried_elim V c (n + 1) (Nat.le_of_lt hn)) $$ Hcar
        icases Hc with ⟨%s, %hs, H6, H7, H8⟩
        obtain rfl := hs n (Nat.lt_of_succ_lt hn) rfl
        iapply (run_mid c (grid1.coords ⟨n + 1, hn⟩) _ _ _ _ _ _ _ _ _ _ _ _ _ _ (fun h => h0 ((hcond1_0 ⟨n + 1, hn⟩).mp h)) (fun h => h15 ((hcond1_1 ⟨n + 1, hn⟩).mp h))
          (iblk1 V c 0 ⟨n + 1, hn⟩) (iblk1 V c 1 ⟨n + 1, hn⟩) (iblk1 V c 2 ⟨n + 1, hn⟩) (carryAt V c n (Nat.lt_of_succ_lt hn)) Set.univ _)
        isplitl [H0]; · iexact H0
        isplitl [H1]; · iexact H1
        isplitl [H2]; · iexact H2
        isplitl [H6]; · iexact H6
        isplitl [H7]; · iexact H7
        isplitl [H8]; · iexact H8
        iintro ⟨H0, H1, H2, H6, H7, H8⟩
        rw [show carried V c (n + 1 + 1) hn = _ from carried.eq_2 V c (n + 1) hn, carryAt_step V c n hn h0]
        isplitl [Hrest H6 H7 H8 Hg]
        · isplitl [Hrest]; · iexact Hrest
          isplitr [Hg]
          · isplitl [H6]; · iexact H6
            isplitl [H7]; · iexact H7
            iexact H8
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Frame.lean ====
/-
  The whole program as a run: two stretches of host operations and two kernel regions. The contents of the
  unscoped buffers at each boundary are a fold from the launch memory: a host stretch applies its operations, a
  region replaces its windows' arrays by what its write-backs leave and keeps every other buffer. Each region is
  entered with every unscoped buffer at the boundary's contents and left with them at the next boundary's; the first
  region's invariant is the plain one (its scoped rest untouched), the second's holds its three scratch buffers at
  the carried arrays. At the end every unscoped buffer is read back at the last boundary's contents; the argument
  arrays walk back through the fold to the launch memory, no stretch and no region writing one.
-/
import proofs.«137375_j22127671509167_2_alg».proof.Proof.Gen.Kernel.Launch
import proofs.«137375_j22127671509167_2_alg».proof.Proof.Gen.Kernel.Skeleton
import proofs.«137375_j22127671509167_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«137375_j22127671509167_2_alg».proof.Proof.Gen.Kernel.Regions
import proofs.«137375_j22127671509167_2_alg».proof.Proof.K.Region0
import proofs.«137375_j22127671509167_2_alg».proof.Proof.K.Region1
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The scratch buffers in and out of the second region's invariant -/

/-- Before the first point the three scratch buffers are whole at some contents. -/
theorem carried_zero (c : Dev nD) (h : 0 ≤ cfg1.N) :
    (carried (V3 m) c 0 h : sProp 𝕄)
      = iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f)) := by
  rw [carried]; simp only [scM0, scM1, scM2, owns_whole]; try rfl

/-- At any position they are whole at some contents. -/
theorem carried_forget (c : Dev nD) (n : ℕ) (h : n ≤ cfg1.N) :
    carried (V3 m) c n h ⊢ (iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f)) : sProp 𝕄) := by
  cases n with
  | zero => rw [carried_zero]
  | succ n =>
    rw [carried]; simp only [scM0, scM1, scM2, owns_whole]
    iintro ⟨H0, H1, H2⟩
    isplitl [H0]; · iexists _; iexact H0
    isplitl [H1]; · iexists _; iexact H1
    iexists _; iexact H2

/-! ## The regions as segments -/

set_option backward.isDefEq.respectTransparency.types false in
/-- Region 0 (the projection kernel): entered with every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the attention kernel): entered with every unscoped buffer at `W3`, left at `W4`; its scratch buffers go
    into the invariant at whatever they hold and come back at whatever the last point left. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS (V3 m) c 0 (Nat.zero_le _) from rfl]; unfold PhiS rest1
    rw [carried_zero]
    rw [show (Pipeline.scopedRest (Pipeline.pin (pcfgs (F := F)) adm 1).spec c : sProp 𝕄) = _ from
      scopedRest1_eq (Ix := Unit) (Val := Elt F) (Name := ℕ) (U := UR sig nD τ) (Lvl := ℕ) c]
    iintro ⟨Hp, -, ⟨S0, S1, S2, S3, S4, S5, S6, S7, S8, S9, T0, T1, T2⟩⟩
    isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    isplitl [T0 T1 T2]
    · isplitl [T0]; · iexact T0
      isplitl [T1]; · iexact T1
      iexact T2
    iexact Hp
  hout c := by
    rw [Pipeline.ownSems0_none, show (pdats m 1 c).Φ (Fin.last _) = PhiS (V3 m) c (Fin.last cfg1.N).val (Nat.le_of_lt_succ (Fin.last cfg1.N).isLt) from rfl]
    unfold PhiS rest1
    rw [show (Pipeline.scopedRest (Pipeline.pin (pcfgs (F := F)) adm 1).spec c : sProp 𝕄) = _ from
      scopedRest1_eq (Ix := Unit) (Val := Elt F) (Name := ℕ) (U := UR sig nD τ) (Lvl := ℕ) c]
    iintro ⟨⟨S0, S1, S2, S3, S4, S5, S6, S7, S8, S9⟩, Hcar, Hp⟩
    ihave Hc := (carried_forget m c _ _) $$ Hcar
    icases Hc with ⟨T0, T1, T2⟩
    isplitl [Hp]; · iexact Hp
    isplitr; · iempintro
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [T0]; · iexact T0
    isplitl [T1]; · iexact T1
    iexact T2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and in
    every final state every unscoped buffer of every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.Kernel.Hand

end
-- ==== Proof.KI.Region0.lean ====
/- Region 0 of @main: the projection kernel's half of the frame, at a parameter `V` (the TensorCore's buffer
   contents when the region is entered). The kernel reads a block of 1024 rows of the activations, the whole weight
   matrix and the whole bias row, forms rows · weights + bias (1024 × 1280), and stores its three column ranges
   [0, 512), [512, 1024), [1024, 1280) into three output blocks. Here: each window's block at a grid point, what the
   body leaves in each output block as a function of the three input blocks, the body's triple, the proof data of
   the pipeline and its body obligation. Generic in the float instance. -/
import proofs.«137375_j22127671509167_2_alg».proof.Proof.Gen.KernelIdeal.Launch
import proofs.«137375_j22127671509167_2_alg».proof.Proof.Gen.KernelIdeal.Skeleton
import proofs.«137375_j22127671509167_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1024 × 512 (the tiling check of the stores) recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window (a new block of 1024 rows at every point): its current staging buffer holds the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window (one block, the whole matrix, fetched at the first point only): at a later point the block
    index has not moved and the body left the block in place, so the buffer still holds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's window (one block, fetched at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole block -/

abbrev r0_x : Rect S1024x512 := Rect.unit (s := S1024x512) ![0, 0] S1024x512.size inb_S1024x512_S1024x512_0_0
abbrev r0_w : Rect S512x1280 := Rect.unit (s := S512x1280) ![0, 0] S512x1280.size inb_S512x1280_S512x1280_0_0
abbrev r0_b : Rect S1x1280 := Rect.unit (s := S1x1280) ![0, 0] S1x1280.size inb_S1x1280_S1x1280_0_0
abbrev r0_v : Rect S1024x256 := Rect.unit (s := S1024x256) ![0, 0] S1024x256.size inb_S1024x256_S1024x256_0_0

/-! ## What the body leaves in each output window's buffer -/

/-- The first output block after the body: columns [0, 512) of rows · weights + bias, stored whole. -/
def out0_3 (x0 : Vec F S1024x512 .f32) (x1 : Vec F S512x1280 .bf16) (x2 : Vec F S1x1280 .f32) : Vec F S1024x512 .bf16 :=
  View.canon [⟨r0_x, k0_pay2 (View.ld x0 r0_x) (View.ld x1 r0_w) (View.ld x2 r0_b)⟩]

/-- The second output block: columns [512, 1024). -/
def out0_4 (x0 : Vec F S1024x512 .f32) (x1 : Vec F S512x1280 .bf16) (x2 : Vec F S1x1280 .f32) : Vec F S1024x512 .bf16 :=
  View.canon [⟨r0_x, k0_pay3 (View.ld x0 r0_x) (View.ld x1 r0_w) (View.ld x2 r0_b)⟩]

/-- The third output block: columns [1024, 1280). -/
def out0_5 (x0 : Vec F S1024x512 .f32) (x1 : Vec F S512x1280 .bf16) (x2 : Vec F S1x1280 .f32) : Vec F S1024x256 .bf16 :=
  View.canon [⟨r0_v, k0_pay4 (View.ld x0 r0_x) (View.ld x1 r0_w) (View.ld x2 r0_b)⟩]

/-- One whole-block store covers a 1024 × 512 buffer. -/
theorem cover0_x (p0 : Vec F S1024x512 .bf16) (y : S1024x512.Idx) :
    ∃ pc ∈ ([⟨r0_x, p0⟩] : List (View.Piece (Elt F) S1024x512 .bf16)), y ∈ pc.1.set :=
  View.cover_of_tiled [⟨r0_x, p0⟩] S1024x512.size (by rfl) y

/-- One whole-block store covers a 1024 × 256 buffer. -/
theorem cover0_v (p0 : Vec F S1024x256 .bf16) (y : S1024x256.Idx) :
    ∃ pc ∈ ([⟨r0_v, p0⟩] : List (View.Piece (Elt F) S1024x256 .bf16)), y ∈ pc.1.set :=
  View.cover_of_tiled [⟨r0_v, p0⟩] S1024x256.size (by rfl) y

/-! ## The body's triple -/

set_option maxHeartbeats 1000000 in
/-- The kernel body on whole staging memrefs, the three inputs' at read contents `x0`, `x1`, `x2` and the three
    outputs' at anything (the body loads each output buffer before storing it and drops what it read), runs to the
    continuation holding the inputs' as they were and each output's at `out0_W` of the inputs'. -/
theorem sound_kernel0 (c : Dev nD) (E : Set ℕ) (i : grid0.Coords)
    (arg1 : Memref sig .tc .vmem S1024x512 .f32) (harg1 : arg1.IsWhole) (arg2 : Memref sig .tc .vmem S512x1280 .bf16) (harg2 : arg2.IsWhole)
    (arg3 : Memref sig .tc .vmem S1x1280 .f32) (harg3 : arg3.IsWhole) (arg4 : Memref sig .tc .vmem S1024x512 .bf16) (harg4 : arg4.IsWhole)
    (arg5 : Memref sig .tc .vmem S1024x512 .bf16) (harg5 : arg5.IsWhole) (arg6 : Memref sig .tc .vmem S1024x256 .bf16) (harg6 : arg6.IsWhole)
    (x0 : Vec F S1024x512 .f32) (x1 : Vec F S512x1280 .bf16) (x2 : Vec F S1x1280 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_x _)
  isplitl [H4]
  · iexists _; isplitr
    swap; · iexact H4
    ipureintro
    exact View.read_writes_eq_canon _ _ _ (cover0_x _)
  iexists _; isplitr
  swap; · iexact H5
  ipureintro
  exact View.read_writes_eq_canon _ _ _ (cover0_v _)

/-! ## The pipeline's proof data -/

/-- The proof data of the projection pipeline on core `c`: the arrays as the region finds them; after the body at
    point `t` each input's buffer at its block and each output's at `out0_W` of the three input blocks; the invariant
    "the scoped rest and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Body.lean ====
/-
  The flash-attention body at one grid point (query block qi, key block ki), as a step on three carried arrays:
  the running row maximum m, the running denominator l and the running numerator a. With the blocks q, k, v of
  the point, s = q·kᵀ, the step is  m' = max m (row max of s),  l' = exp (m − m')·l + Σ exp (s − m'),
  a' = exp (m − m')·a + exp (s − m')·v.  At the first key block (ki = 0) the body first resets the three arrays to
  (−∞, 0, 0); at the last one (ki = 15) it also writes a'/l' to the output block. The three cases are run once
  each; the conditions are decided over the 4×16 grid in closed form.
-/
import proofs.«137375_j22127671509167_2_alg».proof.Proof.Gen.KernelIdeal.Launch
import proofs.«137375_j22127671509167_2_alg».proof.Proof.Gen.KernelIdeal.Skeleton
import proofs.«137375_j22127671509167_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The body resets the carried arrays: the key-block coordinate is 0. -/
abbrev cond1_0 (i : grid1.Coords) : Prop :=
  Scalar.cmpi .ne (Scalar.extui (Scalar.cmpi .eq (BitVec.ofNat 32 (i 1).val) 0#32)) 0#32 = 1#1
/-- The body writes the output block: the key-block coordinate is 15. -/
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-! ## The step on the carried arrays -/

/-- The three carried arrays: running maximum, denominator, numerator. -/
abbrev Carry (F : FTy → Type) : Type := Vec F S4x1024x1 .f32 × Vec F S4x1024x1 .f32 × Vec F S4x1024x256 .f32

/-- What the reset stores: (−∞, 0, 0). -/
def carry0 : Carry F := (k1_pay4, k1_pay5, k1_pay6)

/-- One point's update of the carried arrays from the point's blocks. -/
def carryStep (x0 : Vec F S4x1024x512 .bf16) (x1 : Vec F S4x256x512 .bf16) (x2 : Vec F S4x256x256 .bf16) (s : Carry F) : Carry F :=
  (k1_pay2 (k1_pay9 x0 x1 s.1), k1_pay12 x0 x1 s.1 s.1 s.2.1,
   k1_pay1 (k1_pay7 x2) (k1_pay10 x0 x1 s.1 s.1) (k1_pay11 x0 x1 s.1) s.2.2)

/-- What the last key block writes to the output block: numerator over denominator. -/
def carryOut (s : Carry F) : Vec F S4x1024x256 .f32 := k1_pay3 s.2.2 s.2.1

/-! ## Whole-buffer loads and stores read back -/

theorem zero3 : (![0, 0, 0] : Fin 3 → ℕ) = fun _ => 0 := by
  funext a; match a with | ⟨0, _⟩ => rfl | ⟨1, _⟩ => rfl | ⟨2, _⟩ => rfl

section ReadBack
variable {Val : EltTy → Type} [∀ e, Nonempty (Val e)] {S : Shape} {e : EltTy} {sig' : RefSig} {κ : Kind} {sp : Space}

/-- A load of the whole buffer reads its contents. -/
theorem readAt_whole (v : View sig' κ sp S e) (g : v.ty.Contents Val) {off : Fin S.rank → Nat} (h : off = fun _ => 0)
    (inb : ∀ a, off a + S.size a ≤ S.size a) : v.readAt Val (Rect.unit off S.size inb).toLoadRect g = v.read Val g := by
  rw [View.readAt_eq_ld]; exact View.ld_unit_zero h inb _

/-- After a last store of the whole buffer the buffer reads as that store's payload. -/
theorem read_writes_whole (v : View sig' κ sp S e) (g : v.ty.Contents Val) {off : Fin S.rank → Nat} (h : off = fun _ => 0)
    (inb : ∀ a, off a + S.size a ≤ S.size a) (w : S.Idx → Val e) (L : List (View.Piece Val S e)) :
    v.read Val (v.writes Val g ((⟨Rect.unit off S.size inb, w⟩ : View.Piece Val S e) :: L)) = w := by
  rw [View.read_writes_eq_canon v g _ (fun y => ⟨_, List.mem_cons_self, View.mem_set_unit_zero h inb y⟩)]
  exact View.canon_cons_unit_zero h inb w L

end ReadBack

/-! ## The body's triple, case by case -/

set_option maxHeartbeats 2000000 in
/-- A middle key block (neither reset nor output): the three carried arrays move by one step; the inputs and the output
    block's buffer are untouched. -/
theorem run_mid (c : Dev nD) (i : grid1.Coords) (arg2 : Memref sig .tc .vmem S4x1024x512 .bf16) (harg2 : arg2.IsWhole) (arg3 : Memref sig .tc .vmem S4x256x512 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x256 .f32) (harg8 : arg8.IsWhole) (hc0 : ¬cond1_0 i) (hc1 : ¬cond1_1 i)
    (x0 : Vec F S4x1024x512 .bf16) (x1 : Vec F S4x256x512 .bf16) (x2 : Vec F S4x256x256 .bf16) (s : Carry F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2
            ∗ owns (c : Thread nD τ) arg6 fullShare (carryStep x0 x1 x2 s).1 ∗ owns (c : Thread nD τ) arg7 fullShare (carryStep x0 x1 x2 s).2.1
            ∗ owns (c : Thread nD τ) arg8 fullShare (carryStep x0 x1 x2 s).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, Hk⟩
  obtain rfl := harg2.eq_unread hf0
  obtain rfl := harg3.eq_unread hf1
  obtain rfl := harg4.eq_unread hf2
  obtain rfl := harg6.eq_unread hf6
  obtain rfl := harg7.eq_unread hf7
  obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    refine (read_writes_whole _ _ zero3 _ _ _).trans ?_
    simp only [readAt_whole arg2.view _ zero3, readAt_whole arg3.view _ zero3, readAt_whole arg4.view _ zero3, readAt_whole arg6.view _ zero3,
      readAt_whole arg7.view _ zero3, readAt_whole arg8.view _ zero3, Memref.IsWhole.read_unread, carryStep]
  isplitl [H7]
  · iexists _; isplitr
    swap; · iexact H7
    ipureintro
    refine (read_writes_whole _ _ zero3 _ _ _).trans ?_
    simp only [readAt_whole arg2.view _ zero3, readAt_whole arg3.view _ zero3, readAt_whole arg4.view _ zero3, readAt_whole arg6.view _ zero3,
      readAt_whole arg7.view _ zero3, readAt_whole arg8.view _ zero3, Memref.IsWhole.read_unread, carryStep]
  iexists _; isplitr
  swap; · iexact H8
  ipureintro
  refine (read_writes_whole _ _ zero3 _ _ _).trans ?_
  sl_unfold_run_names
  simp only [readAt_whole arg2.view _ zero3, readAt_whole arg3.view _ zero3, readAt_whole arg4.view _ zero3, readAt_whole arg6.view _ zero3,
      readAt_whole arg7.view _ zero3, readAt_whole arg8.view _ zero3, Memref.IsWhole.read_unread, carryStep]

set_option maxHeartbeats 2000000 in
/-- The first key block of a query block: the body resets the carried arrays to (−∞, 0, 0), whatever they held, and
    takes one step from there. -/
theorem run_first (c : Dev nD) (i : grid1.Coords) (arg2 : Memref sig .tc .vmem S4x1024x512 .bf16) (harg2 : arg2.IsWhole) (arg3 : Memref sig .tc .vmem S4x256x512 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x256 .f32) (harg8 : arg8.IsWhole) (hc0 : cond1_0 i) (hc1 : ¬cond1_1 i)
    (x0 : Vec F S4x1024x512 .bf16) (x1 : Vec F S4x256x512 .bf16) (x2 : Vec F S4x256x256 .bf16) (s : Carry F)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2
            ∗ owns (c : Thread nD τ) arg6 fullShare (carryStep x0 x1 x2 carry0).1 ∗ owns (c : Thread nD τ) arg7 fullShare (carryStep x0 x1 x2 carry0).2.1
            ∗ owns (c : Thread nD τ) arg8 fullShare (carryStep x0 x1 x2 carry0).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, Hk⟩
  obtain rfl := harg2.eq_unread hf0
  obtain rfl := harg3.eq_unread hf1
  obtain rfl := harg4.eq_unread hf2
  obtain rfl := harg6.eq_unread hf6
  obtain rfl := harg7.eq_unread hf7
  obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H6]
  · iexists _; isplitr
    swap; · iexact H6
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]
  isplitl [H7]
  · iexists _; isplitr
    swap; · iexact H7
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]
  iexists _; isplitr
  swap; · iexact H8
  ipureintro
  refine (read_writes_whole _ _ zero3 _ _ _).trans ?_
  sl_unfold_run_names
  simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]

set_option maxHeartbeats 2000000 in
/-- The last key block of a query block: one step, then the output block's buffer receives numerator / denominator. -/
theorem run_last (c : Dev nD) (i : grid1.Coords) (arg2 : Memref sig .tc .vmem S4x1024x512 .bf16) (harg2 : arg2.IsWhole) (arg3 : Memref sig .tc .vmem S4x256x512 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x256 .f32) (harg8 : arg8.IsWhole) (hc0 : ¬cond1_0 i) (hc1 : cond1_1 i)
    (x0 : Vec F S4x1024x512 .bf16) (x1 : Vec F S4x256x512 .bf16) (x2 : Vec F S4x256x256 .bf16) (s : Carry F)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare x0 ∗ owns (c : Thread nD τ) arg3 fullShare x1 ∗ owns (c : Thread nD τ) arg4 fullShare x2
            ∗ owns (c : Thread nD τ) arg5 fullShare (carryOut (carryStep x0 x1 x2 s))
            ∗ owns (c : Thread nD τ) arg6 fullShare (carryStep x0 x1 x2 s).1 ∗ owns (c : Thread nD τ) arg7 fullShare (carryStep x0 x1 x2 s).2.1
            ∗ owns (c : Thread nD τ) arg8 fullShare (carryStep x0 x1 x2 s).2.2) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f0, %hf0, H0⟩, ⟨%f1, %hf1, H1⟩, ⟨%f2, %hf2, H2⟩, ⟨%d5, %f5, -, H5⟩, ⟨%f6, %hf6, H6⟩, ⟨%f7, %hf7, H7⟩, ⟨%f8, %hf8, H8⟩, Hk⟩
  obtain rfl := harg2.eq_unread hf0
  obtain rfl := harg3.eq_unread hf1
  obtain rfl := harg4.eq_unread hf2
  obtain rfl := harg6.eq_unread hf6
  obtain rfl := harg7.eq_unread hf7
  obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0, carryOut]
  isplitl [H6]
  · iexists _; isplitr
    swap; · iexact H6
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]
  isplitl [H7]
  · iexists _; isplitr
    swap; · iexact H7
    ipureintro
    refine (read_writes_whole _ _ zero3 _ _ _).trans ?_
    sl_unfold_run_names
    simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]
  iexists _; isplitr
  swap; · iexact H8
  ipureintro
  refine (read_writes_whole _ _ zero3 _ _ _).trans ?_
  sl_unfold_run_names
  simp only [readAt_whole arg2.view _ zero3, readAt_whole arg3.view _ zero3, readAt_whole arg4.view _ zero3, readAt_whole arg6.view _ zero3,
      readAt_whole arg7.view _ zero3, readAt_whole arg8.view _ zero3, read_writes_whole arg6.view _ zero3, read_writes_whole arg7.view _ zero3,
      read_writes_whole arg8.view _ zero3, View.readCov_unit_zero arg6.view zero3, View.readCov_unit_zero arg7.view zero3,
      View.readCov_unit_zero arg8.view zero3, Memref.IsWhole.read_unread, carryStep, carry0]

end Cert.KernelIdeal.Hand

end
-- ==== Proof.KI.Region1.lean ====
/-
  The flash-attention region's proof data. Grid point t = 16·qi + ki. The three carried arrays after point t are a
  recursion over the points: one step from the reset values at ki = 0, one step from the previous point's arrays
  otherwise. Between points the region's invariant holds the three scratch buffers at those arrays (before the
  first point: at anything). The output block's buffer is written only at ki = 15, with numerator / denominator of
  the arrays after that point; at the other points it is handed back as found.
-/
import proofs.«137375_j22127671509167_2_alg».proof.Proof.Gen.KernelIdeal.Launch
import proofs.«137375_j22127671509167_2_alg».proof.Proof.Gen.KernelIdeal.Skeleton
import proofs.«137375_j22127671509167_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«137375_j22127671509167_2_alg».proof.Proof.KI.Region1Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window (a new block of 1024 rows every 16 points): its current staging buffer holds the point's block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window (a new block of 256 rows at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window (a new block of 256 rows at every point). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The carried arrays, point by point -/

/-- The carried arrays after point `n`: one step from the reset values where the key-block coordinate is 0, else one
    step from what the previous point left. -/
def carryAt (c : Dev nD) : (n : ℕ) → n < cfg1.N → Carry F
  | 0, hn => carryStep (iblk1 V c 0 ⟨0, hn⟩) (iblk1 V c 1 ⟨0, hn⟩) (iblk1 V c 2 ⟨0, hn⟩) carry0
  | n + 1, hn => carryStep (iblk1 V c 0 ⟨n + 1, hn⟩) (iblk1 V c 1 ⟨n + 1, hn⟩) (iblk1 V c 2 ⟨n + 1, hn⟩)
      (if (n + 1) % 16 = 0 then carry0 else carryAt c n (Nat.lt_of_succ_lt hn))

theorem carryAt_reset (c : Dev nD) (t : Fin cfg1.N) (h0 : t.val % 16 = 0) :
    carryAt V c t.val t.isLt = carryStep (iblk1 V c 0 t) (iblk1 V c 1 t) (iblk1 V c 2 t) carry0 := by
  obtain ⟨n, hn⟩ := t
  cases n with
  | zero => rfl
  | succ n => show carryAt V c (n + 1) hn = _; rw [carryAt, if_pos h0]

theorem carryAt_step (c : Dev nD) (n : ℕ) (hn : n + 1 < cfg1.N) (h0 : (n + 1) % 16 ≠ 0) :
    carryAt V c (n + 1) hn = carryStep (iblk1 V c 0 ⟨n + 1, hn⟩) (iblk1 V c 1 ⟨n + 1, hn⟩) (iblk1 V c 2 ⟨n + 1, hn⟩)
      (carryAt V c n (Nat.lt_of_succ_lt hn)) := by
  rw [carryAt, if_neg h0]

/-! ## The region's invariant -/

abbrev scM0 : Memref sig .tc .vmem S4x1024x1 .f32 := Memref.whole cc1_scratch0
abbrev scM1 : Memref sig .tc .vmem S4x1024x1 .f32 := Memref.whole cc1_scratch1
abbrev scM2 : Memref sig .tc .vmem S4x1024x256 .f32 := Memref.whole cc1_scratch2

/-- The scoped buffers the region never touches (the other region's staging buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The three scratch buffers before position `n`: at anything before the first point, else at the carried arrays
    after point `n − 1`. -/
def carried (c : Dev nD) : (n : ℕ) → n ≤ cfg1.N → sProp 𝕄
  | 0, _ => iprop((∃ d, owns (c : Thread nD τ) scM0 fullShare d) ∗ (∃ d, owns (c : Thread nD τ) scM1 fullShare d)
      ∗ (∃ d, owns (c : Thread nD τ) scM2 fullShare d))
  | n + 1, h => iprop(owns (c : Thread nD τ) scM0 fullShare (carryAt V c n h).1 ∗ owns (c : Thread nD τ) scM1 fullShare (carryAt V c n h).2.1
      ∗ owns (c : Thread nD τ) scM2 fullShare (carryAt V c n h).2.2)

/-- Whatever the position, the scratch buffers hold SOME arrays; after the first point they are the carried ones. -/
theorem carried_elim (c : Dev nD) (n : ℕ) (h : n ≤ cfg1.N) :
    carried V c n h ⊢ (iprop(∃ s : Carry F, ⌜∀ k (hk : k < cfg1.N), n = k + 1 → s = carryAt V c k hk⌝
      ∗ owns (c : Thread nD τ) scM0 fullShare s.1 ∗ owns (c : Thread nD τ) scM1 fullShare s.2.1 ∗ owns (c : Thread nD τ) scM2 fullShare s.2.2) : sProp 𝕄) := by
  cases n with
  | zero =>
    rw [carried]
    iintro ⟨⟨%d0, H0⟩, ⟨%d1, H1⟩, ⟨%d2, H2⟩⟩
    iexists (d0, d1, d2); isplitr; · ipureintro; intro k hk e; omega
    isplitl [H0]; · iexact H0
    isplitl [H1]; · iexact H1
    iexact H2
  | succ n =>
    rw [carried]
    iintro ⟨H0, H1, H2⟩
    iexists carryAt V c n h; isplitr
    · ipureintro; intro k hk e; have : k = n := by omega
      subst this; rfl
    isplitl [H0]; · iexact H0
    isplitl [H1]; · iexact H1
    iexact H2

/-- The invariant before position `n`. -/
def PhiS (c : Dev nD) (n : ℕ) (h : n ≤ cfg1.N) : sProp 𝕄 :=
  iprop(rest1 (F := F) c ∗ carried V c n h ∗ (∃ r, prngReg c r))

/-! ## The pipeline's proof data -/

/-- The proof data of the region on core `c`: the arrays as the region finds them; after the body at point `t` each
    input's buffer at its block and the output's at numerator / denominator of the carried arrays after `t` (consulted
    only where the block is written back); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => carryOut (carryAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = carryOut (carryAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Where the output window is idle, in closed form -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idle1_3 : ∀ t : Fin cfg1.N, cfg1.idle 3 (grid1.coords t) = true ↔ t.val % 16 ≠ 15 :=
  (by decide +kernel : ∀ t : Fin grid1.N, cfg1.idle 3 (grid1.coords t) = true ↔ t.val % 16 ≠ 15)
theorem live1_3 : ∀ t : Fin cfg1.N, cfg1.idle 3 (grid1.coords t) = false ↔ t.val % 16 = 15 :=
  (by decide +kernel : ∀ t : Fin grid1.N, cfg1.idle 3 (grid1.coords t) = false ↔ t.val % 16 = 15)
theorem noFlush1_3 : ∀ t : Fin cfg1.N, (cfg1.win 3).flush t = false ↔ t.val % 16 ≠ 15 :=
  (by decide +kernel : ∀ t : Fin grid1.N, win1_3.flush t = false ↔ t.val % 16 ≠ 15)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 3200000 in
/-- The body at any point: the inputs' buffers hold the point's blocks; the invariant hands over the scratch buffers at
    what the previous point left (or at anything, before the first point, where the body resets them); the closed forms
    of the two conditions select the case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_castSucc V c t]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  unfold PhiS
  have hN : t.val < 64 := lt_of_lt_of_eq t.isLt (show cfg1.N = 64 from N_1)
  by_cases h15 : t.val % 16 = 15
  · -- the last key block: one step from what the previous point left, and the output
    rw [show (dat1 V c).leavesExact 3 t = owns (c : Thread nD τ) (st1_3 t) fullShare ((dat1 V c).after 3 t) from by
        unfold Dat.leavesExact; rw [(live1_3 t).mpr h15], after1_3]
    obtain ⟨n, hn⟩ := t
    cases n with
    | zero => exfalso; dsimp only at h15; omega
    | succ n =>
      have h0 : (n + 1) % 16 ≠ 0 := by dsimp only at h15; omega
      iintro ⟨⟨Hrest, Hcar, Hg⟩, Ho, ⟨%d0, H0⟩, ⟨%d1, H1⟩, ⟨%d2, H2⟩, ⟨%d3, H3⟩⟩
      ihave Hc := (carried_elim V c (n + 1) (Nat.le_of_lt hn)) $$ Hcar
      icases Hc with ⟨%s, %hs, H6, H7, H8⟩
      obtain rfl := hs n (Nat.lt_of_succ_lt hn) rfl
      iapply (run_last c (grid1.coords ⟨n + 1, hn⟩) _ _ _ _ _ _ _ _ _ _ _ _ _ _ (fun h => h0 ((hcond1_0 ⟨n + 1, hn⟩).mp h)) ((hcond1_1 ⟨n + 1, hn⟩).mpr h15)
        (iblk1 V c 0 ⟨n + 1, hn⟩) (iblk1 V c 1 ⟨n + 1, hn⟩) (iblk1 V c 2 ⟨n + 1, hn⟩) (carryAt V c n (Nat.lt_of_succ_lt hn)) Set.univ _)
      isplitl [H0]; · iexact H0
      isplitl [H1]; · iexact H1
      isplitl [H2]; · iexact H2
      isplitl [H3]; · iexists _; iexact H3
      isplitl [H6]; · iexact H6
      isplitl [H7]; · iexact H7
      isplitl [H8]; · iexact H8
      iintro ⟨H0, H1, H2, H3, H6, H7, H8⟩
      rw [show carried V c (n + 1 + 1) hn = _ from carried.eq_2 V c (n + 1) hn, carryAt_step V c n hn h0]
      isplitl [Hrest H6 H7 H8 Hg]
      · isplitl [Hrest]; · iexact Hrest
        isplitr [Hg]
        · isplitl [H6]; · iexact H6
          isplitl [H7]; · iexact H7
          iexact H8
        iexact Hg
      isplitl [Ho]; · iexact Ho
      isplitl [H0]; · iexact H0
      isplitl [H1]; · iexact H1
      isplitl [H2]; · iexact H2
      iexact H3
  · rw [Dat.leavesExact_idle (dat1 V c) 3 t ((idle1_3 t).mpr h15) ((noFlush1_3 t).mpr h15)]
    by_cases h0 : t.val % 16 = 0
    · -- the first key block: the body resets the scratch buffers, whatever they held
      iintro ⟨⟨Hrest, Hcar, Hg⟩, Ho, ⟨%d0, H0⟩, ⟨%d1, H1⟩, ⟨%d2, H2⟩, ⟨%d3, H3⟩⟩
      ihave Hc := (carried_elim V c t.val (Nat.le_of_lt t.isLt)) $$ Hcar
      icases Hc with ⟨%s, -, H6, H7, H8⟩
      iapply (run_first c (grid1.coords t) _ _ _ _ _ _ _ _ _ _ _ _ _ _ ((hcond1_0 t).mpr h0) (fun h => h15 ((hcond1_1 t).mp h))
        (iblk1 V c 0 t) (iblk1 V c 1 t) (iblk1 V c 2 t) s Set.univ _)
      isplitl [H0]; · iexact H0
      isplitl [H1]; · iexact H1
      isplitl [H2]; · iexact H2
      isplitl [H6]; · iexact H6
      isplitl [H7]; · iexact H7
      isplitl [H8]; · iexact H8
      iintro ⟨H0, H1, H2, H6, H7, H8⟩
      rw [show carried V c (t.val + 1) t.isLt = _ from carried.eq_2 V c t.val t.isLt, carryAt_reset V c t h0]
      isplitl [Hrest H6 H7 H8 Hg]
      · isplitl [Hrest]; · iexact Hrest
        isplitr [Hg]
        · isplitl [H6]; · iexact H6
          isplitl [H7]; · iexact H7
          iexact H8
        iexact Hg
      isplitl [Ho]; · iexact Ho
      isplitl [H0]; · iexact H0
      isplitl [H1]; · iexact H1
      isplitl [H2]; · iexact H2
      iexists _; iexact H3
    · -- a middle key block: one step from what the previous point left
      obtain ⟨n, hn⟩ := t
      cases n with
      | zero => exfalso; exact h0 rfl
      | succ n =>
        iintro ⟨⟨Hrest, Hcar, Hg⟩, Ho, ⟨%d0, H0⟩, ⟨%d1, H1⟩, ⟨%d2, H2⟩, ⟨%d3, H3⟩⟩
        ihave Hc := (carried_elim V c (n + 1) (Nat.le_of_lt hn)) $$ Hcar
        icases Hc with ⟨%s, %hs, H6, H7, H8⟩
        obtain rfl := hs n (Nat.lt_of_succ_lt hn) rfl
        iapply (run_mid c (grid1.coords ⟨n + 1, hn⟩) _ _ _ _ _ _ _ _ _ _ _ _ _ _ (fun h => h0 ((hcond1_0 ⟨n + 1, hn⟩).mp h)) (fun h => h15 ((hcond1_1 ⟨n + 1, hn⟩).mp h))
          (iblk1 V c 0 ⟨n + 1, hn⟩) (iblk1 V c 1 ⟨n + 1, hn⟩) (iblk1 V c 2 ⟨n + 1, hn⟩) (carryAt V c n (Nat.lt_of_succ_lt hn)) Set.univ _)
        isplitl [H0]; · iexact H0
        isplitl [H1]; · iexact H1
        isplitl [H2]; · iexact H2
        isplitl [H6]; · iexact H6
        isplitl [H7]; · iexact H7
        isplitl [H8]; · iexact H8
        iintro ⟨H0, H1, H2, H6, H7, H8⟩
        rw [show carried V c (n + 1 + 1) hn = _ from carried.eq_2 V c (n + 1) hn, carryAt_step V c n hn h0]
        isplitl [Hrest H6 H7 H8 Hg]
        · isplitl [Hrest]; · iexact Hrest
          isplitr [Hg]
          · isplitl [H6]; · iexact H6
            isplitl [H7]; · iexact H7
            iexact H8
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Frame.lean ====
/-
  The whole program as a run: two stretches of host operations and two kernel regions. The contents of the
  unscoped buffers at each boundary are a fold from the launch memory: a host stretch applies its operations, a
  region replaces its windows' arrays by what its write-backs leave and keeps every other buffer. Each region is
  entered with every unscoped buffer at the boundary's contents and left with them at the next boundary's; the first
  region's invariant is the plain one (its scoped rest untouched), the second's holds its three scratch buffers at
  the carried arrays. At the end every unscoped buffer is read back at the last boundary's contents; the argument
  arrays walk back through the fold to the launch memory, no stretch and no region writing one.
-/
import proofs.«137375_j22127671509167_2_alg».proof.Proof.Gen.KernelIdeal.Launch
import proofs.«137375_j22127671509167_2_alg».proof.Proof.Gen.KernelIdeal.Skeleton
import proofs.«137375_j22127671509167_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«137375_j22127671509167_2_alg».proof.Proof.Gen.KernelIdeal.Regions
import proofs.«137375_j22127671509167_2_alg».proof.Proof.KI.Region0
import proofs.«137375_j22127671509167_2_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The scratch buffers in and out of the second region's invariant -/

/-- Before the first point the three scratch buffers are whole at some contents. -/
theorem carried_zero (c : Dev nD) (h : 0 ≤ cfg1.N) :
    (carried (V3 m) c 0 h : sProp 𝕄)
      = iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f)) := by
  rw [carried]; simp only [scM0, scM1, scM2, owns_whole]; try rfl

/-- At any position they are whole at some contents. -/
theorem carried_forget (c : Dev nD) (n : ℕ) (h : n ≤ cfg1.N) :
    carried (V3 m) c n h ⊢ (iprop((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f)) : sProp 𝕄) := by
  cases n with
  | zero => rw [carried_zero]
  | succ n =>
    rw [carried]; simp only [scM0, scM1, scM2, owns_whole]
    iintro ⟨H0, H1, H2⟩
    isplitl [H0]; · iexists _; iexact H0
    isplitl [H1]; · iexists _; iexact H1
    iexists _; iexact H2

/-! ## The regions as segments -/

set_option backward.isDefEq.respectTransparency.types false in
/-- Region 0 (the projection kernel): entered with every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the attention kernel): entered with every unscoped buffer at `W3`, left at `W4`; its scratch buffers go
    into the invariant at whatever they hold and come back at whatever the last point left. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS (V3 m) c 0 (Nat.zero_le _) from rfl]; unfold PhiS rest1
    rw [carried_zero]
    rw [show (Pipeline.scopedRest (Pipeline.pin (pcfgs (F := F)) adm 1).spec c : sProp 𝕄) = _ from
      scopedRest1_eq (Ix := Unit) (Val := Elt F) (Name := ℕ) (U := UR sig nD τ) (Lvl := ℕ) c]
    iintro ⟨Hp, -, ⟨S0, S1, S2, S3, S4, S5, S6, S7, S8, S9, T0, T1, T2⟩⟩
    isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    isplitl [T0 T1 T2]
    · isplitl [T0]; · iexact T0
      isplitl [T1]; · iexact T1
      iexact T2
    iexact Hp
  hout c := by
    rw [Pipeline.ownSems0_none, show (pdats m 1 c).Φ (Fin.last _) = PhiS (V3 m) c (Fin.last cfg1.N).val (Nat.le_of_lt_succ (Fin.last cfg1.N).isLt) from rfl]
    unfold PhiS rest1
    rw [show (Pipeline.scopedRest (Pipeline.pin (pcfgs (F := F)) adm 1).spec c : sProp 𝕄) = _ from
      scopedRest1_eq (Ix := Unit) (Val := Elt F) (Name := ℕ) (U := UR sig nD τ) (Lvl := ℕ) c]
    iintro ⟨⟨S0, S1, S2, S3, S4, S5, S6, S7, S8, S9⟩, Hcar, Hp⟩
    ihave Hc := (carried_forget m c _ _) $$ Hcar
    icases Hc with ⟨T0, T1, T2⟩
    isplitl [Hp]; · iexact Hp
    isplitr; · iempintro
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [T0]; · iexact T0
    isplitl [T1]; · iexact T1
    iexact T2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and in
    every final state every unscoped buffer of every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.KernelIdeal.Hand

end
-- ==== Proof.LibRowForms.lean ====
/-
  Forms read at an index, for a body that sums each row of a block over its last axis, sends the sums through dense layers,
  and spreads each result back along that axis. Every lemma is over extents left as variables, with indices written by
  coordinates, so it applies to a block of any height by unification.

  * `shapeCast_ab_ab1_apply`: an `[a, b]` array viewed `[a, b, 1]` reads, at `(p, q, 0)`, the operand at `(p, q)`: both
    indices sit at the same row-major position.
  * `broadcastTo_ab1_abc_apply`: an `[a, b, 1]` array spread to `[a, b, c]` reads, at `(p, q, r)`, the operand at
    `(p, q, 0)`: the last coordinate is forgotten.
  * `laneSum_abc_apply`: on the extended reals, the sum of an `[a, b, c]` array over its last axis is, at `(p, q)`, the
    sum over `r` of the entries `(p, q, r)`.
  * `matmul_rowsRows_apply`: on the extended reals, into a zero accumulator, an `[a, k]` array against a `[b, k]` array
    with both second axes contracted is, at `(p, q)`, the sum over `j` of `lhs (p, j) * rhs (q, j)`.
  * `matmul_rowsCols_apply`: the same for an `[a, k]` array against a `[k, b]` array contracted on the second and the
    first axis: the sum over `j` of `lhs (p, j) * rhs (j, q)`.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowForms

open Idealize.ShloMosaic Idealize.ShloMosaic.ValueIdx

variable {α : Type}

/-! ## A trailing unit axis added, and spread -/

/-- An `[a, b]` array cast to `[a, b, 1]` reads, at `(p, q, 0)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q (0 : Fin 1)) := by
  refine broadcastTo_apply x h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## A sum along the last axis -/

/-- On the extended reals the sum of an `[a, b, c]` array over its last axis is, at `(p, q)`, `∑ r, x (p, q, r)`. -/
theorem laneSum_abc_apply {a b c : ℕ} {φ : FTy} (x : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ x acc h hφ hacc (ix2 p q) = ∑ r : Fin c, x (ix3 p q r) := by
  refine (Ideal.multiReduction_add_single x acc h hφ hacc (ix2 p q)).trans ?_
  show ∑ r : Fin c, x (h.lift (ix2 p q) r) = ∑ r : Fin c, x (ix3 p q r)
  refine Finset.sum_congr rfl fun r _ => congrArg x ?_
  funext d
  apply Fin.ext
  match d with
  | ⟨0, _⟩ => rfl
  | ⟨1, _⟩ => rfl
  | ⟨2, _⟩ => rfl

/-! ## Two matrix products into a zero accumulator -/

/-- Rows against rows: both operands contracted on their second axis. -/
theorem matmul_rowsRows_apply {a k b : ℕ} (d : DotDims ⟨2, ![a, k]⟩ ⟨2, ![b, k]⟩ ⟨2, ![a, b]⟩)
    (hd : d = DotDims.transposedRhs a k b) (prec : Option ContractPrecision)
    (l : FVec Ideal ⟨2, ![a, k]⟩ .f32) (r : FVec Ideal ⟨2, ![b, k]⟩ .f32) (p : Fin a) (q : Fin b) :
    matmul d prec l r (constant ⟨2, ![a, b]⟩ .f32 0x00000000#32) (ix2 p q) = ∑ j : Fin k, l (ix2 p j) * r (ix2 q j) := by
  subst hd
  refine (Ideal.matmul_constant_zero_apply (DotDims.transposedRhs a k b) prec l r (ix2 p q)).trans ?_
  rw [← Equiv.sum_comp (contrEquiv1 (DotDims.transposedRhs a k b) k rfl rfl).symm]
  refine Finset.sum_congr rfl fun j _ => ?_
  have el : (DotDims.transposedRhs a k b).lhsIdx (ix2 p q) ((contrEquiv1 (DotDims.transposedRhs a k b) k rfl rfl).symm j) = ix2 p j := by
    funext ax
    apply Fin.ext
    match ax with
    | ⟨0, _⟩ => simp [DotDims.lhsIdx, DotDims.transposedRhs]; rfl
    | ⟨1, _⟩ =>
      exact ((DotDims.transposedRhs a k b).lhsIdx_val_of_single (cl := 1) rfl _ _).trans
        (contrEquiv1_symm_val _ k rfl rfl j)
  have er : (DotDims.transposedRhs a k b).rhsIdx (ix2 p q) ((contrEquiv1 (DotDims.transposedRhs a k b) k rfl rfl).symm j) = ix2 q j := by
    funext ax
    apply Fin.ext
    match ax with
    | ⟨0, _⟩ => simp [DotDims.rhsIdx, DotDims.transposedRhs]; rfl
    | ⟨1, _⟩ =>
      exact ((DotDims.transposedRhs a k b).rhsIdx_val_of_single (cr := 1) rfl _ _).trans
        (contrEquiv1_symm_val _ k rfl rfl j)
  rw [el, er]

/-- Rows against columns: the left operand contracted on its second axis, the right on its first. -/
theorem matmul_rowsCols_apply {a k b : ℕ} (d : DotDims ⟨2, ![a, k]⟩ ⟨2, ![k, b]⟩ ⟨2, ![a, b]⟩)
    (hd : d = DotDims.plain a k b) (prec : Option ContractPrecision)
    (l : FVec Ideal ⟨2, ![a, k]⟩ .f32) (r : FVec Ideal ⟨2, ![k, b]⟩ .f32) (p : Fin a) (q : Fin b) :
    matmul d prec l r (constant ⟨2, ![a, b]⟩ .f32 0x00000000#32) (ix2 p q) = ∑ j : Fin k, l (ix2 p j) * r (ix2 j q) := by
  subst hd
  refine (Ideal.matmul_constant_zero_apply (DotDims.plain a k b) prec l r (ix2 p q)).trans ?_
  rw [← Equiv.sum_comp (contrEquiv1 (DotDims.plain a k b) k rfl rfl).symm]
  refine Finset.sum_congr rfl fun j _ => ?_
  have el : (DotDims.plain a k b).lhsIdx (ix2 p q) ((contrEquiv1 (DotDims.plain a k b) k rfl rfl).symm j) = ix2 p j := by
    funext ax
    apply Fin.ext
    match ax with
    | ⟨0, _⟩ => simp [DotDims.lhsIdx, DotDims.plain]; rfl
    | ⟨1, _⟩ =>
      exact ((DotDims.plain a k b).lhsIdx_val_of_single (cl := 1) rfl _ _).trans
        (contrEquiv1_symm_val _ k rfl rfl j)
  have er : (DotDims.plain a k b).rhsIdx (ix2 p q) ((contrEquiv1 (DotDims.plain a k b) k rfl rfl).symm j) = ix2 j q := by
    funext ax
    apply Fin.ext
    match ax with
    | ⟨0, _⟩ =>
      exact ((DotDims.plain a k b).rhsIdx_val_of_single (cr := 0) rfl _ _).trans
        (contrEquiv1_symm_val _ k rfl rfl j)
    | ⟨1, _⟩ => simp [DotDims.rhsIdx, DotDims.plain]; rfl
  rw [el, er]

end Cert.RowForms

end
-- ==== Proof.KI.Region1Value.lean ====
/-
  One step of the streamed attention body, read at an index over the extended reals.

  At the exact reals a change of float format is the identity and a product into a zero accumulator is the plain sum over
  the contraction index, so with the blocks q [4, 1024, 512], k [4, 256, 512], v [4, 256, 256] of a grid point:
    * the score block is  sc b r k = Σ_j q (b, r, j) · k (b, k, j);
    * the new running maximum at row (b, r) is  max m (fold of max from −∞ over the row's 256 scores);
    * the new denominator is  exp (m − m') · l + Σ_k exp (sc b r k − m');
    * the new numerator at (b, r, d) is  exp (m − m') · a + Σ_k exp (sc b r k − m') · v (b, k, d);
    * the reset stores −∞, 0, 0 and the output is numerator / denominator, the denominator spread along the last axis.
-/
import proofs.«137375_j22127671509167_2_alg».proof.Proof.KI.Region1Body
import proofs.«137375_j22127671509167_2_alg».proof.Proof.LibRowForms
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

/-! ## The two contractions' index maps -/

/-- Scores: queries against keys, batched over axis 0, both contracted on their last axis. -/
abbrev DS : DotDims S4x1024x512 S4x256x512 S4x1024x256 := dot_S4x1024x512_S4x256x512_S4x1024x256_2_2_1_1_0_0
/-- Weighted values: weights against values, batched over axis 0, the weights' last axis against the values' middle one. -/
abbrev DV : DotDims S4x1024x256 S4x256x256 S4x1024x256 := dot_S4x1024x256_S4x256x256_S4x1024x256_2_1_1_2_0_0

theorem DS_lhs0 (i : S4x1024x256.Idx) (q : DS.contr.Idx) : (DS.lhsIdx i q 0).val = (i 0).val := by
  unfold DotDims.lhsIdx
  rw [dif_pos (show (0 : Fin S4x1024x512.rank) ∈ DS.lhsBatch by decide)]
  rfl
theorem DS_lhs1 (i : S4x1024x256.Idx) (q : DS.contr.Idx) : (DS.lhsIdx i q 1).val = (i 1).val := by
  unfold DotDims.lhsIdx
  rw [dif_neg (show ¬(1 : Fin S4x1024x512.rank) ∈ DS.lhsBatch by decide), dif_pos (show (1 : Fin S4x1024x512.rank) ∈ DS.lhsNonContracting by decide)]
  rfl
theorem DS_lhs2 (i : S4x1024x256.Idx) (q : DS.contr.Idx) : (DS.lhsIdx i q 2).val = (q ⟨0, by decide⟩).val :=
  DS.lhsIdx_val_of_single rfl i q
theorem DS_rhs0 (i : S4x1024x256.Idx) (q : DS.contr.Idx) : (DS.rhsIdx i q 0).val = (i 0).val := by
  unfold DotDims.rhsIdx
  rw [dif_pos (show (0 : Fin S4x256x512.rank) ∈ DS.rhsBatch by decide)]
  rfl
theorem DS_rhs1 (i : S4x1024x256.Idx) (q : DS.contr.Idx) : (DS.rhsIdx i q 1).val = (i 2).val := by
  unfold DotDims.rhsIdx
  rw [dif_neg (show ¬(1 : Fin S4x256x512.rank) ∈ DS.rhsBatch by decide), dif_pos (show (1 : Fin S4x256x512.rank) ∈ DS.rhsNonContracting by decide)]
  rfl
theorem DS_rhs2 (i : S4x1024x256.Idx) (q : DS.contr.Idx) : (DS.rhsIdx i q 2).val = (q ⟨0, by decide⟩).val :=
  DS.rhsIdx_val_of_single rfl i q

theorem DV_lhs0 (i : S4x1024x256.Idx) (q : DV.contr.Idx) : (DV.lhsIdx i q 0).val = (i 0).val := by
  unfold DotDims.lhsIdx
  rw [dif_pos (show (0 : Fin S4x1024x256.rank) ∈ DV.lhsBatch by decide)]
  rfl
theorem DV_lhs1 (i : S4x1024x256.Idx) (q : DV.contr.Idx) : (DV.lhsIdx i q 1).val = (i 1).val := by
  unfold DotDims.lhsIdx
  rw [dif_neg (show ¬(1 : Fin S4x1024x256.rank) ∈ DV.lhsBatch by decide), dif_pos (show (1 : Fin S4x1024x256.rank) ∈ DV.lhsNonContracting by decide)]
  rfl
theorem DV_lhs2 (i : S4x1024x256.Idx) (q : DV.contr.Idx) : (DV.lhsIdx i q 2).val = (q ⟨0, by decide⟩).val :=
  DV.lhsIdx_val_of_single rfl i q
theorem DV_rhs0 (i : S4x1024x256.Idx) (q : DV.contr.Idx) : (DV.rhsIdx i q 0).val = (i 0).val := by
  unfold DotDims.rhsIdx
  rw [dif_pos (show (0 : Fin S4x256x256.rank) ∈ DV.rhsBatch by decide)]
  rfl
theorem DV_rhs1 (i : S4x1024x256.Idx) (q : DV.contr.Idx) : (DV.rhsIdx i q 1).val = (q ⟨0, by decide⟩).val :=
  DV.rhsIdx_val_of_single rfl i q
theorem DV_rhs2 (i : S4x1024x256.Idx) (q : DV.contr.Idx) : (DV.rhsIdx i q 2).val = (i 2).val := by
  unfold DotDims.rhsIdx
  rw [dif_neg (show ¬(2 : Fin S4x256x256.rank) ∈ DV.rhsBatch by decide), dif_pos (show (2 : Fin S4x256x256.rank) ∈ DV.rhsNonContracting by decide)]
  rfl

/-! ## A maximum along the last axis -/

/-- On the extended reals the maximum of an `[a, b, c]` array over its last axis is, at `(p, q)`, the fold of `max` from
    the accumulator's value over the entries `(p, q, r)`. -/
theorem laneMax_abc_apply {a b c : ℕ} {φ : FTy} (x : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ x acc h hφ hacc (ix2 p q)
      = (Finset.univ : Finset (Fin c)).fold max (Ideal.ofBits φ acc) (fun r : Fin c => x (ix3 p q r)) := by
  refine (Ideal.multiReduction_maximumf_single x acc h hφ hacc (ix2 p q)).trans ?_
  show (Finset.univ : Finset (Fin c)).fold max (Ideal.ofBits φ acc) (fun r : Fin c => x (h.lift (ix2 p q) r)) = _
  refine congrArg (fun f => (Finset.univ : Finset (Fin c)).fold max (Ideal.ofBits φ acc) f) (funext fun r => congrArg x ?_)
  funext d
  apply Fin.ext
  match d with
  | ⟨0, _⟩ => rfl
  | ⟨1, _⟩ => rfl
  | ⟨2, _⟩ => rfl

/-- The f32 pattern 0xFF800000 is −∞. -/
theorem ofBits_f32_neg_inf : Ideal.ofBits .f32 0xFF800000#32 = (⊥ : EReal) := by
  simp [Ideal.ofBits, Ideal.ieee]

/-! ## The step's pieces at an index -/

/-- The score of query row `r` against key row `k` in batch `b`. -/
def sc (x0 : Vec Ideal S4x1024x512 .bf16) (x1 : Vec Ideal S4x256x512 .bf16) (b : Fin 4) (r : Fin 1024) (k : Fin 256) : EReal :=
  ∑ j : Fin 512, x0 (ix3 b r j) * x1 (ix3 b k j)

/-- The running maximum after the block: the old one against the largest of the row's 256 scores. -/
def mNew (x0 : Vec Ideal S4x1024x512 .bf16) (x1 : Vec Ideal S4x256x512 .bf16) (s : Carry Ideal) (b : Fin 4) (r : Fin 1024) : EReal :=
  max (s.1 (ix3 b r (0 : Fin 1))) (Finset.univ.fold max (⊥ : EReal) (sc x0 x1 b r))

/-- The score block: the product into the zero accumulator is the sum over the 512 features. -/
theorem pay8_apply (x0 : Vec Ideal S4x1024x512 .bf16) (x1 : Vec Ideal S4x256x512 .bf16) (b : Fin 4) (r : Fin 1024) (k : Fin 256) :
    k1_pay8 x0 x1 (ix3 b r k) = sc x0 x1 b r k := by
  unfold k1_pay8 sc
  rw [shapeCast_self, shapeCast_self]
  refine (Ideal.matmul_constant_zero_apply (φ₁ := .bf16) (φ₂ := .bf16) DS none _ _ (ix3 b r k)).trans ?_
  rw [← Equiv.sum_comp (contrEquiv1 DS 512 rfl rfl).symm]
  refine Finset.sum_congr rfl fun j _ => ?_
  have hj := contrEquiv1_symm_val DS 512 rfl rfl j
  have el : DS.lhsIdx (ix3 b r k) ((contrEquiv1 DS 512 rfl rfl).symm j) = ix3 b r j := funext fun a => Fin.ext (by
    match a with
    | ⟨0, _⟩ => exact DS_lhs0 _ _
    | ⟨1, _⟩ => exact DS_lhs1 _ _
    | ⟨2, _⟩ => exact (DS_lhs2 _ _).trans hj)
  have er : DS.rhsIdx (ix3 b r k) ((contrEquiv1 DS 512 rfl rfl).symm j) = ix3 b k j := funext fun a => Fin.ext (by
    match a with
    | ⟨0, _⟩ => exact DS_rhs0 _ _
    | ⟨1, _⟩ => exact DS_rhs1 _ _
    | ⟨2, _⟩ => exact (DS_rhs2 _ _).trans hj)
  rw [el, er]

/-- The new running maximum at a row. -/
theorem pay9_apply (x0 : Vec Ideal S4x1024x512 .bf16) (x1 : Vec Ideal S4x256x512 .bf16) (m : Vec Ideal S4x1024x1 .f32)
    (b : Fin 4) (r : Fin 1024) :
    k1_pay9 x0 x1 m (ix3 b r (0 : Fin 1))
      = max (m (ix3 b r (0 : Fin 1))) (Finset.univ.fold max (⊥ : EReal) (sc x0 x1 b r)) := by
  unfold k1_pay9
  rw [maximumf_apply]
  refine congrArg (max (m (ix3 b r (0 : Fin 1)))) ?_
  refine (Cert.RowForms.shapeCast_ab_ab1_apply _ shapeCasts_S4x1024_S4x1024x1 b r 0).trans ?_
  refine (laneMax_abc_apply (k1_pay8 x0 x1) 0xFF800000#32 reduces_S4x1024x256_S4x1024 (.inl rfl) rfl b r).trans ?_
  rw [ofBits_f32_neg_inf]
  exact congrArg (fun f => (Finset.univ : Finset (Fin 256)).fold max (⊥ : EReal) f) (funext fun k => pay8_apply x0 x1 b r k)

/-- The rescaling factor at a row: the exponential of the old maximum minus the new one. -/
theorem pay10_apply (x0 : Vec Ideal S4x1024x512 .bf16) (x1 : Vec Ideal S4x256x512 .bf16) (m m' : Vec Ideal S4x1024x1 .f32)
    (b : Fin 4) (r : Fin 1024) :
    k1_pay10 x0 x1 m m' (ix3 b r (0 : Fin 1))
      = Ideal.exp (m' (ix3 b r (0 : Fin 1)) - k1_pay9 x0 x1 m (ix3 b r (0 : Fin 1))) := rfl

/-- A weight: the exponential of a score minus the row's new maximum. -/
theorem pay11_apply (x0 : Vec Ideal S4x1024x512 .bf16) (x1 : Vec Ideal S4x256x512 .bf16) (m : Vec Ideal S4x1024x1 .f32)
    (b : Fin 4) (r : Fin 1024) (k : Fin 256) :
    k1_pay11 x0 x1 m (ix3 b r k)
      = Ideal.exp (sc x0 x1 b r k - max (m (ix3 b r (0 : Fin 1))) (Finset.univ.fold max (⊥ : EReal) (sc x0 x1 b r))) := by
  unfold k1_pay11
  show Ideal.exp (k1_pay8 x0 x1 (ix3 b r k)
      - broadcastTo S4x1024x256 (k1_pay9 x0 x1 m) broadcasts_S4x1024x1_S4x1024x256 (ix3 b r k)) = _
  have hb : broadcastTo S4x1024x256 (k1_pay9 x0 x1 m) broadcasts_S4x1024x1_S4x1024x256 (ix3 b r k)
      = k1_pay9 x0 x1 m (ix3 b r (0 : Fin 1)) :=
    Cert.RowForms.broadcastTo_ab1_abc_apply _ _ b r k
  rw [pay8_apply, hb, pay9_apply]

/-- The new denominator at a row: the old one rescaled plus the row's weights. -/
theorem pay12_apply (x0 : Vec Ideal S4x1024x512 .bf16) (x1 : Vec Ideal S4x256x512 .bf16) (m m' l : Vec Ideal S4x1024x1 .f32)
    (b : Fin 4) (r : Fin 1024) :
    k1_pay12 x0 x1 m m' l (ix3 b r (0 : Fin 1))
      = k1_pay10 x0 x1 m m' (ix3 b r (0 : Fin 1)) * l (ix3 b r (0 : Fin 1)) + ∑ k : Fin 256, k1_pay11 x0 x1 m (ix3 b r k) := by
  unfold k1_pay12
  rw [shapeCast_self, addf_apply, mulf_apply]
  refine congrArg (k1_pay10 x0 x1 m m' (ix3 b r (0 : Fin 1)) * l (ix3 b r (0 : Fin 1)) + ·) ?_
  refine (Cert.RowForms.shapeCast_ab_ab1_apply _ shapeCasts_S4x1024_S4x1024x1 b r 0).trans ?_
  exact Cert.RowForms.laneSum_abc_apply (k1_pay11 x0 x1 m) 0x00000000#32 reduces_S4x1024x256_S4x1024 (.inl rfl) rfl b r

/-- The new numerator at an entry: the old one rescaled plus the weights against the value rows. -/
theorem pay1_acc_apply (v : FVec Ideal S4x256x256 .bf16) (α : FVec Ideal S4x1024x1 .f32) (p : FVec Ideal S4x1024x256 .f32)
    (acc : Vec Ideal S4x1024x256 .f32) (b : Fin 4) (r : Fin 1024) (d : Fin 256) :
    k1_pay1 v α p acc (ix3 b r d)
      = α (ix3 b r (0 : Fin 1)) * acc (ix3 b r d) + ∑ k : Fin 256, p (ix3 b r k) * v (ix3 b k d) := by
  unfold k1_pay1
  rw [shapeCast_self, addf_apply, mulf_apply]
  refine congrArg₂ (· + ·) (congrArg (· * acc (ix3 b r d)) (Cert.RowForms.broadcastTo_ab1_abc_apply _ _ b r d)) ?_
  refine (Ideal.matmul_constant_zero_apply (φ₁ := .bf16) (φ₂ := .bf16) DV none _ _ (ix3 b r d)).trans ?_
  rw [← Equiv.sum_comp (contrEquiv1 DV 256 rfl rfl).symm]
  refine Finset.sum_congr rfl fun k _ => ?_
  have hk := contrEquiv1_symm_val DV 256 rfl rfl k
  have el : DV.lhsIdx (ix3 b r d) ((contrEquiv1 DV 256 rfl rfl).symm k) = ix3 b r k := funext fun a => Fin.ext (by
    match a with
    | ⟨0, _⟩ => exact DV_lhs0 _ _
    | ⟨1, _⟩ => exact DV_lhs1 _ _
    | ⟨2, _⟩ => exact (DV_lhs2 _ _).trans hk)
  have er : DV.rhsIdx (ix3 b r d) ((contrEquiv1 DV 256 rfl rfl).symm k) = ix3 b k d := funext fun a => Fin.ext (by
    match a with
    | ⟨0, _⟩ => exact DV_rhs0 _ _
    | ⟨1, _⟩ => exact (DV_rhs1 _ _).trans hk
    | ⟨2, _⟩ => exact DV_rhs2 _ _)
  rw [el, er]
  rfl

/-! ## The carried arrays: reset, step, output -/

theorem carry0_m (i : S4x1024x1.Idx) : (carry0 (F := Ideal)).1 i = (⊥ : EReal) := by
  show k1_pay4 (F := Ideal) i = (⊥ : EReal)
  unfold k1_pay4
  rw [shapeCast_self]
  exact ofBits_f32_neg_inf

theorem carry0_l (i : S4x1024x1.Idx) : (carry0 (F := Ideal)).2.1 i = (0 : EReal) := by
  show k1_pay5 (F := Ideal) i = (0 : EReal)
  unfold k1_pay5
  rw [shapeCast_self]
  exact Ideal.ofBits_zero_f32

theorem carry0_a (i : S4x1024x256.Idx) : (carry0 (F := Ideal)).2.2 i = (0 : EReal) := by
  show k1_pay6 (F := Ideal) i = (0 : EReal)
  unfold k1_pay6
  rw [shapeCast_self]
  exact Ideal.ofBits_zero_f32

variable (x0 : Vec Ideal S4x1024x512 .bf16) (x1 : Vec Ideal S4x256x512 .bf16) (x2 : Vec Ideal S4x256x256 .bf16)
  (s : Carry Ideal) (b : Fin 4) (r : Fin 1024) (d : Fin 256)

theorem carryStep_m : (carryStep x0 x1 x2 s).1 (ix3 b r (0 : Fin 1)) = mNew x0 x1 s b r := by
  show k1_pay2 (k1_pay9 x0 x1 s.1) (ix3 b r (0 : Fin 1)) = _
  unfold k1_pay2
  rw [shapeCast_self]
  exact pay9_apply x0 x1 s.1 b r

theorem carryStep_l :
    (carryStep x0 x1 x2 s).2.1 (ix3 b r (0 : Fin 1))
      = Ideal.exp (s.1 (ix3 b r (0 : Fin 1)) - mNew x0 x1 s b r) * s.2.1 (ix3 b r (0 : Fin 1))
        + ∑ k : Fin 256, Ideal.exp (sc x0 x1 b r k - mNew x0 x1 s b r) := by
  show k1_pay12 x0 x1 s.1 s.1 s.2.1 (ix3 b r (0 : Fin 1)) = _
  rw [pay12_apply, pay10_apply, pay9_apply]
  unfold mNew
  exact congrArg (_ + ·) (Finset.sum_congr rfl fun k _ => pay11_apply x0 x1 s.1 b r k)

theorem carryStep_a :
    (carryStep x0 x1 x2 s).2.2 (ix3 b r d)
      = Ideal.exp (s.1 (ix3 b r (0 : Fin 1)) - mNew x0 x1 s b r) * s.2.2 (ix3 b r d)
        + ∑ k : Fin 256, Ideal.exp (sc x0 x1 b r k - mNew x0 x1 s b r) * x2 (ix3 b k d) := by
  show k1_pay1 (k1_pay7 x2) (k1_pay10 x0 x1 s.1 s.1) (k1_pay11 x0 x1 s.1) s.2.2 (ix3 b r d) = _
  rw [pay1_acc_apply, pay10_apply, pay9_apply]
  unfold mNew k1_pay7
  rw [shapeCast_self]
  exact congrArg (_ + ·) (Finset.sum_congr rfl fun k _ => congrArg (· * x2 (ix3 b k d)) (pay11_apply x0 x1 s.1 b r k))

theorem carryOut_apply :
    carryOut s (ix3 b r d) = Ideal.div (s.2.2 (ix3 b r d)) (s.2.1 (ix3 b r (0 : Fin 1))) := by
  show k1_pay3 s.2.2 s.2.1 (ix3 b r d) = _
  unfold k1_pay3
  rw [divf_apply]
  exact congrArg (Ideal.div (s.2.2 (ix3 b r d))) (Cert.RowForms.broadcastTo_ab1_abc_apply _ _ b r d)

end Cert.KernelIdeal.Hand

end
-- ==== Proof.KI.Region1Blocks.lean ====
/- Region 1 of @main, from blocks to arrays, at the exact reals. The attention kernel's grid is 4 × 16: point
   `t = 16·qi + ki` works on query rows [1024·qi, 1024·qi + 1024) against key and value rows [256·ki, 256·ki + 256),
   all four heads at once, and carries its running maximum, denominator and numerator from one key block to the next.
   Here: the windows' index maps over the grid; each input block read as entries of its array; and the output array
   after the region — a query block's rows are written back once, at its last key block `ki = 15`, as numerator over
   denominator of the carried arrays there, and the four query blocks fill the array. -/
import proofs.«137375_j22127671509167_2_alg».proof.Proof.KI.Region1
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The grid has 64 points. -/
theorem lt_N1 (t : Fin cfg1.N) : t.val < 64 := lt_of_lt_of_eq t.isLt N_1

/-- The printed index maps over the grid: queries and output move with the query-block coordinate `t / 16`, keys and
    values with the key-block coordinate `t % 16`; every block spans all heads and all columns. -/
theorem idx_facts1 : ∀ t : Fin cfg1.N,
      win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 3) = 0 ∧ win1_2.index t (1 : Fin 3) = t.val % 16 ∧ win1_2.index t (2 : Fin 3) = 0
    ∧ win1_3.index t (0 : Fin 3) = 0 ∧ win1_3.index t (1 : Fin 3) = t.val / 16 ∧ win1_3.index t (2 : Fin 3) = 0 :=
  (by decide +kernel : ∀ t : Fin grid1.N, _)

variable (V : (c : Dev nD) → (b : Ref sig .tc) → Buf (Elt Ideal) ((c : Thread nD τ).loc b))

/-- The three input blocks at point `t`, entry by entry: query rows `1024·(t/16) + r`, key and value rows
    `256·(t%16) + k`, head and column as they are. -/
theorem blocks1 (c : Dev nD) (t : Fin cfg1.N) (b : Fin 4) :
      (∀ (r : Fin 1024) (j : Fin 512), iblk1 V c 0 t (ix3 b r j) = (V c main_v10 : S4x4096x512.Idx → EReal) (ix3 b ⟨1024 * (t.val / 16) + r.val, by have := lt_N1 t; omega⟩ j))
    ∧ (∀ (k : Fin 256) (j : Fin 512), iblk1 V c 1 t (ix3 b k j) = (V c main_v11 : S4x4096x512.Idx → EReal) (ix3 b ⟨256 * (t.val % 16) + k.val, by omega⟩ j))
    ∧ (∀ (k : Fin 256) (d : Fin 256), iblk1 V c 2 t (ix3 b k d) = (V c main_v12 : S4x4096x256.Idx → EReal) (ix3 b ⟨256 * (t.val % 16) + k.val, by omega⟩ d)) := by
  have e := idx_facts1 t
  refine ⟨fun r j => ?_, fun k j => ?_, fun k d => ?_⟩
  · show V c main_v10 (((cfg1.win 0).blk t).view.emb (ix3 b r j)) = V c main_v10 _
    refine congrArg _ (funext fun a => Fin.ext ?_)
    match a with
    | ⟨0, _⟩ => show win1_0.index t (0 : Fin 3) * 4 + 1 * b.val = b.val; omega
    | ⟨1, _⟩ => show win1_0.index t (1 : Fin 3) * 1024 + 1 * r.val = 1024 * (t.val / 16) + r.val; omega
    | ⟨2, _⟩ => show win1_0.index t (2 : Fin 3) * 512 + 1 * j.val = j.val; omega
  · show V c main_v11 (((cfg1.win 1).blk t).view.emb (ix3 b k j)) = V c main_v11 _
    refine congrArg _ (funext fun a => Fin.ext ?_)
    match a with
    | ⟨0, _⟩ => show win1_1.index t (0 : Fin 3) * 4 + 1 * b.val = b.val; omega
    | ⟨1, _⟩ => show win1_1.index t (1 : Fin 3) * 256 + 1 * k.val = 256 * (t.val % 16) + k.val; omega
    | ⟨2, _⟩ => show win1_1.index t (2 : Fin 3) * 512 + 1 * j.val = j.val; omega
  · show V c main_v12 (((cfg1.win 2).blk t).view.emb (ix3 b k d)) = V c main_v12 _
    refine congrArg _ (funext fun a => Fin.ext ?_)
    match a with
    | ⟨0, _⟩ => show win1_2.index t (0 : Fin 3) * 4 + 1 * b.val = b.val; omega
    | ⟨1, _⟩ => show win1_2.index t (1 : Fin 3) * 256 + 1 * k.val = 256 * (t.val % 16) + k.val; omega
    | ⟨2, _⟩ => show win1_2.index t (2 : Fin 3) * 256 + 1 * d.val = d.val; omega

/-! ## The output array after the region -/

/-- The carried arrays after a point, and the entry read, may be named in two ways. -/
theorem carryOut_congr (c : Dev nD) (n n' : ℕ) (h : n < cfg1.N) (h' : n' < cfg1.N) (e : n' = n)
    (y y' : S4x1024x256.Idx) (ey : y' = y) :
    carryOut (carryAt V c n h) y = carryOut (carryAt V c n' h') y' := by
  subst e; subst ey; rfl

theorem carryAt_congr (c : Dev nD) (n n' : ℕ) (h : n < cfg1.N) (h' : n' < cfg1.N) (e : n = n') :
    carryAt V c n h = carryAt V c n' h' := by
  subst e; rfl

/-- The point that writes back row `q`: the last key block of query block `q / 1024`. -/
theorem flushPt_lt (i : S4x4096x256.Idx) : 16 * ((i 1).val / 1024) + 15 < cfg1.N := by
  have h1 : (i 1).val < 4096 := (i 1).isLt
  exact lt_of_lt_of_eq (by omega) N_1.symm

/-- The output array as one function of the carried arrays: entry (head, q, d) is numerator over denominator after
    the last key block of query block `q / 1024`, at row `q % 1024` of that block. -/
abbrev G1_3 (c : Dev nD) : S4x4096x256.Idx → EReal := fun i =>
  carryOut (carryAt V c (16 * ((i 1).val / 1024) + 15) (flushPt_lt i)) (ix3 (i 0) ⟨(i 1).val % 1024, Nat.mod_lt _ (by decide)⟩ (i 2))

/-- What a point that writes back (`t % 16 = 15`) writes is block `t` of that function. -/
theorem flushed1_3 (c : Dev nD) (t : Fin cfg1.N) (hf : (cfg1.win 3).flush t = true) :
    (dat1 (F := Ideal) V c).flushed 3 t = ((cfg1.win 3).blk t).view.read (Elt Ideal) (G1_3 V c) := by
  show (cfg1.win 3).cut (grid1.coords t) ((dat1 V c).after 3 t) = _
  rw [after1_3]
  funext j
  obtain ⟨b, r, d, rfl⟩ : ∃ (b : Fin 4) (r : Fin 1024) (d : Fin 256), j = ix3 b r d := ⟨j 0, j 1, j 2, eq_ix3 j⟩
  have h15 : t.val % 16 = 15 := (flush1_3 t).mp hf
  have ht := lt_N1 t
  have e := idx_facts1 t
  show carryOut (carryAt V c t.val t.isLt) (ix3 b r d) = G1_3 V c (((cfg1.win 3).blk t).view.emb (ix3 b r d))
  refine carryOut_congr V c _ _ _ _ ?_ _ _ (funext fun a => Fin.ext ?_)
  · show 16 * ((win1_3.index t (1 : Fin 3) * 1024 + 1 * r.val) / 1024) + 15 = t.val; omega
  · match a with
    | ⟨0, _⟩ => show win1_3.index t (0 : Fin 3) * 4 + 1 * b.val = b.val; omega
    | ⟨1, _⟩ => show (win1_3.index t (1 : Fin 3) * 1024 + 1 * r.val) % 1024 = r.val; omega
    | ⟨2, _⟩ => show win1_3.index t (2 : Fin 3) * 256 + 1 * d.val = d.val; omega

/-- An index of the array is in point `t`'s block iff each coordinate is in the block's range on its axis. -/
theorem mem_blk1_3 (t : Fin cfg1.N) (i : S4x4096x256.Idx) :
    i ∈ ((cfg1.win 3).blk t).view.set ↔ ∀ a : Fin 3, win1_3.index t a * S4x1024x256.size a ≤ (i a).val ∧ (i a).val < win1_3.index t a * S4x1024x256.size a + S4x1024x256.size a := by
  show i ∈ ((View.whole main_v13).slice (win1_3.rect t)).set ↔ _
  rw [View.set_slice_whole, Rect.mem_set_unit]
  exact Iff.rfl

/-- Row `q` of the array lies in the block of the writing point `16·(q / 1024) + 15`: the four query blocks fill it. -/
theorem covered1_3 (i : S4x4096x256.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 256 := (i 2).isLt
  obtain ⟨t, ht⟩ : ∃ t : Fin cfg1.N, t.val = 16 * ((i 1).val / 1024) + 15 := ⟨⟨_, flushPt_lt i⟩, rfl⟩
  have e := idx_facts1 t
  refine ⟨t, (flush1_3 t).mpr (by omega), ?_⟩
  rw [mem_blk1_3]
  intro a
  match a with
  | ⟨0, _⟩ => show win1_3.index t (0 : Fin 3) * 4 ≤ (i 0).val ∧ (i 0).val < win1_3.index t (0 : Fin 3) * 4 + 4; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 256 ≤ (i 2).val ∧ (i 2).val < win1_3.index t (2 : Fin 3) * 256 + 256; omega

/-- THE OUTPUT ARRAY after the region. -/
theorem final1_3 (c : Dev nD) : (dat1 (F := Ideal) V c).arrAt 3 cfg1.N = G1_3 V c :=
  (dat1 V c).arrAt_eq_of_cover 3 (G1_3 V c) (fun t hf => flushed1_3 V c t hf) (covered1_3)

end Cert.KernelIdeal.Hand

end
-- ==== Proof.AttnSpec.lean ====
/-
  The mathematics both programs compute, as plain functions over the extended reals.

  A dense layer at one position is  proj x W b (bi, s, j) = (Σ_i x[bi,s,i] · W[i,j]) + b[j].
  A score is the inner product of a query row and a key row over the 512 features.

  The reference normalises first: with M the largest score of the row, e_k = exp (s_k − M) and L = Σ_k e_k it
  returns Σ_k (e_k / L) · v_k  (softmaxAv).

  The kernel streams the 4096 keys in 16 chunks of 256 and carries three numbers per row (online): the running
  maximum m, the running denominator l and the running numerator a; a chunk with maximum c moves them to
  m' = max m c,  l' = exp (m − m') · l + Σ_k exp (s_k − m'),  a' = exp (m − m') · a + Σ_k exp (s_k − m') · v_k,
  starting from (−∞, 0, 0), and returns a / l after the last chunk (onlineAv). Its query rows carry the factor
  1/16 inside the projection's weights and bias, where the reference divides the score by 16.
-/
import Idealize.ShloMosaic.PureOps.Ideal

noncomputable section

namespace Cert.Attn

open Idealize.ShloMosaic

/-- A dense layer at batch `bi`, position `s`, output feature `j`. -/
def proj {n : ℕ} (x : Fin 4 → Fin 4096 → Fin 512 → EReal) (W : Fin 512 → Fin n → EReal) (b : Fin n → EReal)
    (bi : Fin 4) (s : Fin 4096) (j : Fin n) : EReal :=
  (∑ i : Fin 512, x bi s i * W i j) + b j

/-- The inner product of two rows of 512 features. -/
def dot512 (q k : Fin 512 → EReal) : EReal := ∑ j : Fin 512, q j * k j

/-- Normalise, then average: the softmax of the scores `s` applied to the values `v`. -/
def softmaxAv (s v : Fin 4096 → EReal) : EReal :=
  ∑ k : Fin 4096,
    Ideal.div (Ideal.exp (s k - Finset.univ.fold max (⊥ : EReal) s))
      (∑ k' : Fin 4096, Ideal.exp (s k' - Finset.univ.fold max (⊥ : EReal) s)) * v k

/-- The streamed state (running maximum, denominator, numerator) after `j` chunks of 256 keys; the scores and
    values are read at the natural number `256 * j + k`. -/
def online (s v : ℕ → EReal) : ℕ → EReal × EReal × EReal
  | 0 => (⊥, 0, 0)
  | j + 1 =>
    let st := online s v j
    let m' := max st.1 (Finset.univ.fold max (⊥ : EReal) fun k : Fin 256 => s (256 * j + k.val))
    (m',
     Ideal.exp (st.1 - m') * st.2.1 + ∑ k : Fin 256, Ideal.exp (s (256 * j + k.val) - m'),
     Ideal.exp (st.1 - m') * st.2.2 + ∑ k : Fin 256, Ideal.exp (s (256 * j + k.val) - m') * v (256 * j + k.val))

/-- Average, then normalise: the streamed numerator over the streamed denominator after all 16 chunks. -/
def onlineAv (s v : ℕ → EReal) : EReal :=
  Ideal.div (online s v 16).2.2 (online s v 16).2.1

/-- A row of 4096 numbers read at a natural number (zero past the end). -/
def ext (f : Fin 4096 → EReal) (n : ℕ) : EReal := if h : n < 4096 then f ⟨n, h⟩ else 0

/-- The reference: scores divided by 16, softmax, weighted sum of the value rows. -/
def refSpec (x : Fin 4 → Fin 4096 → Fin 512 → EReal) (Wq : Fin 512 → Fin 512 → EReal) (bq : Fin 512 → EReal)
    (Wk : Fin 512 → Fin 512 → EReal) (bk : Fin 512 → EReal) (Wv : Fin 512 → Fin 256 → EReal) (bv : Fin 256 → EReal)
    (bi : Fin 4) (q : Fin 4096) (h : Fin 256) : EReal :=
  softmaxAv (fun k => Ideal.div (dot512 (proj x Wq bq bi q) (proj x Wk bk bi k)) ((16 : ℝ) : EReal))
    (fun k => proj x Wv bv bi k h)

/-- The kernel: the factor `c` inside the query projection, streamed softmax. -/
def kerSpec (c : EReal) (x : Fin 4 → Fin 4096 → Fin 512 → EReal) (Wq : Fin 512 → Fin 512 → EReal) (bq : Fin 512 → EReal)
    (Wk : Fin 512 → Fin 512 → EReal) (bk : Fin 512 → EReal) (Wv : Fin 512 → Fin 256 → EReal) (bv : Fin 256 → EReal)
    (bi : Fin 4) (q : Fin 4096) (h : Fin 256) : EReal :=
  onlineAv
    (ext fun k => dot512 (proj x (fun i j => Wq i j * c) (fun j => bq j * c) bi q) (proj x Wk bk bi k))
    (ext fun k => proj x Wv bv bi k h)

end Cert.Attn

end
-- ==== Proof.LibSoftmaxRow.lean ====
/-
  One row of masked softmax attention on the extended reals, in the two arrangements a fused kernel and a plain
  reference compute it, and the law that joins them.

  A row has scores `s j` (`j` over the `N` keys) and values `v j`. With `m` the row's maximum and
  `p j = exp (s j - m)`:
    * normalise last:   `(∑ j, p j * v j) / (∑ j, p j)`            (`outK`)
    * normalise first:  `∑ j, (p j / (0 + ∑ j', p j')) * v j`       (`outR`)
  and a score is `(∑ d, (q d * c) * k j d) + b j` (scale folded into the query, `scoreK`) or
  `(∑ d, q d * k j d) * c + b j` (scale applied to the product, `scoreR`), replaced by a fill value where the
  mask is off.

  On the extended reals neither pair is equal in general: moving a factor across a sum and dividing a sum term by
  term both fail at the infinities. They are equal when every input is a real number: then every score is real,
  the maximum of a non-empty row of reals is real, every `p j` is a positive real, so the normaliser is a
  positive real, and both sides are the same real expression.
-/
import Idealize.ShloMosaic.PureOps.Ideal

noncomputable section

namespace Cert.SoftmaxRow

open Idealize.ShloMosaic

variable {N D : ℕ}

/-- The inclusion of the reals commutes with finite sums. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many reals, folded from the bottom element, is a real when there is at least one. -/
theorem fold_max_coe {ι : Type*} (s : Finset ι) (hs : s.Nonempty) (f : ι → ℝ) :
    ∃ M : ℝ, s.fold max (⊥ : EReal) (fun i => (f i : EReal)) = (M : EReal) := by
  induction hs using Finset.Nonempty.cons_induction with
  | singleton a => exact ⟨f a, by rw [Finset.fold_singleton]; exact max_bot_right _⟩
  | cons a s ha hs ih =>
    obtain ⟨M, hM⟩ := ih
    refine ⟨max (f a) M, ?_⟩
    rw [Finset.fold_cons, hM]
    exact (EReal.coe_strictMono.monotone.map_max).symm

/-- A row's maximum: the fold of `max` from the bottom element over the row. -/
def rowMax (s : Fin N → EReal) : EReal := (Finset.univ : Finset (Fin N)).fold max ⊥ s

theorem rowMax_real (hN : 0 < N) (r : Fin N → ℝ) : ∃ M : ℝ, rowMax (fun j => (r j : EReal)) = (M : EReal) :=
  fold_max_coe Finset.univ ⟨⟨0, hN⟩, Finset.mem_univ _⟩ r

/-- Normalise last: the weighted sum of the values divided by the sum of the weights. -/
def outK (s v : Fin N → EReal) : EReal :=
  Ideal.div (∑ j, Ideal.exp (s j - rowMax s) * v j) (∑ j, Ideal.exp (s j - rowMax s))

/-- Normalise first: each weight divided by the sum of the weights (a sum started from `0`, the maximum clamped
    below by the bottom element, as a library softmax spells them), then the weighted sum of the values. -/
def outR (s v : Fin N → EReal) : EReal :=
  ∑ j, Ideal.div (Ideal.exp (s j - max ⊥ (rowMax s))) (0 + ∑ j', Ideal.exp (s j' - max ⊥ (rowMax s))) * v j

/-- The two normalisations agree on a non-empty row of real scores and real values. -/
theorem outR_eq_outK (hN : 0 < N) (s v : Fin N → EReal) (hs : ∀ j, ∃ r : ℝ, s j = r) (hv : ∀ j, ∃ r : ℝ, v j = r) :
    outR s v = outK s v := by
  choose rs hrs using hs
  choose rv hrv using hv
  obtain rfl : s = fun j => (rs j : EReal) := funext hrs
  obtain rfl : v = fun j => (rv j : EReal) := funext hrv
  obtain ⟨M, hM⟩ := rowMax_real hN rs
  unfold outR outK
  rw [hM, max_bot_left]
  have hexp : ∀ j, Ideal.exp ((rs j : EReal) - (M : EReal)) = ((Real.exp (rs j - M) : ℝ) : EReal) := fun j => by
    rw [← EReal.coe_sub, Ideal.exp_coe]
  simp only [hexp]
  rw [zero_add, coe_sum]
  have hL : (∑ j, Real.exp (rs j - M)) ≠ 0 :=
    (Finset.sum_pos (fun j _ => Real.exp_pos _) ⟨⟨0, hN⟩, Finset.mem_univ _⟩).ne'
  simp only [Ideal.div_coe hL, ← EReal.coe_mul]
  rw [coe_sum, coe_sum, ← EReal.coe_mul]
  congr 1
  rw [Finset.sum_mul]
  exact Finset.sum_congr rfl fun j _ => by ring

/-- A score with the scale folded into the query. -/
def scoreK (c fill : EReal) (q : Fin D → EReal) (k : Fin N → Fin D → EReal) (b : Fin N → EReal) (msk : Fin N → BitVec 1)
    (j : Fin N) : EReal :=
  Scalar.select (msk j) ((∑ d, (q d * c) * k j d) + b j) fill

/-- A score with the scale applied to the finished product. -/
def scoreR (c fill : EReal) (q : Fin D → EReal) (k : Fin N → Fin D → EReal) (b : Fin N → EReal) (msk : Fin N → BitVec 1)
    (j : Fin N) : EReal :=
  Scalar.select (msk j) ((∑ d, q d * k j d) * c + b j) fill

/-- For a real query, real keys and a real scale the factor leaves the sum. -/
theorem scoreK_eq_scoreR (c fill : EReal) (q : Fin D → EReal) (k : Fin N → Fin D → EReal) (b : Fin N → EReal)
    (msk : Fin N → BitVec 1) (hc : ∃ r : ℝ, c = r) (hq : ∀ d, ∃ r : ℝ, q d = r) (hk : ∀ j d, ∃ r : ℝ, k j d = r) :
    scoreK c fill q k b msk = scoreR c fill q k b msk := by
  obtain ⟨rc, rfl⟩ := hc
  choose rq hrq using hq
  choose rk hrk using hk
  funext j
  unfold scoreK scoreR
  congr 2
  simp only [hrq, hrk, ← EReal.coe_mul]
  rw [coe_sum, coe_sum, ← EReal.coe_mul]
  congr 1
  rw [Finset.sum_mul]
  exact Finset.sum_congr rfl fun d _ => by ring

/-- With every input real, every score is real. -/
theorem scoreR_real (c fill : EReal) (q : Fin D → EReal) (k : Fin N → Fin D → EReal) (b : Fin N → EReal)
    (msk : Fin N → BitVec 1) (hc : ∃ r : ℝ, c = r) (hf : ∃ r : ℝ, fill = r) (hq : ∀ d, ∃ r : ℝ, q d = r)
    (hk : ∀ j d, ∃ r : ℝ, k j d = r) (hb : ∀ j, ∃ r : ℝ, b j = r) (j : Fin N) :
    ∃ r : ℝ, scoreR c fill q k b msk j = r := by
  obtain ⟨rc, rfl⟩ := hc
  obtain ⟨rf, rfl⟩ := hf
  choose rq hrq using hq
  choose rk hrk using hk
  obtain ⟨rb, hrb⟩ := hb j
  unfold scoreR Scalar.select
  split
  · refine ⟨(∑ d, rq d * rk j d) * rc + rb, ?_⟩
    simp only [hrq, hrk, hrb, ← EReal.coe_mul]
    rw [coe_sum, ← EReal.coe_mul, ← EReal.coe_add]
  · exact ⟨rf, rfl⟩

/-- One output entry, normalise-last over scale-folded scores. -/
def attnK (c fill : EReal) (q : Fin D → EReal) (k : Fin N → Fin D → EReal) (b : Fin N → EReal) (msk : Fin N → BitVec 1)
    (v : Fin N → EReal) : EReal :=
  outK (scoreK c fill q k b msk) v

/-- One output entry, normalise-first over scores scaled after the product. -/
def attnR (c fill : EReal) (q : Fin D → EReal) (k : Fin N → Fin D → EReal) (b : Fin N → EReal) (msk : Fin N → BitVec 1)
    (v : Fin N → EReal) : EReal :=
  outR (scoreR c fill q k b msk) v

/-- THE LAW: on real inputs (a real scale and fill value, a non-empty row) the two arrangements are one number. -/
theorem attnR_eq_attnK (hN : 0 < N) (c fill : EReal) (q : Fin D → EReal) (k : Fin N → Fin D → EReal) (b : Fin N → EReal)
    (msk : Fin N → BitVec 1) (v : Fin N → EReal) (hc : ∃ r : ℝ, c = r) (hf : ∃ r : ℝ, fill = r)
    (hq : ∀ d, ∃ r : ℝ, q d = r) (hk : ∀ j d, ∃ r : ℝ, k j d = r) (hb : ∀ j, ∃ r : ℝ, b j = r)
    (hv : ∀ j, ∃ r : ℝ, v j = r) :
    attnR c fill q k b msk v = attnK c fill q k b msk v := by
  unfold attnR attnK
  rw [scoreK_eq_scoreR c fill q k b msk hc hq hk]
  exact outR_eq_outK hN _ v (scoreR_real c fill q k b msk hc hf hq hk hb) hv

end Cert.SoftmaxRow

end
-- ==== Proof.AttnMath.lean ====
/-
  The streamed attention row equals the reference attention row when every input is a real number.

  (a) The scale. With real inputs every projection is a real number, and over the reals
        Σ_j ((Σ_i x_i · (Wq_ij · c)) + bq_j · c) · K_j = (Σ_j ((Σ_i x_i · Wq_ij) + bq_j) · K_j) · c,
      so a query row carrying c = 1/16 inside its weights and bias gives the score the reference obtains by
      dividing by 16 (division by the nonzero real 16 is multiplication by the real 1/16).

  (b) The streamed softmax. For real scores s and values v, after j ≥ 1 chunks of 256 keys the streamed state is
        (M, Σ_{k < 256 j} exp (s_k − M), Σ_{k < 256 j} exp (s_k − M) · v_k)
      for some real M: the first chunk starts from (−∞, 0, 0), where exp (−∞ − M) = 0 and 0 · 0 = 0; a later
      chunk moves M to M' = max M C, and exp (M − M') · exp (s_k − M) = exp (s_k − M'), so the old sums are
      rescaled to the new shift and the chunk's 256 terms are appended.

  (c) The shift does not matter. For any real M and a non-empty index set,
        (Σ_k exp (s_k − M) · v_k) / (Σ_k exp (s_k − M)) = (Σ_k exp s_k · v_k) / (Σ_k exp s_k),
      because exp (s_k − M) = exp (−M) · exp s_k and the positive factor exp (−M) cancels. Hence the streamed
      quotient (shift: whatever real the stream ended with) and the reference's term-by-term normalised sum
      (shift: the row maximum, a real because the row is non-empty) are the same real number.
-/
import proofs.«137375_j22127671509167_2_alg».proof.Proof.AttnSpec
import proofs.«137375_j22127671509167_2_alg».proof.Proof.LibSoftmaxRow

noncomputable section

namespace Cert.Attn

open Idealize.ShloMosaic
open Cert.SoftmaxRow (coe_sum fold_max_coe)

/-! ## Real arithmetic: shifts of the exponent -/

/-- A common shift of the exponents leaves a sum of exponentials as a common factor. -/
theorem sum_exp_sub {ι : Type*} (t : Finset ι) (s : ι → ℝ) (M : ℝ) :
    ∑ k ∈ t, Real.exp (s k - M) = Real.exp (-M) * ∑ k ∈ t, Real.exp (s k) := by
  rw [Finset.mul_sum]
  exact Finset.sum_congr rfl fun k _ => by rw [sub_eq_add_neg, Real.exp_add, mul_comm]

/-- The same for a weighted sum of exponentials. -/
theorem sum_exp_sub_mul {ι : Type*} (t : Finset ι) (s v : ι → ℝ) (M : ℝ) :
    ∑ k ∈ t, Real.exp (s k - M) * v k = Real.exp (-M) * ∑ k ∈ t, Real.exp (s k) * v k := by
  rw [Finset.mul_sum]
  exact Finset.sum_congr rfl fun k _ => by rw [sub_eq_add_neg, Real.exp_add]; ring

/-- The softmax average does not depend on the shift: the quotient of the shifted sums at one shift is the
    term-by-term normalised sum at any other. -/
theorem softmax_shift {ι : Type*} (t : Finset ι) (ht : t.Nonempty) (s v : ι → ℝ) (M M' : ℝ) :
    (∑ k ∈ t, Real.exp (s k - M) * v k) * (1 / ∑ k ∈ t, Real.exp (s k - M))
      = ∑ k ∈ t, Real.exp (s k - M') * (1 / ∑ k' ∈ t, Real.exp (s k' - M')) * v k := by
  have hD : (∑ k ∈ t, Real.exp (s k)) ≠ 0 := (Finset.sum_pos (fun k _ => Real.exp_pos _) ht).ne'
  have hM : Real.exp (-M) ≠ 0 := (Real.exp_pos _).ne'
  have hM' : Real.exp (-M') ≠ 0 := (Real.exp_pos _).ne'
  have hR : ∑ k ∈ t, Real.exp (s k - M') * (1 / ∑ k' ∈ t, Real.exp (s k' - M')) * v k
      = (∑ k ∈ t, Real.exp (s k - M') * v k) * (1 / ∑ k' ∈ t, Real.exp (s k' - M')) := by
    rw [Finset.sum_mul]
    exact Finset.sum_congr rfl fun k _ => by ring
  rw [hR, sum_exp_sub_mul, sum_exp_sub, sum_exp_sub_mul, sum_exp_sub]
  field_simp

/-- Moving the shift from `M` to `M'` multiplies a sum of shifted exponentials by `exp (M - M')`. -/
theorem rescale_sum (s : ℕ → ℝ) (n : ℕ) (M M' : ℝ) :
    Real.exp (M - M') * ∑ k ∈ Finset.range n, Real.exp (s k - M) = ∑ k ∈ Finset.range n, Real.exp (s k - M') := by
  rw [Finset.mul_sum]
  exact Finset.sum_congr rfl fun k _ => by rw [← Real.exp_add]; congr 1; ring

/-- The same for a weighted sum. -/
theorem rescale_sum_mul (s v : ℕ → ℝ) (n : ℕ) (M M' : ℝ) :
    Real.exp (M - M') * ∑ k ∈ Finset.range n, Real.exp (s k - M) * v k
      = ∑ k ∈ Finset.range n, Real.exp (s k - M') * v k := by
  rw [Finset.mul_sum]
  exact Finset.sum_congr rfl fun k _ => by rw [← mul_assoc, ← Real.exp_add]; congr 2; ring

/-- A sum over the first `256 (j + 1)` naturals is the sum over the first `256 j` plus the next chunk of 256. -/
theorem range_chunk (f : ℕ → ℝ) (j : ℕ) :
    ∑ k ∈ Finset.range (256 * (j + 1)), f k
      = ∑ k ∈ Finset.range (256 * j), f k + ∑ k : Fin 256, f (256 * j + k.val) := by
  rw [Nat.mul_succ, Finset.sum_range_add, Fin.sum_univ_eq_sum_range (fun k => f (256 * j + k)) 256]

/-! ## The streamed state on real scores and values -/

/-- One more chunk: the definition of the streamed state, unfolded once. -/
theorem online_succ (s v : ℕ → EReal) (j : ℕ) :
    online s v (j + 1)
      = (max (online s v j).1 (Finset.univ.fold max (⊥ : EReal) fun k : Fin 256 => s (256 * j + k.val)),
         Ideal.exp ((online s v j).1
             - max (online s v j).1 (Finset.univ.fold max (⊥ : EReal) fun k : Fin 256 => s (256 * j + k.val)))
             * (online s v j).2.1
           + ∑ k : Fin 256, Ideal.exp (s (256 * j + k.val)
               - max (online s v j).1 (Finset.univ.fold max (⊥ : EReal) fun k : Fin 256 => s (256 * j + k.val))),
         Ideal.exp ((online s v j).1
             - max (online s v j).1 (Finset.univ.fold max (⊥ : EReal) fun k : Fin 256 => s (256 * j + k.val)))
             * (online s v j).2.2
           + ∑ k : Fin 256, Ideal.exp (s (256 * j + k.val)
               - max (online s v j).1 (Finset.univ.fold max (⊥ : EReal) fun k : Fin 256 => s (256 * j + k.val)))
               * v (256 * j + k.val)) := rfl

/-- A chunk's maximum of real scores is a real. -/
theorem chunkMax_real (s : ℕ → ℝ) (j : ℕ) :
    ∃ C : ℝ, (Finset.univ.fold max (⊥ : EReal) fun k : Fin 256 => ((s (256 * j + k.val) : ℝ) : EReal)) = (C : EReal) :=
  fold_max_coe Finset.univ ⟨(0 : Fin 256), Finset.mem_univ _⟩ fun k : Fin 256 => s (256 * j + k.val)

/-- The first chunk, from the state `(-∞, 0, 0)`: `exp (-∞ - C) = 0` and `0 * 0 = 0`, so the state becomes the
    chunk's maximum and the chunk's two sums at that shift. -/
theorem step_bot (s v : ℕ → ℝ) (j : ℕ) (C : ℝ)
    (hC : (Finset.univ.fold max (⊥ : EReal) fun k : Fin 256 => ((s (256 * j + k.val) : ℝ) : EReal)) = (C : EReal)) :
    (max (⊥ : EReal) (Finset.univ.fold max (⊥ : EReal) fun k : Fin 256 => ((s (256 * j + k.val) : ℝ) : EReal)),
      Ideal.exp ((⊥ : EReal)
          - max (⊥ : EReal) (Finset.univ.fold max (⊥ : EReal) fun k : Fin 256 => ((s (256 * j + k.val) : ℝ) : EReal)))
          * (0 : EReal)
        + ∑ k : Fin 256, Ideal.exp (((s (256 * j + k.val) : ℝ) : EReal)
            - max (⊥ : EReal) (Finset.univ.fold max (⊥ : EReal) fun k : Fin 256 => ((s (256 * j + k.val) : ℝ) : EReal))),
      Ideal.exp ((⊥ : EReal)
          - max (⊥ : EReal) (Finset.univ.fold max (⊥ : EReal) fun k : Fin 256 => ((s (256 * j + k.val) : ℝ) : EReal)))
          * (0 : EReal)
        + ∑ k : Fin 256, Ideal.exp (((s (256 * j + k.val) : ℝ) : EReal)
            - max (⊥ : EReal) (Finset.univ.fold max (⊥ : EReal) fun k : Fin 256 => ((s (256 * j + k.val) : ℝ) : EReal)))
            * ((v (256 * j + k.val) : ℝ) : EReal))
      = ((C : EReal),
         ((∑ k : Fin 256, Real.exp (s (256 * j + k.val) - C) : ℝ) : EReal),
         ((∑ k : Fin 256, Real.exp (s (256 * j + k.val) - C) * v (256 * j + k.val) : ℝ) : EReal)) := by
  rw [hC, max_bot_left, EReal.bot_sub, Ideal.exp_bot, zero_mul, zero_add]
  simp only [zero_add, ← EReal.coe_sub, Ideal.exp_coe, ← EReal.coe_mul, coe_sum]

/-- After at least one chunk the streamed state on real scores and values is, for some real shift `M`,
    `(M, Σ_{k < 256 j} exp (s k - M), Σ_{k < 256 j} exp (s k - M) * v k)`. -/
theorem online_real (s v : ℕ → ℝ) (j : ℕ) :
    ∃ M : ℝ, online (fun n => ((s n : ℝ) : EReal)) (fun n => ((v n : ℝ) : EReal)) (j + 1)
      = ((M : EReal),
         ((∑ k ∈ Finset.range (256 * (j + 1)), Real.exp (s k - M) : ℝ) : EReal),
         ((∑ k ∈ Finset.range (256 * (j + 1)), Real.exp (s k - M) * v k : ℝ) : EReal)) := by
  induction j with
  | zero =>
    obtain ⟨C, hC⟩ := chunkMax_real s 0
    refine ⟨C, ?_⟩
    rw [online_succ]
    refine (step_bot s v 0 C hC).trans ?_
    rw [range_chunk, range_chunk]
    simp only [Nat.mul_zero, Finset.range_zero, Finset.sum_empty, zero_add]
  | succ j ih =>
    obtain ⟨M, hM⟩ := ih
    obtain ⟨C, hC⟩ := chunkMax_real s (j + 1)
    refine ⟨max M C, ?_⟩
    have hmax : max (M : EReal) (C : EReal) = ((max M C : ℝ) : EReal) :=
      (EReal.coe_strictMono.monotone.map_max).symm
    rw [online_succ, hM]
    simp only [hC, hmax, ← EReal.coe_sub, Ideal.exp_coe, ← EReal.coe_mul, coe_sum, ← EReal.coe_add]
    rw [rescale_sum, rescale_sum_mul, ← range_chunk (fun k => Real.exp (s k - max M C)),
      ← range_chunk (fun k => Real.exp (s k - max M C) * v k)]

/-! ## The two rows on real scores and values -/

/-- A row of 4096 reals read at a natural number (zero past the end). -/
def extR (f : Fin 4096 → ℝ) (n : ℕ) : ℝ := if h : n < 4096 then f ⟨n, h⟩ else 0

/-- Inside the row the extension is the row. -/
theorem extR_val (f : Fin 4096 → ℝ) (k : Fin 4096) : extR f k.val = f k := by
  unfold extR
  rw [dif_pos k.isLt]

/-- The extension of a row of reals is the row of reals of the extension. -/
theorem ext_coe (f : Fin 4096 → ℝ) :
    ext (fun k => ((f k : ℝ) : EReal)) = fun n => ((extR f n : ℝ) : EReal) := by
  funext n
  unfold ext extR
  split
  · rfl
  · exact EReal.coe_zero.symm

/-- A sum over the first 4096 naturals of a function of the extension is the sum over the row. -/
theorem sum_range_extR (f g : Fin 4096 → ℝ) (F : ℝ → ℝ → ℝ) :
    ∑ k ∈ Finset.range 4096, F (extR f k) (extR g k) = ∑ k : Fin 4096, F (f k) (g k) := by
  rw [← Fin.sum_univ_eq_sum_range (fun k => F (extR f k) (extR g k)) 4096]
  exact Finset.sum_congr rfl fun k _ => by rw [extR_val, extR_val]

/-- The streamed row on real scores and values is the quotient of the two shifted sums at some real shift. -/
theorem onlineAv_real (S V : Fin 4096 → ℝ) :
    ∃ M : ℝ, onlineAv (ext fun k => ((S k : ℝ) : EReal)) (ext fun k => ((V k : ℝ) : EReal))
      = (((∑ k : Fin 4096, Real.exp (S k - M) * V k) * (1 / ∑ k : Fin 4096, Real.exp (S k - M)) : ℝ) : EReal) := by
  obtain ⟨M, hM⟩ := online_real (extR S) (extR V) 15
  refine ⟨M, ?_⟩
  have hM' : online (fun n => ((extR S n : ℝ) : EReal)) (fun n => ((extR V n : ℝ) : EReal)) 16
      = ((M : EReal),
         ((∑ k ∈ Finset.range 4096, Real.exp (extR S k - M) : ℝ) : EReal),
         ((∑ k ∈ Finset.range 4096, Real.exp (extR S k - M) * extR V k : ℝ) : EReal)) := hM
  rw [sum_range_extR S V (fun a _ => Real.exp (a - M)),
    sum_range_extR S V (fun a b => Real.exp (a - M) * b)] at hM'
  have hL : (∑ k : Fin 4096, Real.exp (S k - M)) ≠ 0 :=
    (Finset.sum_pos (fun k _ => Real.exp_pos _) ⟨(0 : Fin 4096), Finset.mem_univ _⟩).ne'
  unfold onlineAv
  rw [ext_coe, ext_coe, hM']
  dsimp only
  rw [Ideal.div_coe hL, ← EReal.coe_mul]

/-- The reference row on real scores and values is the term-by-term normalised sum at some real shift. -/
theorem softmaxAv_real (S V : Fin 4096 → ℝ) :
    ∃ M : ℝ, softmaxAv (fun k => ((S k : ℝ) : EReal)) (fun k => ((V k : ℝ) : EReal))
      = ((∑ k : Fin 4096, Real.exp (S k - M) * (1 / ∑ k' : Fin 4096, Real.exp (S k' - M)) * V k : ℝ) : EReal) := by
  obtain ⟨M, hM⟩ := fold_max_coe Finset.univ ⟨(0 : Fin 4096), Finset.mem_univ _⟩ S
  refine ⟨M, ?_⟩
  have hL : (∑ k : Fin 4096, Real.exp (S k - M)) ≠ 0 :=
    (Finset.sum_pos (fun k _ => Real.exp_pos _) ⟨(0 : Fin 4096), Finset.mem_univ _⟩).ne'
  unfold softmaxAv
  simp only [hM, ← EReal.coe_sub, Ideal.exp_coe, coe_sum]
  simp only [Ideal.div_coe hL, ← EReal.coe_mul, coe_sum]

/-- Streamed softmax is softmax on real scores and values. -/
theorem onlineAv_eq_softmaxAv (S V : Fin 4096 → ℝ) :
    onlineAv (ext fun k => ((S k : ℝ) : EReal)) (ext fun k => ((V k : ℝ) : EReal))
      = softmaxAv (fun k => ((S k : ℝ) : EReal)) (fun k => ((V k : ℝ) : EReal)) := by
  obtain ⟨M, h1⟩ := onlineAv_real S V
  obtain ⟨M', h2⟩ := softmaxAv_real S V
  rw [h1, h2, softmax_shift Finset.univ ⟨(0 : Fin 4096), Finset.mem_univ _⟩ S V M M']

/-! ## The scale inside the query projection -/

/-- Over the reals a factor carried inside a dense layer's weights and bias leaves the inner product. -/
theorem scale_in_query (x : Fin 512 → ℝ) (W : Fin 512 → Fin 512 → ℝ) (b K : Fin 512 → ℝ) (c : ℝ) :
    ∑ j : Fin 512, ((∑ i : Fin 512, x i * (W i j * c)) + b j * c) * K j
      = (∑ j : Fin 512, ((∑ i : Fin 512, x i * W i j) + b j) * K j) * c := by
  rw [Finset.sum_mul]
  refine Finset.sum_congr rfl fun j _ => ?_
  have hc : ∑ i : Fin 512, x i * (W i j * c) = (∑ i : Fin 512, x i * W i j) * c := by
    rw [Finset.sum_mul]
    exact Finset.sum_congr rfl fun i _ => by ring
  rw [hc]
  ring

/-! ## The kernel's row equals the reference's row -/

theorem kerSpec_eq_refSpec (c : EReal) (hc : c = ((1 / 16 : ℝ) : EReal))
    (x : Fin 4 → Fin 4096 → Fin 512 → EReal) (Wq : Fin 512 → Fin 512 → EReal) (bq : Fin 512 → EReal)
    (Wk : Fin 512 → Fin 512 → EReal) (bk : Fin 512 → EReal) (Wv : Fin 512 → Fin 256 → EReal) (bv : Fin 256 → EReal)
    (hx : ∀ b s i, ∃ r : ℝ, x b s i = (r : EReal)) (hWq : ∀ i j, ∃ r : ℝ, Wq i j = (r : EReal)) (hbq : ∀ j, ∃ r : ℝ, bq j = (r : EReal))
    (hWk : ∀ i j, ∃ r : ℝ, Wk i j = (r : EReal)) (hbk : ∀ j, ∃ r : ℝ, bk j = (r : EReal))
    (hWv : ∀ i j, ∃ r : ℝ, Wv i j = (r : EReal)) (hbv : ∀ j, ∃ r : ℝ, bv j = (r : EReal))
    (bi : Fin 4) (q : Fin 4096) (h : Fin 256) :
    kerSpec c x Wq bq Wk bk Wv bv bi q h = refSpec x Wq bq Wk bk Wv bv bi q h := by
  subst hc
  choose X hX using hx
  choose WQ hWQ using hWq
  choose BQ hBQ using hbq
  choose WK hWK using hWk
  choose BK hBK using hbk
  choose WV hWV using hWv
  choose BV hBV using hbv
  obtain rfl : x = fun b s i => ((X b s i : ℝ) : EReal) := by funext b s i; exact hX b s i
  obtain rfl : Wq = fun i j => ((WQ i j : ℝ) : EReal) := by funext i j; exact hWQ i j
  obtain rfl : bq = fun j => ((BQ j : ℝ) : EReal) := funext hBQ
  obtain rfl : Wk = fun i j => ((WK i j : ℝ) : EReal) := by funext i j; exact hWK i j
  obtain rfl : bk = fun j => ((BK j : ℝ) : EReal) := funext hBK
  obtain rfl : Wv = fun i j => ((WV i j : ℝ) : EReal) := by funext i j; exact hWV i j
  obtain rfl : bv = fun j => ((BV j : ℝ) : EReal) := funext hBV
  -- the real scores and the real values of the row
  have hker : (fun k : Fin 4096 =>
        dot512 (proj (fun b s i => ((X b s i : ℝ) : EReal))
            (fun i j => ((WQ i j : ℝ) : EReal) * ((1 / 16 : ℝ) : EReal))
            (fun j => ((BQ j : ℝ) : EReal) * ((1 / 16 : ℝ) : EReal)) bi q)
          (proj (fun b s i => ((X b s i : ℝ) : EReal)) (fun i j => ((WK i j : ℝ) : EReal))
            (fun j => ((BK j : ℝ) : EReal)) bi k))
      = fun k : Fin 4096 => (((∑ j : Fin 512, ((∑ i : Fin 512, X bi q i * WQ i j) + BQ j)
          * ((∑ i : Fin 512, X bi k i * WK i j) + BK j)) * (1 / 16) : ℝ) : EReal) := by
    funext k
    unfold dot512 proj
    simp only [← EReal.coe_mul, coe_sum, ← EReal.coe_add]
    exact congrArg _ (scale_in_query (X bi q) WQ BQ (fun j => (∑ i : Fin 512, X bi k i * WK i j) + BK j) (1 / 16))
  have href : (fun k : Fin 4096 =>
        Ideal.div (dot512 (proj (fun b s i => ((X b s i : ℝ) : EReal)) (fun i j => ((WQ i j : ℝ) : EReal))
            (fun j => ((BQ j : ℝ) : EReal)) bi q)
          (proj (fun b s i => ((X b s i : ℝ) : EReal)) (fun i j => ((WK i j : ℝ) : EReal))
            (fun j => ((BK j : ℝ) : EReal)) bi k)) ((16 : ℝ) : EReal))
      = fun k : Fin 4096 => (((∑ j : Fin 512, ((∑ i : Fin 512, X bi q i * WQ i j) + BQ j)
          * ((∑ i : Fin 512, X bi k i * WK i j) + BK j)) * (1 / 16) : ℝ) : EReal) := by
    funext k
    rw [Ideal.div_coe (by norm_num : (16 : ℝ) ≠ 0)]
    unfold dot512 proj
    simp only [← EReal.coe_mul, coe_sum, ← EReal.coe_add]
  have hval : (fun k : Fin 4096 =>
        proj (fun b s i => ((X b s i : ℝ) : EReal)) (fun i j => ((WV i j : ℝ) : EReal))
          (fun j => ((BV j : ℝ) : EReal)) bi k h)
      = fun k : Fin 4096 => (((∑ i : Fin 512, X bi k i * WV i h) + BV h : ℝ) : EReal) := by
    funext k
    unfold proj
    simp only [← EReal.coe_mul, coe_sum, ← EReal.coe_add]
  unfold kerSpec refSpec
  rw [hker, href, hval]
  exact onlineAv_eq_softmaxAv _ _

end Cert.Attn

end
-- ==== Proof.KI.Region1Online.lean ====
/-
  The carried arrays are the streamed softmax. Fix a batch b and a query row q = 1024·qi + r. At grid point
  t = 16·qi + ki the body's scores for that row are the row's scores against keys 256·ki … 256·ki + 255, so one step
  of the body on (b, r) is one step of the streamed state (Cert.Attn.online) on key chunk ki. By induction on ki the
  arrays after point 16·qi + ki hold, at (b, r), the streamed state after ki + 1 chunks — the reset at ki = 0 being
  the streamed start (−∞, 0, 0) — and the output array holds numerator / denominator after all 16 chunks.
-/
import proofs.«137375_j22127671509167_2_alg».proof.Proof.KI.Region1Value
import proofs.«137375_j22127671509167_2_alg».proof.Proof.KI.Region1Blocks
import proofs.«137375_j22127671509167_2_alg».proof.Proof.AttnMath

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Attn

variable (V : (c : Dev nD) → (b : Ref sig .tc) → Buf (Elt Ideal) ((c : Thread nD τ).loc b))

/-- The query, key and value arrays the region finds, as arrays of extended reals. -/
abbrev Qa (c : Dev nD) : S4x4096x512.Idx → EReal := V c main_v10
abbrev Ka (c : Dev nD) : S4x4096x512.Idx → EReal := V c main_v11
abbrev Va (c : Dev nD) : S4x4096x256.Idx → EReal := V c main_v12

/-- The scores of query row `q` of batch `b` against every key, from the arrays the region finds. -/
def sRow (c : Dev nD) (b : Fin 4) (q : Fin 4096) : Fin 4096 → EReal := fun k =>
  ∑ j : Fin 512, Qa V c (ix3 b q j) * Ka V c (ix3 b k j)

/-- Column `d` of the value rows of batch `b`. -/
def vCol (c : Dev nD) (b : Fin 4) (d : Fin 256) : Fin 4096 → EReal := fun k => Va V c (ix3 b k d)

theorem ext_at (f : Fin 4096 → EReal) (n : ℕ) (h : n < 4096) : ext f n = f ⟨n, h⟩ := dif_pos h

/-- At point `t` the body's scores of block row `r` are the scores of row 1024·(t/16) + r against key chunk t % 16. -/
theorem sc_point (c : Dev nD) (t : Fin cfg1.N) (b : Fin 4) (r : Fin 1024) (q : Fin 4096)
    (hq : q.val = 1024 * (t.val / 16) + r.val) (k : Fin 256) :
    sc (iblk1 V c 0 t) (iblk1 V c 1 t) b r k = ext (sRow V c b q) (256 * (t.val % 16) + k.val) := by
  obtain ⟨h0, h1, -⟩ := blocks1 V c t b
  have ht := lt_N1 t
  have hb : 1024 * (t.val / 16) + r.val < 4096 := by have := r.isLt; omega
  have eq : (⟨1024 * (t.val / 16) + r.val, hb⟩ : Fin 4096) = q := Fin.ext hq.symm
  rw [ext_at _ _ (by have := k.isLt; omega)]
  unfold sc sRow
  refine Finset.sum_congr rfl fun j _ => ?_
  rw [h0 r j, h1 k j, ← eq]

/-- and its value rows are the value rows of that chunk. -/
theorem v_point (c : Dev nD) (t : Fin cfg1.N) (b : Fin 4) (d : Fin 256) (k : Fin 256) :
    iblk1 V c 2 t (ix3 b k d) = ext (vCol V c b d) (256 * (t.val % 16) + k.val) := by
  obtain ⟨-, -, h2⟩ := blocks1 V c t b
  have ht := lt_N1 t
  rw [ext_at _ _ (by have := k.isLt; omega)]
  exact h2 k d

/-- One step of the body on (b, r) is one step of the streamed state on the point's key chunk. -/
theorem step_online (x0 : Vec Ideal S4x1024x512 .bf16) (x1 : Vec Ideal S4x256x512 .bf16) (x2 : Vec Ideal S4x256x256 .bf16)
    (b : Fin 4) (r : Fin 1024) (d : Fin 256) (st : Carry Ideal) (j : ℕ) (s v : ℕ → EReal)
    (hs : ∀ k : Fin 256, sc x0 x1 b r k = s (256 * j + k.val))
    (hv : ∀ k : Fin 256, x2 (ix3 b k d) = v (256 * j + k.val))
    (h1 : st.1 (ix3 b r 0) = (online s v j).1) (h2 : st.2.1 (ix3 b r 0) = (online s v j).2.1)
    (h3 : st.2.2 (ix3 b r d) = (online s v j).2.2) :
    (carryStep x0 x1 x2 st).1 (ix3 b r 0) = (online s v (j + 1)).1
    ∧ (carryStep x0 x1 x2 st).2.1 (ix3 b r 0) = (online s v (j + 1)).2.1
    ∧ (carryStep x0 x1 x2 st).2.2 (ix3 b r d) = (online s v (j + 1)).2.2 := by
  have hsc : sc x0 x1 b r = fun k : Fin 256 => s (256 * j + k.val) := funext hs
  have hm : mNew x0 x1 st b r
      = max (online s v j).1 (Finset.univ.fold max (⊥ : EReal) fun k : Fin 256 => s (256 * j + k.val)) := by
    unfold mNew; rw [h1, hsc]
  rw [online_succ]
  refine ⟨(carryStep_m x0 x1 x2 st b r).trans hm, ?_, ?_⟩
  · rw [carryStep_l, hm, h1, h2]
    exact congrArg (_ + ·) (Finset.sum_congr rfl fun k _ => by rw [hs k])
  · rw [carryStep_a, hm, h1, h3]
    exact congrArg (_ + ·) (Finset.sum_congr rfl fun k _ => by rw [hs k, hv k])

/-- The carried arrays after point 16·qi + ki, at row r of the block, are the streamed state of row 1024·qi + r after
    ki + 1 chunks. -/
theorem carryAt_online (c : Dev nD) (b : Fin 4) (qi : ℕ) (hqi : qi < 4) (r : Fin 1024) (d : Fin 256) (q : Fin 4096)
    (hq : q.val = 1024 * qi + r.val) :
    ∀ (ki : ℕ) (hki : ki < 16) (hn : 16 * qi + ki < cfg1.N),
      (carryAt V c (16 * qi + ki) hn).1 (ix3 b r 0) = (online (ext (sRow V c b q)) (ext (vCol V c b d)) (ki + 1)).1
      ∧ (carryAt V c (16 * qi + ki) hn).2.1 (ix3 b r 0) = (online (ext (sRow V c b q)) (ext (vCol V c b d)) (ki + 1)).2.1
      ∧ (carryAt V c (16 * qi + ki) hn).2.2 (ix3 b r d) = (online (ext (sRow V c b q)) (ext (vCol V c b d)) (ki + 1)).2.2
  | 0, _, hn => by
    have h0 : (⟨16 * qi + 0, hn⟩ : Fin cfg1.N).val % 16 = 0 := by show (16 * qi + 0) % 16 = 0; omega
    rw [show carryAt V c (16 * qi + 0) hn = _ from carryAt_reset V c ⟨16 * qi + 0, hn⟩ h0]
    refine step_online _ _ _ b r d carry0 0 _ _ (fun k => ?_) (fun k => ?_) (carry0_m _) (carry0_l _) (carry0_a _)
    · rw [sc_point V c ⟨16 * qi + 0, hn⟩ b r q (by show q.val = 1024 * ((16 * qi + 0) / 16) + r.val; omega) k]
      show ext _ (256 * ((16 * qi + 0) % 16) + k.val) = ext _ (256 * 0 + k.val)
      congr 1; omega
    · rw [v_point V c ⟨16 * qi + 0, hn⟩ b d k]
      show ext _ (256 * ((16 * qi + 0) % 16) + k.val) = ext _ (256 * 0 + k.val)
      congr 1; omega
  | ki + 1, hki, hn => by
    have hn' : 16 * qi + ki < cfg1.N := by omega
    obtain ⟨i1, i2, i3⟩ := carryAt_online c b qi hqi r d q hq ki (by omega) hn'
    have hne : (16 * qi + ki + 1) % 16 ≠ 0 := by omega
    rw [show carryAt V c (16 * qi + (ki + 1)) hn = _ from carryAt_step V c (16 * qi + ki) hn hne]
    refine step_online _ _ _ b r d _ (ki + 1) _ _ (fun k => ?_) (fun k => ?_) i1 i2 i3
    · rw [sc_point V c ⟨16 * qi + ki + 1, hn⟩ b r q (by show q.val = 1024 * ((16 * qi + ki + 1) / 16) + r.val; omega) k]
      show ext _ (256 * ((16 * qi + ki + 1) % 16) + k.val) = ext _ (256 * (ki + 1) + k.val)
      congr 1; omega
    · rw [v_point V c ⟨16 * qi + ki + 1, hn⟩ b d k]
      show ext _ (256 * ((16 * qi + ki + 1) % 16) + k.val) = ext _ (256 * (ki + 1) + k.val)
      congr 1; omega

/-- THE OUTPUT ARRAY after the region: entry (b, q, d) is the streamed softmax of row q's scores applied to column d of
    the values. -/
theorem out_online (c : Dev nD) (b : Fin 4) (q : Fin 4096) (d : Fin 256) :
    (dat1 (F := Ideal) V c).arrAt 3 cfg1.N (ix3 b q d) = onlineAv (ext (sRow V c b q)) (ext (vCol V c b d)) := by
  rw [final1_3 V c]
  have hN : cfg1.N = 64 := N_1
  obtain ⟨i1, i2, i3⟩ := carryAt_online V c b (q.val / 1024) (by omega) ⟨q.val % 1024, Nat.mod_lt _ (by decide)⟩ d q
    (by show q.val = 1024 * (q.val / 1024) + q.val % 1024; omega) 15 (by decide) (by omega)
  show carryOut (carryAt V c (16 * (q.val / 1024) + 15) _) (ix3 b ⟨q.val % 1024, _⟩ d) = _
  rw [carryOut_apply, i2, i3]
  rfl

end Cert.KernelIdeal.Hand

end
-- ==== Proof.KI.Region0Value.lean ====
/- Region 0 of @main read at the exact reals: what the projection kernel leaves in its three output arrays, as whole-array
   functions of the buffer contents the region finds. At a grid point the body forms, for the 1024 rows of its block,
   row · weights + bias (1280 columns) and stores columns [0, 512), [512, 1024) and [1024, 1280) into the three output
   blocks; a change of float format is the identity on extended reals and the product into the zero accumulator is the
   plain sum over the 512 contraction indices. Point `t` holds rows [1024·t, 1024·t + 1024), so the 16 points fill each
   array, and entry (r, j) of output `w` ends as entry (r, j + offset_w) of activations · weights + bias. -/
import proofs.«137375_j22127671509167_2_alg».proof.Proof.KI.Region0
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-- The projection's dimension numbers: rows of the left operand against columns of the right one. -/
abbrev D0 : DotDims S1024x512 S512x1280 S1024x1280 := dot_S1024x512_S512x1280_S1024x1280_1_0_0_1_n_n

theorem D0_lhs0 (i : S1024x1280.Idx) (q : D0.contr.Idx) : (D0.lhsIdx i q 0).val = (i 0).val := by
  unfold DotDims.lhsIdx
  rw [dif_neg (show ¬(0 : Fin S1024x512.rank) ∈ D0.lhsBatch by decide), dif_pos (show (0 : Fin S1024x512.rank) ∈ D0.lhsNonContracting by decide)]
  rfl
theorem D0_lhs1 (i : S1024x1280.Idx) (q : D0.contr.Idx) : (D0.lhsIdx i q 1).val = (q ⟨0, by decide⟩).val :=
  D0.lhsIdx_val_of_single rfl i q
theorem D0_rhs0 (i : S1024x1280.Idx) (q : D0.contr.Idx) : (D0.rhsIdx i q 0).val = (q ⟨0, by decide⟩).val :=
  D0.rhsIdx_val_of_single rfl i q
theorem D0_rhs1 (i : S1024x1280.Idx) (q : D0.contr.Idx) : (D0.rhsIdx i q 1).val = (i 1).val := by
  unfold DotDims.rhsIdx
  rw [dif_neg (show ¬(1 : Fin S512x1280.rank) ∈ D0.rhsBatch by decide), dif_pos (show (1 : Fin S512x1280.rank) ∈ D0.rhsNonContracting by decide)]
  rfl

/-- Row `p` of the block times column `q` of the weights, plus the bias at `q`. -/
theorem pay1_apply (x0 : Vec Ideal S1024x512 .f32) (x1 : Vec Ideal S512x1280 .bf16) (x2 : Vec Ideal S1x1280 .f32)
    (p : Fin 1024) (q : Fin 1280) :
    k0_pay1 x0 x1 x2 (ix2 p q) = (∑ k : Fin 512, x0 (ix2 p k) * x1 (ix2 k q)) + x2 (ix2 (0 : Fin 1) q) := by
  unfold k0_pay1
  rw [addf_apply]
  refine congrArg₂ (· + ·) ?_ ?_
  · rw [shapeCast_self, shapeCast_self]
    refine (Ideal.matmul_constant_zero_apply (φ₁ := .bf16) (φ₂ := .bf16) D0 none _ _ (ix2 p q)).trans ?_
    rw [← Equiv.sum_comp (contrEquiv1 D0 512 rfl rfl).symm]
    refine Finset.sum_congr rfl fun k _ => ?_
    have hk := contrEquiv1_symm_val D0 512 rfl rfl k
    have el : D0.lhsIdx (ix2 p q) ((contrEquiv1 D0 512 rfl rfl).symm k) = ix2 p k := funext fun a => Fin.ext (by
      match a with
      | ⟨0, _⟩ => exact D0_lhs0 _ _
      | ⟨1, _⟩ => exact (D0_lhs1 _ _).trans hk)
    have er : D0.rhsIdx (ix2 p q) ((contrEquiv1 D0 512 rfl rfl).symm k) = ix2 k q := funext fun a => Fin.ext (by
      match a with
      | ⟨0, _⟩ => exact (D0_rhs0 _ _).trans hk
      | ⟨1, _⟩ => exact D0_rhs1 _ _)
    rw [el, er]
    rfl
  · rw [shapeCast_self]
    exact broadcastTo_1b_ab_apply x2 broadcasts_S1x1280_S1024x1280 p q

/-- The first stored block: columns [0, 512) of the projection. -/
theorem pay2_apply (x0 : Vec Ideal S1024x512 .f32) (x1 : Vec Ideal S512x1280 .bf16) (x2 : Vec Ideal S1x1280 .f32)
    (p : Fin 1024) (j : Fin 512) (q : Fin 1280) (hq : q.val = 0 + j.val) :
    k0_pay2 x0 x1 x2 (ix2 p j) = (∑ k : Fin 512, x0 (ix2 p k) * x1 (ix2 k q)) + x2 (ix2 (0 : Fin 1) q) := by
  unfold k0_pay2
  rw [truncf_apply]
  exact (slice2_axis1_apply 0 (k0_pay1 x0 x1 x2) slices_S1024x1280_o0_0_S1024x512 p j q hq).trans (pay1_apply x0 x1 x2 p q)

/-- The second stored block: columns [512, 1024). -/
theorem pay3_apply (x0 : Vec Ideal S1024x512 .f32) (x1 : Vec Ideal S512x1280 .bf16) (x2 : Vec Ideal S1x1280 .f32)
    (p : Fin 1024) (j : Fin 512) (q : Fin 1280) (hq : q.val = 512 + j.val) :
    k0_pay3 x0 x1 x2 (ix2 p j) = (∑ k : Fin 512, x0 (ix2 p k) * x1 (ix2 k q)) + x2 (ix2 (0 : Fin 1) q) := by
  unfold k0_pay3
  rw [truncf_apply]
  exact (slice2_axis1_apply 512 (k0_pay1 x0 x1 x2) slices_S1024x1280_o0_512_S1024x512 p j q hq).trans (pay1_apply x0 x1 x2 p q)

/-- The third stored block: columns [1024, 1280). -/
theorem pay4_apply (x0 : Vec Ideal S1024x512 .f32) (x1 : Vec Ideal S512x1280 .bf16) (x2 : Vec Ideal S1x1280 .f32)
    (p : Fin 1024) (j : Fin 256) (q : Fin 1280) (hq : q.val = 1024 + j.val) :
    k0_pay4 x0 x1 x2 (ix2 p j) = (∑ k : Fin 512, x0 (ix2 p k) * x1 (ix2 k q)) + x2 (ix2 (0 : Fin 1) q) := by
  unfold k0_pay4
  rw [truncf_apply]
  exact (slice2_axis1_apply 1024 (k0_pay1 x0 x1 x2) slices_S1024x1280_o0_1024_S1024x256 p j q hq).trans (pay1_apply x0 x1 x2 p q)

/-! ## The whole arrays after the region -/

/-- Entry (r, q) of activations · weights + bias. -/
def proj0 (X : S16384x512.Idx → EReal) (Wm : S512x1280.Idx → EReal) (Bv : S1x1280.Idx → EReal) (r : Fin 16384) (q : Fin 1280) : EReal :=
  (∑ k : Fin 512, X (ix2 r k) * Wm (ix2 k q)) + Bv (ix2 (0 : Fin 1) q)

/-- The same sum written over a block of rows, the whole weights and the bias row, when those are the arrays' entries
    at the matching places. -/
theorem proj0_of_blocks (X : S16384x512.Idx → EReal) (Wm : S512x1280.Idx → EReal) (Bv : S1x1280.Idx → EReal)
    (x0 : Vec Ideal S1024x512 .f32) (x1 : Vec Ideal S512x1280 .bf16) (x2 : Vec Ideal S1x1280 .f32)
    (p : Fin 1024) (q : Fin 1280) (r : Fin 16384)
    (h0 : ∀ k : Fin 512, x0 (ix2 p k) = X (ix2 r k)) (h1 : ∀ k : Fin 512, x1 (ix2 k q) = Wm (ix2 k q))
    (h2 : x2 (ix2 (0 : Fin 1) q) = Bv (ix2 (0 : Fin 1) q)) :
    (∑ k : Fin 512, x0 (ix2 p k) * x1 (ix2 k q)) + x2 (ix2 (0 : Fin 1) q) = proj0 X Wm Bv r q := by
  unfold proj0
  rw [h2]
  exact congrArg (· + Bv (ix2 (0 : Fin 1) q)) (Finset.sum_congr rfl fun k _ => by rw [h0 k, h1 k])

theorem hz0 : (![0, 0] : Fin 2 → Nat) = fun _ => 0 := funext fun a => by fin_cases a <;> rfl

/-- The printed index maps over the grid: the activations' block and the three output blocks are block `t` of rows at
    point `t`; the weights and the bias have one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The three input blocks at point `t`, read at the places the projection needs: rows `t·1024 + p` of the activations,
    the weights and the bias as they are. -/
theorem blocks0 (c : Dev nD) (t : Fin cfg0.N) (p : Fin 1024) (q : Fin 1280) (r : Fin 16384) (hr : r.val = t.val * 1024 + p.val) :
    (∀ k : Fin 512, iblk0 V c 0 t (ix2 p k) = (V c main_v8 : S16384x512.Idx → EReal) (ix2 r k))
    ∧ (∀ k : Fin 512, iblk0 V c 1 t (ix2 k q) = (V c main_v6 : S512x1280.Idx → EReal) (ix2 k q))
    ∧ iblk0 V c 2 t (ix2 (0 : Fin 1) q) = (V c main_v7 : S1x1280.Idx → EReal) (ix2 (0 : Fin 1) q) := by
  obtain ⟨e00, e01, e10, e11, e20, e21, -⟩ := idx_facts0 t
  refine ⟨fun k => ?_, fun k => ?_, ?_⟩
  · show V c main_v8 (((cfg0.win 0).blk t).view.emb (ix2 p k)) = V c main_v8 (ix2 r k)
    refine congrArg _ (funext fun a => Fin.ext ?_)
    match a with
    | ⟨0, _⟩ => show win0_0.index t (0 : Fin 2) * 1024 + 1 * p.val = r.val; omega
    | ⟨1, _⟩ => show win0_0.index t (1 : Fin 2) * 512 + 1 * k.val = k.val; omega
  · show V c main_v6 (((cfg0.win 1).blk t).view.emb (ix2 k q)) = V c main_v6 (ix2 k q)
    refine congrArg _ (funext fun a => Fin.ext ?_)
    match a with
    | ⟨0, _⟩ => show win0_1.index t (0 : Fin 2) * 512 + 1 * k.val = k.val; omega
    | ⟨1, _⟩ => show win0_1.index t (1 : Fin 2) * 1280 + 1 * q.val = q.val; omega
  · show V c main_v7 (((cfg0.win 2).blk t).view.emb (ix2 (0 : Fin 1) q)) = V c main_v7 (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 1280 + 1 * q.val = q.val; omega

/-- The first output array as one function of the region-entry contents: columns [0, 512) of the projection. -/
abbrev G0_3 (c : Dev nD) : S16384x512.Idx → EReal := fun i =>
  proj0 (V c main_v8) (V c main_v6) (V c main_v7) (i 0) ⟨(i 1).val, by have := idx2_lt1 i; omega⟩

/-- What point `t` writes back into it is block `t` of that function. -/
theorem flushed0_3 (c : Dev nD) (t : Fin cfg0.N) :
    (dat0 (F := Ideal) V c).flushed 3 t = ((cfg0.win 3).blk t).view.read (Elt Ideal) (G0_3 V c) := by
  show (cfg0.win 3).cut (grid0.coords t) ((dat0 V c).after 3 t) = _
  rw [after0_3]
  unfold out0_3
  rw [View.canon_unit_zero hz0]
  simp only [View.ld_unit_zero (S := S1024x512) hz0, View.ld_unit_zero (S := S512x1280) hz0, View.ld_unit_zero (S := S1x1280) hz0]
  funext j
  obtain ⟨p, q, rfl⟩ : ∃ (p : Fin 1024) (q : Fin 512), j = ix2 p q := ⟨j 0, j 1, eq_ix2 j⟩
  have ht : t.val < 16 := lt_of_lt_of_eq t.isLt N_0
  have e := idx_facts0 t
  obtain ⟨h0, h1, h2⟩ := blocks0 V c t p ⟨q.val, by omega⟩ ⟨t.val * 1024 + p.val, by omega⟩ rfl
  refine (pay2_apply (iblk0 V c 0 t) (iblk0 V c 1 t) (iblk0 V c 2 t) p q ⟨q.val, by omega⟩ (Nat.zero_add _).symm).trans ?_
  refine (proj0_of_blocks _ _ _ (iblk0 V c 0 t) (iblk0 V c 1 t) (iblk0 V c 2 t) p ⟨q.val, by omega⟩ ⟨t.val * 1024 + p.val, by omega⟩ h0 h1 h2).trans ?_
  show _ = G0_3 V c (((cfg0.win 3).blk t).view.emb (ix2 p q))
  refine congrArg₂ (proj0 (V c main_v8) (V c main_v6) (V c main_v7)) (Fin.ext ?_) (Fin.ext ?_)
  · show t.val * 1024 + p.val = win0_3.index t (0 : Fin 2) * 1024 + 1 * p.val; omega
  · show q.val = win0_3.index t (1 : Fin 2) * 512 + 1 * q.val; omega

/-- An index of the array is in point `t`'s block iff each coordinate is in the block's range on its axis. -/
theorem mem_blk0_3 (t : Fin cfg0.N) (i : S16384x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v9_0).slice (win0_3.rect t)).set ↔ _
  rw [View.set_slice_whole, Rect.mem_set_unit]
  exact Iff.rfl

/-- Row `r` of the array lies in the block of point `r / 1024`: the 16 blocks of 1024 rows fill it. -/
theorem covered0_3 (i : S16384x512.Idx) : ∃ t : Fin cfg0.N, (cfg0.win 3).flush t = true ∧ i ∈ ((cfg0.win 3).blk t).view.set := by
  have hi0 : (i 0).val < 16384 := idx2_lt0 i
  have hi1 : (i 1).val < 512 := idx2_lt1 i
  obtain ⟨t, ht⟩ : ∃ t : Fin cfg0.N, t.val = (i 0).val / 1024 :=
    ⟨⟨(i 0).val / 1024, lt_of_lt_of_eq (by omega) N_0.symm⟩, rfl⟩
  have e := idx_facts0 t
  refine ⟨t, flush0_3 t, ?_⟩
  rw [mem_blk0_3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE ARRAY after the region: entry (r, j) is entry (r, j) of activations · weights + bias. -/
theorem final0_3 (c : Dev nD) : (dat0 (F := Ideal) V c).arrAt 3 cfg0.N = fun i : S16384x512.Idx =>
    proj0 (V c main_v8) (V c main_v6) (V c main_v7) (i 0) ⟨(i 1).val, by have := idx2_lt1 i; omega⟩ :=
  (dat0 V c).arrAt_eq_of_cover 3 (G0_3 V c) (fun t _ => flushed0_3 V c t) (covered0_3)

/-- The second output array as one function of the region-entry contents: columns [512, 1024) of the projection. -/
abbrev G0_4 (c : Dev nD) : S16384x512.Idx → EReal := fun i =>
  proj0 (V c main_v8) (V c main_v6) (V c main_v7) (i 0) ⟨(i 1).val + 512, by have := idx2_lt1 i; omega⟩

/-- What point `t` writes back into it is block `t` of that function. -/
theorem flushed0_4 (c : Dev nD) (t : Fin cfg0.N) :
    (dat0 (F := Ideal) V c).flushed 4 t = ((cfg0.win 4).blk t).view.read (Elt Ideal) (G0_4 V c) := by
  show (cfg0.win 4).cut (grid0.coords t) ((dat0 V c).after 4 t) = _
  rw [after0_4]
  unfold out0_4
  rw [View.canon_unit_zero hz0]
  simp only [View.ld_unit_zero (S := S1024x512) hz0, View.ld_unit_zero (S := S512x1280) hz0, View.ld_unit_zero (S := S1x1280) hz0]
  funext j
  obtain ⟨p, q, rfl⟩ : ∃ (p : Fin 1024) (q : Fin 512), j = ix2 p q := ⟨j 0, j 1, eq_ix2 j⟩
  have ht : t.val < 16 := lt_of_lt_of_eq t.isLt N_0
  have e := idx_facts0 t
  obtain ⟨h0, h1, h2⟩ := blocks0 V c t p ⟨512 + q.val, by omega⟩ ⟨t.val * 1024 + p.val, by omega⟩ rfl
  refine (pay3_apply (iblk0 V c 0 t) (iblk0 V c 1 t) (iblk0 V c 2 t) p q ⟨512 + q.val, by omega⟩ rfl).trans ?_
  refine (proj0_of_blocks _ _ _ (iblk0 V c 0 t) (iblk0 V c 1 t) (iblk0 V c 2 t) p ⟨512 + q.val, by omega⟩ ⟨t.val * 1024 + p.val, by omega⟩ h0 h1 h2).trans ?_
  show _ = G0_4 V c (((cfg0.win 4).blk t).view.emb (ix2 p q))
  refine congrArg₂ (proj0 (V c main_v8) (V c main_v6) (V c main_v7)) (Fin.ext ?_) (Fin.ext ?_)
  · show t.val * 1024 + p.val = win0_4.index t (0 : Fin 2) * 1024 + 1 * p.val; omega
  · show 512 + q.val = win0_4.index t (1 : Fin 2) * 512 + 1 * q.val + 512; omega

/-- An index of the array is in point `t`'s block iff each coordinate is in the block's range on its axis. -/
theorem mem_blk0_4 (t : Fin cfg0.N) (i : S16384x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v9_1).slice (win0_4.rect t)).set ↔ _
  rw [View.set_slice_whole, Rect.mem_set_unit]
  exact Iff.rfl

/-- Row `r` of the array lies in the block of point `r / 1024`: the 16 blocks of 1024 rows fill it. -/
theorem covered0_4 (i : S16384x512.Idx) : ∃ t : Fin cfg0.N, (cfg0.win 4).flush t = true ∧ i ∈ ((cfg0.win 4).blk t).view.set := by
  have hi0 : (i 0).val < 16384 := idx2_lt0 i
  have hi1 : (i 1).val < 512 := idx2_lt1 i
  obtain ⟨t, ht⟩ : ∃ t : Fin cfg0.N, t.val = (i 0).val / 1024 :=
    ⟨⟨(i 0).val / 1024, lt_of_lt_of_eq (by omega) N_0.symm⟩, rfl⟩
  have e := idx_facts0 t
  refine ⟨t, flush0_4 t, ?_⟩
  rw [mem_blk0_4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- THE ARRAY after the region: entry (r, j) is entry (r, j + 512) of activations · weights + bias. -/
theorem final0_4 (c : Dev nD) : (dat0 (F := Ideal) V c).arrAt 4 cfg0.N = fun i : S16384x512.Idx =>
    proj0 (V c main_v8) (V c main_v6) (V c main_v7) (i 0) ⟨(i 1).val + 512, by have := idx2_lt1 i; omega⟩ :=
  (dat0 V c).arrAt_eq_of_cover 4 (G0_4 V c) (fun t _ => flushed0_4 V c t) (covered0_4)

/-- The third output array as one function of the region-entry contents: columns [1024, 1280) of the projection. -/
abbrev G0_5 (c : Dev nD) : S16384x256.Idx → EReal := fun i =>
  proj0 (V c main_v8) (V c main_v6) (V c main_v7) (i 0) ⟨(i 1).val + 1024, by have := idx2_lt1 i; omega⟩

/-- What point `t` writes back into it is block `t` of that function. -/
theorem flushed0_5 (c : Dev nD) (t : Fin cfg0.N) :
    (dat0 (F := Ideal) V c).flushed 5 t = ((cfg0.win 5).blk t).view.read (Elt Ideal) (G0_5 V c) := by
  show (cfg0.win 5).cut (grid0.coords t) ((dat0 V c).after 5 t) = _
  rw [after0_5]
  unfold out0_5
  rw [View.canon_unit_zero hz0]
  simp only [View.ld_unit_zero (S := S1024x512) hz0, View.ld_unit_zero (S := S512x1280) hz0, View.ld_unit_zero (S := S1x1280) hz0]
  funext j
  obtain ⟨p, q, rfl⟩ : ∃ (p : Fin 1024) (q : Fin 256), j = ix2 p q := ⟨j 0, j 1, eq_ix2 j⟩
  have ht : t.val < 16 := lt_of_lt_of_eq t.isLt N_0
  have e := idx_facts0 t
  obtain ⟨h0, h1, h2⟩ := blocks0 V c t p ⟨1024 + q.val, by omega⟩ ⟨t.val * 1024 + p.val, by omega⟩ rfl
  refine (pay4_apply (iblk0 V c 0 t) (iblk0 V c 1 t) (iblk0 V c 2 t) p q ⟨1024 + q.val, by omega⟩ rfl).trans ?_
  refine (proj0_of_blocks _ _ _ (iblk0 V c 0 t) (iblk0 V c 1 t) (iblk0 V c 2 t) p ⟨1024 + q.val, by omega⟩ ⟨t.val * 1024 + p.val, by omega⟩ h0 h1 h2).trans ?_
  show _ = G0_5 V c (((cfg0.win 5).blk t).view.emb (ix2 p q))
  refine congrArg₂ (proj0 (V c main_v8) (V c main_v6) (V c main_v7)) (Fin.ext ?_) (Fin.ext ?_)
  · show t.val * 1024 + p.val = win0_5.index t (0 : Fin 2) * 1024 + 1 * p.val; omega
  · show 1024 + q.val = win0_5.index t (1 : Fin 2) * 256 + 1 * q.val + 1024; omega

/-- An index of the array is in point `t`'s block iff each coordinate is in the block's range on its axis. -/
theorem mem_blk0_5 (t : Fin cfg0.N) (i : S16384x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v9_2).slice (win0_5.rect t)).set ↔ _
  rw [View.set_slice_whole, Rect.mem_set_unit]
  exact Iff.rfl

/-- Row `r` of the array lies in the block of point `r / 1024`: the 16 blocks of 1024 rows fill it. -/
theorem covered0_5 (i : S16384x256.Idx) : ∃ t : Fin cfg0.N, (cfg0.win 5).flush t = true ∧ i ∈ ((cfg0.win 5).blk t).view.set := by
  have hi0 : (i 0).val < 16384 := idx2_lt0 i
  have hi1 : (i 1).val < 256 := idx2_lt1 i
  obtain ⟨t, ht⟩ : ∃ t : Fin cfg0.N, t.val = (i 0).val / 1024 :=
    ⟨⟨(i 0).val / 1024, lt_of_lt_of_eq (by omega) N_0.symm⟩, rfl⟩
  have e := idx_facts0 t
  refine ⟨t, flush0_5 t, ?_⟩
  rw [mem_blk0_5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

/-- THE ARRAY after the region: entry (r, j) is entry (r, j + 1024) of activations · weights + bias. -/
theorem final0_5 (c : Dev nD) : (dat0 (F := Ideal) V c).arrAt 5 cfg0.N = fun i : S16384x256.Idx =>
    proj0 (V c main_v8) (V c main_v6) (V c main_v7) (i 0) ⟨(i 1).val + 1024, by have := idx2_lt1 i; omega⟩ :=
  (dat0 V c).arrAt_eq_of_cover 5 (G0_5 V c) (fun t _ => flushed0_5 V c t) (covered0_5)

end Cert.KernelIdeal.Hand
end
-- ==== Proof.KI.HostValues.lean ====
/-
  The host operations around the two kernel regions, read at an index.

  Before the first region the program scales the query weights and the query bias by the constant 1/16, lays the three
  weight matrices side by side ([512, 512 + 512 + 256]) and the three biases end to end, and merges the input's batch and
  position axes into one row axis ([4, 4096, 512] as [16384, 512]). Between the regions it splits the row axis of the first
  region's three results back into batch and position. Each of these arrays is stated here as a function of the
  contents the stretch starts from, entry by entry: a concatenation reads the piece whose span holds the coordinate, a
  reshape reads the entry with the same row-major position.
-/
import proofs.«137375_j22127671509167_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-! ## Reading a three-piece concatenation and the reshapes at an index -/

section Pieces
variable {α : Type}

/-- Three blocks of 512, 512 and 256 columns laid side by side, read at (row, column): the block whose span holds the column,
    at the column less the widths before it. -/
theorem cat_cols (x1 : S512x512.Idx → α) (x2 : S512x512.Idx → α) (x3 : S512x256.Idx → α)
    (h : Shape.Concatenates (([⟨S512x512, x1⟩, ⟨S512x512, x2⟩, ⟨S512x256, x3⟩] : List ((s : Shape) × (s.Idx → α))).map (·.1)) S512x1280 1)
    (k : Fin 512) (q : Fin 1280) :
    concatenate S512x1280 1 [⟨S512x512, x1⟩, ⟨S512x512, x2⟩, ⟨S512x256, x3⟩] h (ix2 k q)
      = if h1 : q.val < 512 then x1 (ix2 k ⟨q.val, h1⟩)
        else if h2 : q.val < 1024 then x2 (ix2 k ⟨q.val - 512, by omega⟩)
        else x3 (ix2 k ⟨q.val - 1024, by omega⟩) := by
  by_cases h1 : q.val < 512
  · rw [dif_pos h1]
    exact concatenate_apply_piece 1 _ h _ 0 (by simp) S512x512 x1 rfl rfl 0 rfl _
      (fun b hb => by match b with | ⟨0, _⟩ => rfl | ⟨1, _⟩ => exact absurd rfl hb) (by show 0 + q.val = q.val; omega)
  · rw [dif_neg h1]
    by_cases h2 : q.val < 1024
    · rw [dif_pos h2]
      exact concatenate_apply_piece 1 _ h _ 1 (by simp) S512x512 x2 rfl rfl 512 rfl _
        (fun b hb => by match b with | ⟨0, _⟩ => rfl | ⟨1, _⟩ => exact absurd rfl hb) (by show 512 + (q.val - 512) = q.val; omega)
    · rw [dif_neg h2]
      exact concatenate_apply_piece 1 _ h _ 2 (by simp) S512x256 x3 rfl rfl 1024 rfl _
        (fun b hb => by match b with | ⟨0, _⟩ => rfl | ⟨1, _⟩ => exact absurd rfl hb) (by show 1024 + (q.val - 1024) = q.val; omega)

/-- Three vectors of 512, 512 and 256 entries laid end to end, read at a position. -/
theorem cat_vec (x1 : S512.Idx → α) (x2 : S512.Idx → α) (x3 : S256.Idx → α)
    (h : Shape.Concatenates (([⟨S512, x1⟩, ⟨S512, x2⟩, ⟨S256, x3⟩] : List ((s : Shape) × (s.Idx → α))).map (·.1)) S1280 0)
    (q : Fin 1280) :
    concatenate S1280 0 [⟨S512, x1⟩, ⟨S512, x2⟩, ⟨S256, x3⟩] h (ix1 q)
      = if h1 : q.val < 512 then x1 (ix1 ⟨q.val, h1⟩)
        else if h2 : q.val < 1024 then x2 (ix1 ⟨q.val - 512, by omega⟩)
        else x3 (ix1 ⟨q.val - 1024, by omega⟩) := by
  by_cases h1 : q.val < 512
  · rw [dif_pos h1]
    exact concatenate_apply_piece 0 _ h _ 0 (by simp) S512 x1 rfl rfl 0 rfl _
      (fun b hb => by match b with | ⟨0, _⟩ => exact absurd rfl hb) (by show 0 + q.val = q.val; omega)
  · rw [dif_neg h1]
    by_cases h2 : q.val < 1024
    · rw [dif_pos h2]
      exact concatenate_apply_piece 0 _ h _ 1 (by simp) S512 x2 rfl rfl 512 rfl _
        (fun b hb => by match b with | ⟨0, _⟩ => exact absurd rfl hb) (by show 512 + (q.val - 512) = q.val; omega)
    · rw [dif_neg h2]
      exact concatenate_apply_piece 0 _ h _ 2 (by simp) S256 x3 rfl rfl 1024 rfl _
        (fun b hb => by match b with | ⟨0, _⟩ => exact absurd rfl hb) (by show 1024 + (q.val - 1024) = q.val; omega)

/-- A [4, 4096, 512] array laid out as [16384, 512] reads, at row `r`, the batch `r / 4096` at position `r % 4096`. -/
theorem flatten_rows (x : S4x4096x512.Idx → α) (h : S4x4096x512.ShapeCasts S16384x512) (r : Fin 16384) (k : Fin 512) :
    shapeCast S16384x512 x h (ix2 r k)
      = x (ix3 (⟨r.val / 4096, by omega⟩ : Fin 4) (⟨r.val % 4096, by omega⟩ : Fin 4096) k) :=
  shapeCast_apply x h _ _ (by
    rw [Shape.rowMajor_val_three, Shape.rowMajor_val_two]
    show (r.val / 4096 * 4096 + r.val % 4096) * 512 + k.val = r.val * 512 + k.val
    omega)

/-- A [16384, n] array laid out as [4, 4096, n] reads, at (batch, position), row `batch * 4096 + position`. -/
theorem unflatten_rows {n : ℕ} (x : (⟨2, ![16384, n]⟩ : Shape).Idx → α)
    (h : (⟨2, ![16384, n]⟩ : Shape).ShapeCasts ⟨3, ![4, 4096, n]⟩) (b : Fin 4) (s : Fin 4096) (j : Fin n) :
    shapeCast ⟨3, ![4, 4096, n]⟩ x h (ix3 b s j)
      = x (ix2 (⟨b.val * 4096 + s.val, by omega⟩ : Fin 16384) j) :=
  shapeCast_apply x h _ _ (by
    rw [Shape.rowMajor_val_three, Shape.rowMajor_val_two]
    rfl)

end Pieces

/-! ## The arrays the host operations write, as terms of the contents before them -/

section Stretches
variable (W : Valuation τ sig (Elt Ideal))

open Idealize.ShloMosaic.StableHlo in
/-- The stacked weights: the query weights times the constant, the key weights and the value weights side by side
    (the change of float format is the identity on the extended reals). -/
theorem v6_eq :
    (StableHlo.after hostOps0 W main_v6 : S512x1280.Idx → EReal)
      = concatenate S512x1280 1
          [⟨S512x512, mulf (F := Ideal) (W main_arg1) (broadcastInDim S512x512 ![] bcast_S_S512x512 (constant (F := Ideal) S_ .f32 0x3D800000#32))⟩,
           ⟨S512x512, W main_arg3⟩, ⟨S512x256, W main_arg5⟩]
          concatenates_S512x512_S512x512_S512x256_S512x1280_d1 := by
  after_results
  rfl

open Idealize.ShloMosaic.StableHlo in
/-- The stacked biases as one row: the query bias times the constant, the key bias and the value bias end to end. -/
theorem v7_eq :
    (StableHlo.after hostOps0 W main_v7 : S1x1280.Idx → EReal)
      = shapeCast S1x1280 (concatenate S1280 0
          [⟨S512, mulf (F := Ideal) (W main_arg2) (broadcastInDim S512 ![] bcast_S_S512 (constant (F := Ideal) S_ .f32 0x3D800000#32))⟩,
           ⟨S512, W main_arg4⟩, ⟨S256, W main_arg6⟩]
          concatenates_S512_S512_S256_S1280_d0) shapeCasts_S1280_S1x1280 := by
  after_results
  rfl

open Idealize.ShloMosaic.StableHlo in
/-- The input with batch and position merged into one row axis. -/
theorem v8_eq :
    (StableHlo.after hostOps0 W main_v8 : S16384x512.Idx → EReal)
      = shapeCast S16384x512 (W main_arg0) shapeCasts_S4x4096x512_S16384x512 := by
  after_results
  rfl

open Idealize.ShloMosaic.StableHlo in
/-- The first result of the first region, its row axis split into batch and position. -/
theorem v10_eq :
    (StableHlo.after hostOps1 W main_v10 : S4x4096x512.Idx → EReal)
      = shapeCast S4x4096x512 (W main_v9_0) shapeCasts_S16384x512_S4x4096x512 := by
  after_results
  rfl

open Idealize.ShloMosaic.StableHlo in
/-- The second result, likewise. -/
theorem v11_eq :
    (StableHlo.after hostOps1 W main_v11 : S4x4096x512.Idx → EReal)
      = shapeCast S4x4096x512 (W main_v9_1) shapeCasts_S16384x512_S4x4096x512 := by
  after_results
  rfl

open Idealize.ShloMosaic.StableHlo in
/-- The third result, likewise. -/
theorem v12_eq :
    (StableHlo.after hostOps1 W main_v12 : S4x4096x256.Idx → EReal)
      = shapeCast S4x4096x256 (W main_v9_2) shapeCasts_S16384x256_S4x4096x256 := by
  after_results
  rfl

end Stretches

/-! ## The constant -/

/-- The word `0x3D800000` denotes 1/16. -/
theorem sixteenth : Ideal.ofBits .f32 0x3D800000#32 = ((1 / 16 : ℝ) : EReal) := by
  simp [Ideal.ofBits, Ideal.ieee, -EReal.coe_mul]; norm_num

/-! ## What the first stretch leaves alone -/

/-- Every operation of the first stretch writes one of these eleven buffers. -/
theorem hostOps0_writes_sub :
    (hostOps0 : List (HloOp τ sig (Elt Ideal))).Forall fun op => op.writes ⊆
      (([main_cst, main_v0, main_v1, main_cst_0, main_v2, main_v3, main_v4, main_v5, main_v6, main_v7, main_v8] :
        List (Ref sig .tc)).map (Proc.devRef (τ := τ) .tc)).toFinset := by
  simp only [List.Forall]
  refine ⟨?_, ?_, ?_, ?_, ?_, ?_, ?_, ?_, ?_, ?_, ?_⟩ <;>
    (simp only [StableHlo.nullary_writes, StableHlo.unary_writes, StableHlo.binary_writes, StableHlo.reshape_writes,
        StableHlo.nary_writes, Finset.singleton_subset_iff, List.mem_toFinset]
     exact List.mem_map_of_mem (by decide))

section Index
variable (W : Valuation τ sig (Elt Ideal))

/-- A buffer the first stretch does not write keeps its contents. -/
theorem host0_keeps (r : Ref sig .tc)
    (hr : r ∉ ([main_cst, main_v0, main_v1, main_cst_0, main_v2, main_v3, main_v4, main_v5, main_v6, main_v7, main_v8] : List (Ref sig .tc))) :
    StableHlo.after hostOps0 W r = W r :=
  StableHlo.after_of_writes_sub hostOps0 W hostOps0_writes_sub hr

/-! ## The first stretch at an index -/

/-- Row `r` of the flattened input is position `r % 4096` of batch `r / 4096`. -/
theorem host0_v8 (r : Fin 16384) (k : Fin 512) :
    (StableHlo.after hostOps0 W main_v8 : S16384x512.Idx → EReal) (ix2 r k)
      = (W main_arg0 : S4x4096x512.Idx → EReal) (ix3 (⟨r.val / 4096, by omega⟩ : Fin 4) (⟨r.val % 4096, by omega⟩ : Fin 4096) k) := by
  rw [v8_eq W]
  exact flatten_rows _ _ r k

/-- Column `q` of the stacked weights: a query column times the constant below 512, a key column below 1024, a value
    column from there on. -/
theorem host0_v6 (k : Fin 512) (q : Fin 1280) :
    (StableHlo.after hostOps0 W main_v6 : S512x1280.Idx → EReal) (ix2 k q)
      = if h : q.val < 512 then HMul.hMul (α := EReal) (β := EReal) (γ := EReal) ((W main_arg1 : S512x512.Idx → EReal) (ix2 k ⟨q.val, h⟩)) (Ideal.ofBits .f32 0x3D800000#32)
        else if h2 : q.val < 1024 then (W main_arg3 : S512x512.Idx → EReal) (ix2 k ⟨q.val - 512, by omega⟩)
        else (W main_arg5 : S512x256.Idx → EReal) (ix2 k ⟨q.val - 1024, by omega⟩) := by
  rw [v6_eq W]
  exact cat_cols _ _ _ _ k q

/-- Entry `q` of the stacked bias row, likewise. -/
theorem host0_v7 (q : Fin 1280) :
    (StableHlo.after hostOps0 W main_v7 : S1x1280.Idx → EReal) (ix2 (0 : Fin 1) q)
      = if h : q.val < 512 then HMul.hMul (α := EReal) (β := EReal) (γ := EReal) ((W main_arg2 : S512.Idx → EReal) (ix1 ⟨q.val, h⟩)) (Ideal.ofBits .f32 0x3D800000#32)
        else if h2 : q.val < 1024 then (W main_arg4 : S512.Idx → EReal) (ix1 ⟨q.val - 512, by omega⟩)
        else (W main_arg6 : S256.Idx → EReal) (ix1 ⟨q.val - 1024, by omega⟩) := by
  rw [v7_eq W]
  exact (shapeCast_a_1a_apply _ _ (0 : Fin 1) q).trans (cat_vec _ _ _ _ q)

/-! ## The second stretch at an index -/

/-- The first result of the first region, its rows split back into batch and position. -/
theorem host1_v10 (b : Fin 4) (s : Fin 4096) (j : Fin 512) :
    (StableHlo.after hostOps1 W main_v10 : S4x4096x512.Idx → EReal) (ix3 b s j)
      = (W main_v9_0 : S16384x512.Idx → EReal) (ix2 (⟨b.val * 4096 + s.val, by omega⟩ : Fin 16384) j) := by
  rw [v10_eq W]
  exact unflatten_rows _ _ b s j

/-- The second result, likewise. -/
theorem host1_v11 (b : Fin 4) (s : Fin 4096) (j : Fin 512) :
    (StableHlo.after hostOps1 W main_v11 : S4x4096x512.Idx → EReal) (ix3 b s j)
      = (W main_v9_1 : S16384x512.Idx → EReal) (ix2 (⟨b.val * 4096 + s.val, by omega⟩ : Fin 16384) j) := by
  rw [v11_eq W]
  exact unflatten_rows _ _ b s j

/-- The third result, 256 features wide, likewise. -/
theorem host1_v12 (b : Fin 4) (s : Fin 4096) (j : Fin 256) :
    (StableHlo.after hostOps1 W main_v12 : S4x4096x256.Idx → EReal) (ix3 b s j)
      = (W main_v9_2 : S16384x256.Idx → EReal) (ix2 (⟨b.val * 4096 + s.val, by omega⟩ : Fin 16384) j) := by
  rw [v12_eq W]
  exact unflatten_rows _ _ b s j

end Index

end Cert.KernelIdeal.Hand

end
-- ==== Proof.KI.Entry1.lean ====
/-
  What the second region finds in its three input arrays: the query, key and value projections of the launch memory.

  The first stretch of host operations scales the query weights and bias by the constant, stacks the three layers'
  weights side by side and their biases end to end, and merges batch and position into one row axis; the first region
  leaves, in its three result arrays, the three column ranges of rows · stacked weights + stacked bias; the second
  stretch splits the row axis back into batch and position. Read at (batch, position, feature) and followed back
  through these steps, each of the three arrays is a dense layer of the launched input: the query layer with its
  weights and bias times the constant, the key layer and the value layer as launched.
-/
import proofs.«137375_j22127671509167_2_alg».proof.Proof.KI.Frame
import proofs.«137375_j22127671509167_2_alg».proof.Proof.KI.Region0Value
import proofs.«137375_j22127671509167_2_alg».proof.Proof.KI.HostValues
import proofs.«137375_j22127671509167_2_alg».proof.Proof.AttnSpec

noncomputable section

namespace Cert.KernelIdeal.Hand

open Cert.KernelIdeal Cert.KernelIdeal.Gen Idealize.ShloMosaic Idealize.ShloMosaic.TcCoe Idealize.ShloMosaic.ValueIdx Cert.Attn

variable (m : (ℓ : Loc nD τ sig) → Buf (Elt Ideal) ℓ)

/-! ## The launched arrays as plain functions -/

/-- The input at (batch, position, feature). -/
def xA (c : Dev nD) : Fin 4 → Fin 4096 → Fin 512 → EReal :=
  fun b s k => (m ((c : Thread nD τ).loc main_arg0) : S4x4096x512.Idx → EReal) (ix3 b s k)
/-- The query weights. -/
def wqA (c : Dev nD) : Fin 512 → Fin 512 → EReal :=
  fun i j => (m ((c : Thread nD τ).loc main_arg1) : S512x512.Idx → EReal) (ix2 i j)
/-- The query bias. -/
def bqA (c : Dev nD) : Fin 512 → EReal :=
  fun j => (m ((c : Thread nD τ).loc main_arg2) : S512.Idx → EReal) (ix1 j)
/-- The key weights. -/
def wkA (c : Dev nD) : Fin 512 → Fin 512 → EReal :=
  fun i j => (m ((c : Thread nD τ).loc main_arg3) : S512x512.Idx → EReal) (ix2 i j)
/-- The key bias. -/
def bkA (c : Dev nD) : Fin 512 → EReal :=
  fun j => (m ((c : Thread nD τ).loc main_arg4) : S512.Idx → EReal) (ix1 j)
/-- The value weights. -/
def wvA (c : Dev nD) : Fin 512 → Fin 256 → EReal :=
  fun i j => (m ((c : Thread nD τ).loc main_arg5) : S512x256.Idx → EReal) (ix2 i j)
/-- The value bias. -/
def bvA (c : Dev nD) : Fin 256 → EReal :=
  fun j => (m ((c : Thread nD τ).loc main_arg6) : S256.Idx → EReal) (ix1 j)
/-- The constant the query layer is scaled by. -/
abbrev cst : EReal := Ideal.ofBits .f32 0x3D800000#32

/-! ## The first stretch's arrays at the rows and columns the first region reads -/

/-- Row `batch * 4096 + position` of the flattened input is the launched input at (batch, position). -/
theorem row_input (c : Dev nD) (b : Fin 4) (q : Fin 4096) (k : Fin 512) (hr : b.val * 4096 + q.val < 16384) :
    (V1 m c main_v8 : S16384x512.Idx → EReal) (ix2 (⟨b.val * 4096 + q.val, hr⟩ : Fin 16384) k) = xA m c b q k := by
  have e1 : (⟨(b.val * 4096 + q.val) / 4096, by omega⟩ : Fin 4) = b :=
    Fin.ext (by show (b.val * 4096 + q.val) / 4096 = b.val; omega)
  have e2 : (⟨(b.val * 4096 + q.val) % 4096, by omega⟩ : Fin 4096) = q :=
    Fin.ext (by show (b.val * 4096 + q.val) % 4096 = q.val; omega)
  refine (host0_v8 (W0 m c) (⟨b.val * 4096 + q.val, hr⟩ : Fin 16384) k).trans ?_
  show (W0 m c main_arg0 : S4x4096x512.Idx → EReal)
      (ix3 (⟨(b.val * 4096 + q.val) / 4096, _⟩ : Fin 4) (⟨(b.val * 4096 + q.val) % 4096, _⟩ : Fin 4096) k) = xA m c b q k
  rw [e1, e2]
  rfl

/-- Columns [0, 512) of the stacked weights are the query weights times the constant. -/
theorem col_query (c : Dev nD) (k j : Fin 512) (hj : j.val < 1280) :
    (V1 m c main_v6 : S512x1280.Idx → EReal) (ix2 k (⟨j.val, hj⟩ : Fin 1280)) = wqA m c k j * cst := by
  refine (host0_v6 (W0 m c) k (⟨j.val, hj⟩ : Fin 1280)).trans ?_
  rw [dif_pos (show (⟨j.val, hj⟩ : Fin 1280).val < 512 from j.isLt)]
  rfl

/-- Columns [512, 1024) of the stacked weights are the key weights. -/
theorem col_key (c : Dev nD) (k j : Fin 512) (hj : j.val + 512 < 1280) :
    (V1 m c main_v6 : S512x1280.Idx → EReal) (ix2 k (⟨j.val + 512, hj⟩ : Fin 1280)) = wkA m c k j := by
  have e : (⟨j.val + 512 - 512, by omega⟩ : Fin 512) = j := Fin.ext (by show j.val + 512 - 512 = j.val; omega)
  refine (host0_v6 (W0 m c) k (⟨j.val + 512, hj⟩ : Fin 1280)).trans ?_
  rw [dif_neg (show ¬ (⟨j.val + 512, hj⟩ : Fin 1280).val < 512 from by show ¬ j.val + 512 < 512; omega),
    dif_pos (show (⟨j.val + 512, hj⟩ : Fin 1280).val < 1024 from by show j.val + 512 < 1024; omega)]
  show (W0 m c main_arg3 : S512x512.Idx → EReal) (ix2 k (⟨j.val + 512 - 512, _⟩ : Fin 512)) = wkA m c k j
  rw [e]
  rfl

/-- Columns [1024, 1280) of the stacked weights are the value weights. -/
theorem col_value (c : Dev nD) (k : Fin 512) (d : Fin 256) (hd : d.val + 1024 < 1280) :
    (V1 m c main_v6 : S512x1280.Idx → EReal) (ix2 k (⟨d.val + 1024, hd⟩ : Fin 1280)) = wvA m c k d := by
  have e : (⟨d.val + 1024 - 1024, by omega⟩ : Fin 256) = d := Fin.ext (by show d.val + 1024 - 1024 = d.val; omega)
  refine (host0_v6 (W0 m c) k (⟨d.val + 1024, hd⟩ : Fin 1280)).trans ?_
  rw [dif_neg (show ¬ (⟨d.val + 1024, hd⟩ : Fin 1280).val < 512 from by show ¬ d.val + 1024 < 512; omega),
    dif_neg (show ¬ (⟨d.val + 1024, hd⟩ : Fin 1280).val < 1024 from by show ¬ d.val + 1024 < 1024; omega)]
  show (W0 m c main_arg5 : S512x256.Idx → EReal) (ix2 k (⟨d.val + 1024 - 1024, _⟩ : Fin 256)) = wvA m c k d
  rw [e]
  rfl

/-- Entries [0, 512) of the stacked bias row are the query bias times the constant. -/
theorem bias_query (c : Dev nD) (j : Fin 512) (hj : j.val < 1280) :
    (V1 m c main_v7 : S1x1280.Idx → EReal) (ix2 (0 : Fin 1) (⟨j.val, hj⟩ : Fin 1280)) = bqA m c j * cst := by
  refine (host0_v7 (W0 m c) (⟨j.val, hj⟩ : Fin 1280)).trans ?_
  rw [dif_pos (show (⟨j.val, hj⟩ : Fin 1280).val < 512 from j.isLt)]
  rfl

/-- Entries [512, 1024) of the stacked bias row are the key bias. -/
theorem bias_key (c : Dev nD) (j : Fin 512) (hj : j.val + 512 < 1280) :
    (V1 m c main_v7 : S1x1280.Idx → EReal) (ix2 (0 : Fin 1) (⟨j.val + 512, hj⟩ : Fin 1280)) = bkA m c j := by
  have e : (⟨j.val + 512 - 512, by omega⟩ : Fin 512) = j := Fin.ext (by show j.val + 512 - 512 = j.val; omega)
  refine (host0_v7 (W0 m c) (⟨j.val + 512, hj⟩ : Fin 1280)).trans ?_
  rw [dif_neg (show ¬ (⟨j.val + 512, hj⟩ : Fin 1280).val < 512 from by show ¬ j.val + 512 < 512; omega),
    dif_pos (show (⟨j.val + 512, hj⟩ : Fin 1280).val < 1024 from by show j.val + 512 < 1024; omega)]
  show (W0 m c main_arg4 : S512.Idx → EReal) (ix1 (⟨j.val + 512 - 512, _⟩ : Fin 512)) = bkA m c j
  rw [e]
  rfl

/-- Entries [1024, 1280) of the stacked bias row are the value bias. -/
theorem bias_value (c : Dev nD) (d : Fin 256) (hd : d.val + 1024 < 1280) :
    (V1 m c main_v7 : S1x1280.Idx → EReal) (ix2 (0 : Fin 1) (⟨d.val + 1024, hd⟩ : Fin 1280)) = bvA m c d := by
  have e : (⟨d.val + 1024 - 1024, by omega⟩ : Fin 256) = d := Fin.ext (by show d.val + 1024 - 1024 = d.val; omega)
  refine (host0_v7 (W0 m c) (⟨d.val + 1024, hd⟩ : Fin 1280)).trans ?_
  rw [dif_neg (show ¬ (⟨d.val + 1024, hd⟩ : Fin 1280).val < 512 from by show ¬ d.val + 1024 < 512; omega),
    dif_neg (show ¬ (⟨d.val + 1024, hd⟩ : Fin 1280).val < 1024 from by show ¬ d.val + 1024 < 1024; omega)]
  show (W0 m c main_arg6 : S256.Idx → EReal) (ix1 (⟨d.val + 1024 - 1024, _⟩ : Fin 256)) = bvA m c d
  rw [e]
  rfl

/-! ## The second region's inputs -/

/-- The query rows the second region reads: the query layer of the launched input, its weights and bias times the
    constant. -/
theorem entry_q (c : Dev nD) (b : Fin 4) (q : Fin 4096) (j : Fin 512) :
    (V3 m c main_v10 : S4x4096x512.Idx → EReal) (ix3 b q j)
      = proj (xA m c) (fun i j => wqA m c i j * cst) (fun j => bqA m c j * cst) b q j := by
  have hr : b.val * 4096 + q.val < 16384 := by omega
  have hj : j.val < 1280 := by omega
  refine (host1_v10 (W2 m c) b q j).trans ?_
  refine (congrFun (W2_arr m c 3) (ix2 (⟨b.val * 4096 + q.val, hr⟩ : Fin 16384) j)).trans ?_
  refine (congrFun (final0_3 (V1 m) c) (ix2 (⟨b.val * 4096 + q.val, hr⟩ : Fin 16384) j)).trans ?_
  show proj0 (V1 m c main_v8) (V1 m c main_v6) (V1 m c main_v7) (⟨b.val * 4096 + q.val, hr⟩ : Fin 16384) (⟨j.val, hj⟩ : Fin 1280) = _
  unfold proj0 proj
  rw [bias_query m c j hj]
  exact congrArg (· + bqA m c j * cst) (Finset.sum_congr rfl fun k _ => by rw [row_input m c b q k hr, col_query m c k j hj])

/-- The key rows the second region reads: the key layer of the launched input. -/
theorem entry_k (c : Dev nD) (b : Fin 4) (q : Fin 4096) (j : Fin 512) :
    (V3 m c main_v11 : S4x4096x512.Idx → EReal) (ix3 b q j) = proj (xA m c) (wkA m c) (bkA m c) b q j := by
  have hr : b.val * 4096 + q.val < 16384 := by omega
  have hj : j.val + 512 < 1280 := by omega
  refine (host1_v11 (W2 m c) b q j).trans ?_
  refine (congrFun (W2_arr m c 4) (ix2 (⟨b.val * 4096 + q.val, hr⟩ : Fin 16384) j)).trans ?_
  refine (congrFun (final0_4 (V1 m) c) (ix2 (⟨b.val * 4096 + q.val, hr⟩ : Fin 16384) j)).trans ?_
  show proj0 (V1 m c main_v8) (V1 m c main_v6) (V1 m c main_v7) (⟨b.val * 4096 + q.val, hr⟩ : Fin 16384) (⟨j.val + 512, hj⟩ : Fin 1280) = _
  unfold proj0 proj
  rw [bias_key m c j hj]
  exact congrArg (· + bkA m c j) (Finset.sum_congr rfl fun k _ => by rw [row_input m c b q k hr, col_key m c k j hj])

/-- The value rows the second region reads: the value layer of the launched input. -/
theorem entry_v (c : Dev nD) (b : Fin 4) (q : Fin 4096) (d : Fin 256) :
    (V3 m c main_v12 : S4x4096x256.Idx → EReal) (ix3 b q d) = proj (xA m c) (wvA m c) (bvA m c) b q d := by
  have hr : b.val * 4096 + q.val < 16384 := by omega
  have hd : d.val + 1024 < 1280 := by omega
  refine (host1_v12 (W2 m c) b q d).trans ?_
  refine (congrFun (W2_arr m c 5) (ix2 (⟨b.val * 4096 + q.val, hr⟩ : Fin 16384) d)).trans ?_
  refine (congrFun (final0_5 (V1 m) c) (ix2 (⟨b.val * 4096 + q.val, hr⟩ : Fin 16384) d)).trans ?_
  show proj0 (V1 m c main_v8) (V1 m c main_v6) (V1 m c main_v7) (⟨b.val * 4096 + q.val, hr⟩ : Fin 16384) (⟨d.val + 1024, hd⟩ : Fin 1280) = _
  unfold proj0 proj
  rw [bias_value m c d hd]
  exact congrArg (· + bvA m c d) (Finset.sum_congr rfl fun k _ => by rw [row_input m c b q k hr, col_value m c k d hd])

end Cert.KernelIdeal.Hand

end
-- ==== Proof.KI.KernelValue.lean ====
/-
  The kernel program's result, entry by entry. After the second region the result array holds, at (b, q, d), the
  streamed softmax of row q's scores applied to column d of the values; the three arrays that region reads are the
  first region's projections of the launch memory, the query projection carrying the factor 1/16 in its weights and
  bias. So the entry is the kernel's specification, and for real inputs the specification is the reference's:
  dividing the scores by 16 instead, normalising before the weighted sum instead of after.
-/
import proofs.«137375_j22127671509167_2_alg».proof.Proof.KI.Region1Online
import proofs.«137375_j22127671509167_2_alg».proof.Proof.KI.Entry1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Attn

variable (m : (ℓ : Loc nD τ sig) → Buf (Elt Ideal) ℓ)

/-- Row q's score against key k is the inner product of the two projected rows. -/
theorem sRow_entry (c : Dev nD) (b : Fin 4) (q k : Fin 4096) :
    sRow (V3 m) c b q k
      = dot512 (proj (xA m c) (fun i j => wqA m c i j * cst) (fun j => bqA m c j * cst) b q) (proj (xA m c) (wkA m c) (bkA m c) b k) := by
  unfold sRow dot512
  dsimp only [Qa, Ka]
  exact Finset.sum_congr rfl fun j _ => by rw [entry_q m c b q j, entry_k m c b k j]

/-- Column d of the values is the value projection. -/
theorem vCol_entry (c : Dev nD) (b : Fin 4) (d : Fin 256) (k : Fin 4096) :
    vCol (V3 m) c b d k = proj (xA m c) (wvA m c) (bvA m c) b k d := entry_v m c b k d

/-- The result array at an entry is the kernel's specification of the launch memory. -/
theorem out_kerSpec (c : Dev nD) (b : Fin 4) (q : Fin 4096) (d : Fin 256) :
    (W4 m c main_v13 : S4x4096x256.Idx → EReal) (ix3 b q d)
      = kerSpec cst (xA m c) (wqA m c) (bqA m c) (wkA m c) (bkA m c) (wvA m c) (bvA m c) b q d := by
  have e : (W4 m c main_v13 : S4x4096x256.Idx → EReal) = (dat1 (V3 m) c).arrAt 3 cfg1.N := W4_arr m c 3
  rw [e, out_online (V3 m) c b q d]
  unfold kerSpec
  have e1 : sRow (V3 m) c b q = fun k => dot512 (proj (xA m c) (fun i j => wqA m c i j * cst) (fun j => bqA m c j * cst) b q) (proj (xA m c) (wkA m c) (bkA m c) b k) :=
    funext fun k => sRow_entry m c b q k
  have e2 : vCol (V3 m) c b d = fun k => proj (xA m c) (wvA m c) (bvA m c) b k d := funext fun k => vCol_entry m c b d k
  rw [e1, e2]

/-- THE KERNEL PROGRAM'S RUN at the exact reals, from a memory of real inputs: it terminates, nothing faulting, with the
    result array at the reference's softmax attention of the argument arrays, the arguments unchanged. -/
theorem kernel_run (ρ : Dev nD → PrngReg)
    (hreal : ∀ c : Dev nD,
      (∀ i, ∃ r : ℝ, (m ((c.tc : Thread nD τ).loc main_arg0) : S4x4096x512.Idx → EReal) i = (r : EReal))
      ∧ (∀ i, ∃ r : ℝ, (m ((c.tc : Thread nD τ).loc main_arg1) : S512x512.Idx → EReal) i = (r : EReal))
      ∧ (∀ i, ∃ r : ℝ, (m ((c.tc : Thread nD τ).loc main_arg2) : S512.Idx → EReal) i = (r : EReal))
      ∧ (∀ i, ∃ r : ℝ, (m ((c.tc : Thread nD τ).loc main_arg3) : S512x512.Idx → EReal) i = (r : EReal))
      ∧ (∀ i, ∃ r : ℝ, (m ((c.tc : Thread nD τ).loc main_arg4) : S512.Idx → EReal) i = (r : EReal))
      ∧ (∀ i, ∃ r : ℝ, (m ((c.tc : Thread nD τ).loc main_arg5) : S512x256.Idx → EReal) i = (r : EReal))
      ∧ (∀ i, ∃ r : ℝ, (m ((c.tc : Thread nD τ).loc main_arg6) : S256.Idx → EReal) i = (r : EReal))) :
    θ_run (defs (F := Ideal)) (onTc (τ := τ) (main (F := Ideal))) ⟨m, fun _ => 0, ρ⟩ (fun r => ∀ c : Dev nD,
      r.2.mem ((c.tc : Thread nD τ).loc main_v13)
          = (fun i : S4x4096x256.Idx => refSpec (xA m c) (wqA m c) (bqA m c) (wkA m c) (bkA m c) (wvA m c) (bvA m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_, (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)
  refine (h c _ (mem_uc main_v13 (by decide))).trans (funext fun i => ?_)
  obtain ⟨b, q, d, rfl⟩ : ∃ (b : Fin 4) (q : Fin 4096) (d : Fin 256), i = ix3 b q d := ⟨i 0, i 1, i 2, eq_ix3 i⟩
  obtain ⟨h0, h1, h2, h3, h4, h5, h6⟩ := hreal c
  refine (out_kerSpec m c b q d).trans ?_
  exact kerSpec_eq_refSpec cst sixteenth (xA m c) (wqA m c) (bqA m c) (wkA m c) (bkA m c) (wvA m c) (bvA m c)
    (fun b s i => h0 (ix3 b s i)) (fun i j => h1 (ix2 i j)) (fun j => h2 (ix1 j)) (fun i j => h3 (ix2 i j)) (fun j => h4 (ix1 j))
    (fun i j => h5 (ix2 i j)) (fun j => h6 (ix1 j)) b q d

end Cert.KernelIdeal.Hand

end
-- ==== Proof.RefRead.lean ====
/-
  The reference's result array, read at an index, is the softmax attention `Cert.Attn.refSpec` of the argument arrays.

  The reference computes three dense layers (queries, keys, values), divides the inner products of query and key rows
  by 256^(1/2) = 16, and writes the softmax out: the row maximum (a fold of `max` from −∞), the exponentials of the
  differences, their sum from 0, the quotients, and last the weighted sum of the value rows. Each stage is read here
  at an index with literal coordinates (batch, position, feature), from the inside out.
-/
import proofs.«137375_j22127671509167_2_alg».proof.Proof.Gen.ReferenceIdeal.Read
import proofs.«137375_j22127671509167_2_alg».proof.Proof.AttnSpec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Attn

/-! ## The literals -/

/-- The word `0x43800000` denotes 256. -/
theorem ofBits_256 : Ideal.ofBits .f32 0x43800000#32 = ((256 : ℝ) : EReal) := by
  simp [Ideal.ofBits, Ideal.ieee, -EReal.coe_mul]; norm_num

/-- The word `0x3F000000` denotes 1/2. -/
theorem ofBits_half : Ideal.ofBits .f32 0x3F000000#32 = ((1 / 2 : ℝ) : EReal) := by
  simp [Ideal.ofBits, Ideal.ieee, -EReal.coe_mul]; norm_num

/-- The word `0xFF800000` denotes −∞. -/
theorem ofBits_negInf : Ideal.ofBits .f32 0xFF800000#32 = (⊥ : EReal) := by
  simp [Ideal.ofBits, Ideal.ieee]

/-- The square root of 256 is 16. -/
theorem rpow_256_half : Real.rpow 256 (1 / 2) = 16 := by
  rw [show (256 : ℝ) = 16 ^ (2 : ℝ) by norm_num, Real.rpow_eq_pow, ← Real.rpow_mul (by norm_num)]; norm_num

/-- The scale the scores are divided by, 256 to the power 1/2, is 16. -/
theorem scale_eq (i : S_.Idx) : val_main_v12 (F := Ideal) i = ((16 : ℝ) : EReal) := by
  rw [val_main_v12_apply, val_main_cst_apply, val_main_cst_0_apply, Ideal.hostPowf_def, Ideal.ofBits_def, Ideal.ofBits_def,
    ofBits_256, ofBits_half, Ideal.pow_coe_coe, rpow_256_half]

/-! ## The three dense layers -/

/-- A dense layer of the reference, `x·W + b` with the bias broadcast along batch and position, read at
    (batch, position, feature) is `proj`. The query layer: -/
theorem query_ix (x0 : (⟨S4x4096x512, .f32⟩ : BufTy).Contents (Elt Ideal)) (x1 : (⟨S512x512, .f32⟩ : BufTy).Contents (Elt Ideal))
    (x2 : (⟨S512, .f32⟩ : BufTy).Contents (Elt Ideal)) (b : Fin 4) (s : Fin 4096) (j : Fin 512) :
    val_main_v3 (F := Ideal) x0 x1 x2 (ix3 b s j)
      = proj (fun b s k => x0 (ix3 b s k)) (fun a j => x1 (ix2 a j)) (fun j => x2 (ix1 j)) b s j := by
  rw [val_main_v3_apply, val_main_v0_apply, val_main_v2_apply, val_main_v1_apply, Ideal.addf_def]
  have el : ∀ k : Fin 512, lidx_main_v0 (ix3 b s j) k = ix3 b s k := fun k =>
    funext fun a => by match a with | ⟨0, _⟩ => rfl | ⟨1, _⟩ => rfl | ⟨2, _⟩ => rfl
  have er : ∀ k : Fin 512, ridx_main_v0 (ix3 b s j) k = ix2 k j := fun k =>
    funext fun a => by match a with | ⟨0, _⟩ => rfl | ⟨1, _⟩ => rfl
  have eb : idx_main_v1 (idx_main_v2 (ix3 b s j)) = ix1 j :=
    funext fun a => by match a with | ⟨0, _⟩ => rfl
  simp only [el, er, eb]
  rfl

/-- The key layer. -/
theorem key_ix (x0 : (⟨S4x4096x512, .f32⟩ : BufTy).Contents (Elt Ideal)) (x3 : (⟨S512x512, .f32⟩ : BufTy).Contents (Elt Ideal))
    (x4 : (⟨S512, .f32⟩ : BufTy).Contents (Elt Ideal)) (b : Fin 4) (s : Fin 4096) (j : Fin 512) :
    val_main_v7 (F := Ideal) x0 x3 x4 (ix3 b s j)
      = proj (fun b s k => x0 (ix3 b s k)) (fun a j => x3 (ix2 a j)) (fun j => x4 (ix1 j)) b s j := by
  rw [val_main_v7_apply, val_main_v4_apply, val_main_v6_apply, val_main_v5_apply, Ideal.addf_def]
  have el : ∀ k : Fin 512, lidx_main_v4 (ix3 b s j) k = ix3 b s k := fun k =>
    funext fun a => by match a with | ⟨0, _⟩ => rfl | ⟨1, _⟩ => rfl | ⟨2, _⟩ => rfl
  have er : ∀ k : Fin 512, ridx_main_v4 (ix3 b s j) k = ix2 k j := fun k =>
    funext fun a => by match a with | ⟨0, _⟩ => rfl | ⟨1, _⟩ => rfl
  have eb : idx_main_v5 (idx_main_v6 (ix3 b s j)) = ix1 j :=
    funext fun a => by match a with | ⟨0, _⟩ => rfl
  simp only [el, er, eb]
  rfl

/-- The value layer, 256 features wide. -/
theorem value_ix (x0 : (⟨S4x4096x512, .f32⟩ : BufTy).Contents (Elt Ideal)) (x5 : (⟨S512x256, .f32⟩ : BufTy).Contents (Elt Ideal))
    (x6 : (⟨S256, .f32⟩ : BufTy).Contents (Elt Ideal)) (b : Fin 4) (s : Fin 4096) (j : Fin 256) :
    val_main_v11 (F := Ideal) x0 x5 x6 (ix3 b s j)
      = proj (fun b s k => x0 (ix3 b s k)) (fun a j => x5 (ix2 a j)) (fun j => x6 (ix1 j)) b s j := by
  rw [val_main_v11_apply, val_main_v8_apply, val_main_v10_apply, val_main_v9_apply, Ideal.addf_def]
  have el : ∀ k : Fin 512, lidx_main_v8 (ix3 b s j) k = ix3 b s k := fun k =>
    funext fun a => by match a with | ⟨0, _⟩ => rfl | ⟨1, _⟩ => rfl | ⟨2, _⟩ => rfl
  have er : ∀ k : Fin 512, ridx_main_v8 (ix3 b s j) k = ix2 k j := fun k =>
    funext fun a => by match a with | ⟨0, _⟩ => rfl | ⟨1, _⟩ => rfl
  have eb : idx_main_v9 (idx_main_v10 (ix3 b s j)) = ix1 j :=
    funext fun a => by match a with | ⟨0, _⟩ => rfl
  simp only [el, er, eb]
  rfl

/-! ## The scores and the softmax -/

/-- The score of query row `q` against key row `k` in batch `b`: the inner product of the two projected rows, over 16. -/
def score (x0 : (⟨S4x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (b : Fin 4) (q k : Fin 4096) : EReal :=
  Ideal.div
    (dot512 (proj (fun b s k => x0 (ix3 b s k)) (fun a j => x1 (ix2 a j)) (fun j => x2 (ix1 j)) b q)
      (proj (fun b s k => x0 (ix3 b s k)) (fun a j => x3 (ix2 a j)) (fun j => x4 (ix1 j)) b k))
    ((16 : ℝ) : EReal)

/-- The reference's scaled scores, read at (batch, query, key). -/
theorem score_ix (x0 : (⟨S4x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (b : Fin 4) (q k : Fin 4096) :
    val_main_v15 (F := Ideal) x0 x1 x2 x3 x4 (ix3 b q k) = score x0 x1 x2 x3 x4 b q k := by
  rw [val_main_v15_apply, val_main_v13_apply, val_main_v14_apply, scale_eq, Ideal.hostDivf_def]
  have el : ∀ j : Fin 512, lidx_main_v13 (ix3 b q k) j = ix3 b q j := fun j =>
    funext fun a => by match a with | ⟨0, _⟩ => rfl | ⟨1, _⟩ => rfl | ⟨2, _⟩ => rfl
  have er : ∀ j : Fin 512, ridx_main_v13 (ix3 b q k) j = ix3 b k j := fun j =>
    funext fun a => by match a with | ⟨0, _⟩ => rfl | ⟨1, _⟩ => rfl | ⟨2, _⟩ => rfl
  simp only [el, er, query_ix, key_ix]
  rfl

/-- The index (batch, query) with key `k` put back on the reduced axis is (batch, query, k). -/
theorem lift_ix (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  match c with | ⟨0, _⟩ => rfl | ⟨1, _⟩ => rfl | ⟨2, _⟩ => rfl

/-- The largest score of a query row: the reference folds `max` from −∞ over the keys, and then takes the maximum with −∞
    once more, which changes nothing. -/
theorem rowMax_ix (x0 : (⟨S4x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (b : Fin 4) (q : Fin 4096) :
    val_main_v18 (F := Ideal) x0 x1 x2 x3 x4 (ix2 b q)
      = Finset.univ.fold max (⊥ : EReal) (fun k : Fin 4096 => score x0 x1 x2 x3 x4 b q k) := by
  rw [val_main_v18_apply, val_main_v17_apply, val_main_cst_2_apply, Ideal.maximumf_def, Ideal.ofBits_def, ofBits_negInf,
    max_eq_right bot_le]
  unfold val_main_v16
  have h : S4x4096x4096.Reduces [2] S4x4096 := by decide
  rw [Host.reduce_eq_fold_single FloatOps.maximumf _ _ reducesTo_S4x4096x4096_S4x4096_d2 h h_S_]
  rw [val_main_cst_1_apply, Ideal.ofBits_def, ofBits_negInf]
  have hf : (val_main_v15 (F := Ideal) x0 x1 x2 x3 x4 ∘ h.lift (ix2 b q)) = fun k : Fin 4096 => score x0 x1 x2 x3 x4 b q k :=
    funext fun k => (congrArg (val_main_v15 (F := Ideal) x0 x1 x2 x3 x4) (lift_ix h b q k)).trans (score_ix x0 x1 x2 x3 x4 b q _)
  exact congrArg (fun f => Finset.fold max (⊥ : EReal) f (Finset.univ : Finset (Fin 4096))) hf

/-- The exponential of a score less its row's maximum. -/
theorem expo_ix (x0 : (⟨S4x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (b : Fin 4) (q k : Fin 4096) :
    val_main_v22 (F := Ideal) x0 x1 x2 x3 x4 (ix3 b q k)
      = Ideal.exp (score x0 x1 x2 x3 x4 b q k - Finset.univ.fold max (⊥ : EReal) (fun k' : Fin 4096 => score x0 x1 x2 x3 x4 b q k')) := by
  rw [val_main_v22_apply, val_main_v21_apply, val_main_v20_apply, val_main_v19_apply, Ideal.hostUnary_exp_def, Ideal.subf_def,
    score_ix]
  have e : idx_main_v19 (idx_main_v20 (ix3 b q k)) = ix2 b q :=
    funext fun a => by match a with | ⟨0, _⟩ => rfl | ⟨1, _⟩ => rfl
  rw [e, rowMax_ix]

/-- The softmax denominator of a query row: the sum of those exponentials over the keys (the sum starts from 0). -/
theorem denom_ix (x0 : (⟨S4x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (b : Fin 4) (q : Fin 4096) :
    val_main_v23 (F := Ideal) x0 x1 x2 x3 x4 (ix2 b q)
      = ∑ k : Fin 4096, Ideal.exp (score x0 x1 x2 x3 x4 b q k - Finset.univ.fold max (⊥ : EReal) (fun k' : Fin 4096 => score x0 x1 x2 x3 x4 b q k')) := by
  rw [val_main_v23_apply, val_main_cst_3_apply, Ideal.ofBits_def, Ideal.ofBits_zero_f32, zero_add]
  have e : ∀ k : Fin 4096, idx_main_v23 (ix2 b q) k = ix3 b q k := fun k =>
    funext fun a => by match a with | ⟨0, _⟩ => rfl | ⟨1, _⟩ => rfl | ⟨2, _⟩ => rfl
  simp only [e, expo_ix]

/-- The softmax weight of key `k` for query row `q`. -/
theorem weight_ix (x0 : (⟨S4x4096x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (b : Fin 4) (q k : Fin 4096) :
    val_main_v26 (F := Ideal) x0 x1 x2 x3 x4 (ix3 b q k)
      = Ideal.div (Ideal.exp (score x0 x1 x2 x3 x4 b q k - Finset.univ.fold max (⊥ : EReal) (fun k' : Fin 4096 => score x0 x1 x2 x3 x4 b q k')))
          (∑ k₁ : Fin 4096, Ideal.exp (score x0 x1 x2 x3 x4 b q k₁ - Finset.univ.fold max (⊥ : EReal) (fun k' : Fin 4096 => score x0 x1 x2 x3 x4 b q k'))) := by
  rw [val_main_v26_apply, val_main_v25_apply, val_main_v24_apply, Ideal.hostDivf_def, expo_ix]
  have e : idx_main_v24 (idx_main_v25 (ix3 b q k)) = ix2 b q :=
    funext fun a => by match a with | ⟨0, _⟩ => rfl | ⟨1, _⟩ => rfl
  rw [e, denom_ix]

/-! ## The result -/

/-- The reference's result at (batch, query, feature) is the softmax attention of the argument arrays: the weights of the
    query row applied to the projected value rows. -/
theorem result_eq (x0 : (⟨Cert.ReferenceIdeal.S4x4096x512, .f32⟩ : BufTy).Contents (Elt Ideal)) (x1 : (⟨Cert.ReferenceIdeal.S512x512, .f32⟩ : BufTy).Contents (Elt Ideal))
    (x2 : (⟨Cert.ReferenceIdeal.S512, .f32⟩ : BufTy).Contents (Elt Ideal)) (x3 : (⟨Cert.ReferenceIdeal.S512x512, .f32⟩ : BufTy).Contents (Elt Ideal))
    (x4 : (⟨Cert.ReferenceIdeal.S512, .f32⟩ : BufTy).Contents (Elt Ideal)) (x5 : (⟨Cert.ReferenceIdeal.S512x256, .f32⟩ : BufTy).Contents (Elt Ideal))
    (x6 : (⟨Cert.ReferenceIdeal.S256, .f32⟩ : BufTy).Contents (Elt Ideal)) :
    Cert.ReferenceIdeal.Read.val_main_v27 (F := Ideal) x0 x1 x2 x3 x4 x5 x6
      = fun i => Cert.Attn.refSpec (fun b s k => x0 (ix3 b s k)) (fun a j => x1 (ix2 a j)) (fun j => x2 (ix1 j)) (fun a j => x3 (ix2 a j)) (fun j => x4 (ix1 j))
          (fun a j => x5 (ix2 a j)) (fun j => x6 (ix1 j)) (i 0) (i 1) (i 2) := by
  funext i
  obtain ⟨b, q, h, rfl⟩ : ∃ (b : Fin 4) (q : Fin 4096) (h : Fin 256), i = ix3 b q h := ⟨i 0, i 1, i 2, eq_ix3 i⟩
  rw [val_main_v27_apply]
  have el : ∀ k : Fin 4096, lidx_main_v27 (ix3 b q h) k = ix3 b q k := fun k =>
    funext fun a => by match a with | ⟨0, _⟩ => rfl | ⟨1, _⟩ => rfl | ⟨2, _⟩ => rfl
  have er : ∀ k : Fin 4096, ridx_main_v27 (ix3 b q h) k = ix3 b k h := fun k =>
    funext fun a => by match a with | ⟨0, _⟩ => rfl | ⟨1, _⟩ => rfl | ⟨2, _⟩ => rfl
  simp only [el, er, weight_ix, value_ix]
  rfl

end Cert.ReferenceIdeal.RefValue

end
-- ==== Proof.LibFinite.lean ====
/-
  Real-valued entries of extended-real arrays.

  The ideal reading of a float program computes on the extended reals, where algebraic laws
  such as a * (b - c) = a * b - a * c fail at the infinities. This file states when an
  extended real is a real number (IsReal), a real number that is not negative (IsNonneg) or
  a positive real number (IsPos), shows that these are kept by the arithmetic of the ideal
  instance, and lifts them to arrays: every elementwise, layout, gather, scatter-add,
  reduce-add, dot-product, quotient and reciprocal-square-root operation of the host maps
  arrays of real numbers to arrays of real numbers, under the side conditions stated.
-/
import Idealize.ShloMosaic.PureOps.Ideal.Laws
import Idealize.ShloMosaic.Lib.IdealHost

namespace Cert.LibFinite

open Idealize.ShloMosaic
open scoped BigOperators

/-! ## Scalars -/

/-- An extended real that is a real number: neither infinity. -/
def IsReal (x : EReal) : Prop := ∃ r : ℝ, x = (r : EReal)

/-- An extended real that is a real number and not negative. -/
def IsNonneg (x : EReal) : Prop := ∃ r : ℝ, 0 ≤ r ∧ x = (r : EReal)

/-- An extended real that is a positive real number. -/
def IsPos (x : EReal) : Prop := ∃ r : ℝ, 0 < r ∧ x = (r : EReal)

/-- A real number, read as an extended real, is a real number. -/
theorem isReal_coe (r : ℝ) : IsReal (r : EReal) := ⟨r, rfl⟩

/-- Zero is a real number. -/
theorem isReal_zero : IsReal 0 := ⟨0, rfl⟩

/-- One is a real number. -/
theorem isReal_one : IsReal 1 := ⟨1, rfl⟩

/-- A real number is not the upper infinity. -/
theorem IsReal.ne_top {x : EReal} (h : IsReal x) : x ≠ ⊤ := by
  obtain ⟨r, rfl⟩ := h; exact EReal.coe_ne_top r

/-- A real number is not the lower infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- Being a real number is being neither infinity. -/
theorem isReal_iff {x : EReal} : IsReal x ↔ x ≠ ⊥ ∧ x ≠ ⊤ :=
  ⟨fun h => ⟨h.ne_bot, h.ne_top⟩, fun h => isReal_of_ne h.1 h.2⟩

/-- A real number that is not negative is a real number. -/
theorem IsNonneg.isReal {x : EReal} (h : IsNonneg x) : IsReal x := by
  obtain ⟨r, _, rfl⟩ := h; exact ⟨r, rfl⟩

/-- A positive real number is not negative. -/
theorem IsPos.isNonneg {x : EReal} (h : IsPos x) : IsNonneg x := by
  obtain ⟨r, hr, rfl⟩ := h; exact ⟨r, hr.le, rfl⟩

/-- A positive real number is a real number. -/
theorem IsPos.isReal {x : EReal} (h : IsPos x) : IsReal x := h.isNonneg.isReal

/-- A real number that is not negative is at least zero in the order of the extended reals. -/
theorem IsNonneg.nonneg {x : EReal} (h : IsNonneg x) : 0 ≤ x := by
  obtain ⟨r, hr, rfl⟩ := h; exact EReal.coe_nonneg.2 hr

/-- A positive real number is above zero in the order of the extended reals. -/
theorem IsPos.pos {x : EReal} (h : IsPos x) : 0 < x := by
  obtain ⟨r, hr, rfl⟩ := h; exact EReal.coe_pos.2 hr

/-- A positive real number is not zero. -/
theorem IsPos.ne_zero {x : EReal} (h : IsPos x) : x ≠ 0 := h.pos.ne'

/-- A real number above zero in the order of the extended reals is a positive real number. -/
theorem IsReal.isPos {x : EReal} (h : IsReal x) (hx : 0 < x) : IsPos x := by
  obtain ⟨r, rfl⟩ := h; exact ⟨r, EReal.coe_pos.1 hx, rfl⟩

/-- A real number at least zero in the order of the extended reals is a real number that is not negative. -/
theorem IsReal.isNonneg {x : EReal} (h : IsReal x) (hx : 0 ≤ x) : IsNonneg x := by
  obtain ⟨r, rfl⟩ := h; exact ⟨r, EReal.coe_nonneg.1 hx, rfl⟩

/-- Zero is a real number that is not negative. -/
theorem isNonneg_zero : IsNonneg 0 := ⟨0, le_rfl, rfl⟩

/-- One is a positive real number. -/
theorem isPos_one : IsPos 1 := ⟨1, one_pos, rfl⟩

/-- The sum of two real numbers is a real number. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real number is a real number. -/
theorem IsReal.neg {x : EReal} (hx : IsReal x) : IsReal (-x) := by
  obtain ⟨a, rfl⟩ := hx; exact ⟨-a, (EReal.coe_neg a).symm⟩

/-- The difference of two real numbers is a real number. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two real numbers is a real number. -/
theorem IsReal.max {x y : EReal} (hx : IsReal x) (hy : IsReal y) : IsReal (Max.max x y) := by
  rcases max_choice x y with h | h <;> rw [h] <;> assumption

/-- The lesser of two real numbers is a real number. -/
theorem IsReal.min {x y : EReal} (hx : IsReal x) (hy : IsReal y) : IsReal (Min.min x y) := by
  rcases min_choice x y with h | h <;> rw [h] <;> assumption

/-- The greater of a real number and a real number that is not negative is not negative. -/
theorem IsReal.max_nonneg {x y : EReal} (hx : IsReal x) (hy : IsNonneg y) : IsNonneg (Max.max x y) :=
  (IsReal.max hx hy.isReal).isNonneg (le_trans hy.nonneg (le_max_right x y))

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum of two real numbers that are not negative is not negative. -/
theorem IsNonneg.add {x y : EReal} (hx : IsNonneg x) (hy : IsNonneg y) : IsNonneg (x + y) :=
  (hx.isReal.add hy.isReal).isNonneg (add_nonneg hx.nonneg hy.nonneg)

/-- A real number that is not negative plus a positive real number is a positive real number. -/
theorem IsNonneg.add_pos {x y : EReal} (hx : IsNonneg x) (hy : IsPos y) : IsPos (x + y) := by
  obtain ⟨a, ha, rfl⟩ := hx; obtain ⟨b, hb, rfl⟩ := hy
  exact ⟨a + b, by linarith, (EReal.coe_add a b).symm⟩

/-- The product of two real numbers that are not negative is not negative. -/
theorem IsNonneg.mul {x y : EReal} (hx : IsNonneg x) (hy : IsNonneg y) : IsNonneg (x * y) := by
  obtain ⟨a, ha, rfl⟩ := hx; obtain ⟨b, hb, rfl⟩ := hy
  exact ⟨a * b, mul_nonneg ha hb, (EReal.coe_mul a b).symm⟩

/-- The product of two positive real numbers is a positive real number. -/
theorem IsPos.mul {x y : EReal} (hx : IsPos x) (hy : IsPos y) : IsPos (x * y) := by
  obtain ⟨a, ha, rfl⟩ := hx; obtain ⟨b, hb, rfl⟩ := hy
  exact ⟨a * b, mul_pos ha hb, (EReal.coe_mul a b).symm⟩

/-- The square of a real number is a real number that is not negative. -/
theorem IsReal.mul_self {x : EReal} (hx : IsReal x) : IsNonneg (x * x) := by
  obtain ⟨a, rfl⟩ := hx; exact ⟨a * a, mul_self_nonneg a, (EReal.coe_mul a a).symm⟩

/-- A finite sum of real numbers that are not negative is a real number that is not negative. -/
theorem isNonneg_sum {ι : Type} (s : Finset ι) (f : ι → EReal) (h : ∀ i ∈ s, IsNonneg (f i)) :
    IsNonneg (∑ i ∈ s, f i) :=
  (isReal_sum s f fun i hi => (h i hi).isReal).isNonneg (Finset.sum_nonneg fun i hi => (h i hi).nonneg)

/-- The ideal quotient of a real number by a real number that is not zero is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact (isReal_coe a).mul (isReal_coe _)

/-- The ideal quotient of a real number that is not negative by a positive real number is not negative. -/
theorem IsNonneg.div {x y : EReal} (hx : IsNonneg x) (hy : IsPos y) : IsNonneg (Ideal.div x y) := by
  obtain ⟨a, ha, rfl⟩ := hx; obtain ⟨b, hb, rfl⟩ := hy
  rw [Ideal.div_coe hb.ne']
  exact IsNonneg.mul ⟨a, ha, rfl⟩ ⟨1 / b, by positivity, rfl⟩

/-- The ideal quotient of two positive real numbers is a positive real number. -/
theorem IsPos.div {x y : EReal} (hx : IsPos x) (hy : IsPos y) : IsPos (Ideal.div x y) := by
  obtain ⟨a, ha, rfl⟩ := hx; obtain ⟨b, hb, rfl⟩ := hy
  rw [Ideal.div_coe hb.ne']
  exact IsPos.mul ⟨a, ha, rfl⟩ ⟨1 / b, by positivity, rfl⟩

/-- The ideal reciprocal square root of a positive real number is a positive real number. -/
theorem IsPos.rsqrt {x : EReal} (hx : IsPos x) : IsPos (Ideal.rsqrt x) := by
  obtain ⟨a, ha, rfl⟩ := hx
  rw [Ideal.rsqrt_coe, if_neg (not_lt.2 ha.le), if_neg ha.ne']
  exact ⟨(Real.sqrt a)⁻¹, inv_pos.2 (Real.sqrt_pos.2 ha), rfl⟩

/-- The affine form of a normalisation: over the real numbers, scaling the centred value and shifting is
    one multiplication and one addition. It fails at the infinities, hence the hypotheses. -/
theorem scale_shift_eq {g h m s b : EReal} (hg : IsReal g) (hh : IsReal h) (hm : IsReal m) (hs : IsReal s)
    (hb : IsReal b) : g * (h - m) * s + b = h * (g * s) + (b - (g * m) * s) := by
  obtain ⟨g, rfl⟩ := hg; obtain ⟨h, rfl⟩ := hh; obtain ⟨m, rfl⟩ := hm; obtain ⟨s, rfl⟩ := hs
  obtain ⟨b, rfl⟩ := hb
  simp only [← EReal.coe_sub, ← EReal.coe_mul, ← EReal.coe_add]
  exact congrArg _ (by ring)

/-! ## Arrays -/

/-- Every entry of a family of extended reals has the property P. -/
def All {ι : Type} (P : EReal → Prop) (f : ι → EReal) : Prop := ∀ i, P (f i)

/-- Every entry of the family is a real number. -/
abbrev AllReal {ι : Type} (f : ι → EReal) : Prop := All IsReal f

/-- Every entry of the family is a real number that is not negative. -/
abbrev AllNonneg {ι : Type} (f : ι → EReal) : Prop := All IsNonneg f

/-- Every entry of the family is a positive real number. -/
abbrev AllPos {ι : Type} (f : ι → EReal) : Prop := All IsPos f

/-- A property that implies another, entry by entry. -/
theorem All.mono {ι : Type} {P Q : EReal → Prop} (h : ∀ x, P x → Q x) {f : ι → EReal} (hf : All P f) : All Q f :=
  fun i => h _ (hf i)

/-- Positive real entries are real entries. -/
theorem allReal_of_allPos {ι : Type} {f : ι → EReal} (hf : AllPos f) : AllReal f := hf.mono fun _ => IsPos.isReal

/-- Real entries that are not negative are real entries. -/
theorem allReal_of_allNonneg {ι : Type} {f : ι → EReal} (hf : AllNonneg f) : AllReal f :=
  hf.mono fun _ => IsNonneg.isReal

/-- Positive real entries are not negative. -/
theorem allNonneg_of_allPos {ι : Type} {f : ι → EReal} (hf : AllPos f) : AllNonneg f :=
  hf.mono fun _ => IsPos.isNonneg

/-- Reading a family through any map of indices keeps a property of all its entries. -/
theorem All.comp {ι κ : Type} {P : EReal → Prop} {f : ι → EReal} (hf : All P f) (g : κ → ι) :
    All P (fun j => f (g j)) := fun j => hf (g j)

section Arrays
variable {s t : Shape} {φ : FTy} {P : EReal → Prop}

/-! ### Constants and layout operations: every entry of the result is an entry of the operand -/

/-- A splat constant has the property of the value its bit pattern denotes. -/
theorem all_constant {b : BitVec φ.bits} (hb : P (Ideal.ofBits φ b)) : All P (constant (F := Ideal) s φ b) :=
  fun _ => hb

/-- A broadcast reads entries of its operand. -/
theorem all_broadcastInDim {dims : Fin s.rank → Fin t.rank} {h : s.BroadcastsInDim t dims} {x : s.Idx → EReal}
    (hx : All P x) : All P (broadcastInDim t dims h x) := fun _ => hx _

/-- A reshape reads entries of its operand. -/
theorem all_shapeCast {h : s.ShapeCasts t} {x : s.Idx → EReal} (hx : All P x) : All P (shapeCast t x h) :=
  fun _ => hx _

/-- A slice reads entries of its operand. -/
theorem all_extractStridedSlice {off : Fin s.rank → Nat} {h : s.Slices off t} {x : s.Idx → EReal} (hx : All P x) :
    All P (extractStridedSlice t off x h) := fun _ => hx _

/-- A gather reads entries of its operand, whatever the indices are. -/
theorem all_gather {si : Shape} {w : Nat} {d : GatherDims s si t} {x : s.Idx → EReal} {idx : IVec si w}
    (hx : All P x) : All P (Host.gather d x idx) := fun _ => hx _

/-- A select whose two branches have the property where they are chosen has it everywhere. -/
theorem all_select_of {c : IVec s 1} {a b : s.Idx → EReal} (ha : ∀ i, c i = 1#1 → P (a i))
    (hb : ∀ i, c i ≠ 1#1 → P (b i)) : All P (select c a b) := by
  intro i
  show P (if c i = 1 then a i else b i)
  split
  · exact ha i ‹_›
  · exact hb i ‹_›

/-- A select between two arrays with the property has it. -/
theorem all_select {c : IVec s 1} {a b : s.Idx → EReal} (ha : All P a) (hb : All P b) : All P (select c a b) :=
  all_select_of (fun i _ => ha i) (fun i _ => hb i)

/-! ### Comparisons read back -/

/-- The ordered comparison greater-than answers 1 exactly when the order says so. -/
theorem cmpf_ogt_eq_one_iff {x y : Ideal φ} : FloatOps.cmpf (F := Ideal) .ogt x y = 1#1 ↔ y < x := by
  rw [Ideal.cmpf_def]; unfold Ideal.cmp
  by_cases h : y < x <;> simp [h]

/-- The ordered comparison less-than answers 1 exactly when the order says so. -/
theorem cmpf_olt_eq_one_iff {x y : Ideal φ} : FloatOps.cmpf (F := Ideal) .olt x y = 1#1 ↔ x < y := by
  rw [Ideal.cmpf_def]; unfold Ideal.cmp
  by_cases h : x < y <;> simp [h]

/-- An extended real whose absolute value is below the upper infinity is a real number. -/
theorem isReal_of_abs_lt_top {x : EReal} (h : Max.max x (-x) < ⊤) : IsReal x := by
  refine isReal_of_ne ?_ ?_
  · rintro rfl; simp at h
  · rintro rfl; simp at h

/-- The finiteness test abs x < inf, answered 1 at every index, says every entry is a real number. -/
theorem allReal_of_abs_lt {x inf : FVec Ideal s φ} (hinf : ∀ i, inf i = ⊤)
    (h : ∀ i, cmpf .olt (Host.absf x) inf i = 1#1) : AllReal x := by
  intro i
  have hi : FloatOps.cmpf (F := Ideal) .olt (FloatOps.hostAbsf (x i)) (inf i) = 1#1 := h i
  rw [cmpf_olt_eq_one_iff, hinf i] at hi
  exact isReal_of_abs_lt_top hi

/-! ### Elementwise arithmetic -/

/-- The elementwise sum of arrays of real numbers is an array of real numbers. -/
theorem allReal_addf {x y : FVec Ideal s φ} (hx : AllReal x) (hy : AllReal y) : AllReal (addf (F := Ideal) x y) :=
  fun i => (hx i).add (hy i)

/-- The elementwise difference of arrays of real numbers is an array of real numbers. -/
theorem allReal_subf {x y : FVec Ideal s φ} (hx : AllReal x) (hy : AllReal y) : AllReal (subf (F := Ideal) x y) :=
  fun i => (hx i).sub (hy i)

/-- The elementwise product of arrays of real numbers is an array of real numbers. -/
theorem allReal_mulf {x y : FVec Ideal s φ} (hx : AllReal x) (hy : AllReal y) : AllReal (mulf (F := Ideal) x y) :=
  fun i => (hx i).mul (hy i)

/-- The elementwise maximum of arrays of real numbers is an array of real numbers. -/
theorem allReal_maximumf {x y : FVec Ideal s φ} (hx : AllReal x) (hy : AllReal y) :
    AllReal (maximumf (F := Ideal) x y) := fun i => IsReal.max (hx i) (hy i)

/-- The elementwise minimum of arrays of real numbers is an array of real numbers. -/
theorem allReal_minimumf {x y : FVec Ideal s φ} (hx : AllReal x) (hy : AllReal y) :
    AllReal (minimumf (F := Ideal) x y) := fun i => IsReal.min (hx i) (hy i)

/-- The elementwise maximum of a real array with one that is not negative is not negative: a rectifier's output. -/
theorem allNonneg_maximumf {x y : FVec Ideal s φ} (hx : AllReal x) (hy : AllNonneg y) :
    AllNonneg (maximumf (F := Ideal) x y) := fun i => IsReal.max_nonneg (hx i) (hy i)

/-- The elementwise square of an array of real numbers is an array of real numbers that are not negative. -/
theorem allNonneg_mulf_self {x : FVec Ideal s φ} (hx : AllReal x) : AllNonneg (mulf (F := Ideal) x x) :=
  fun i => (hx i).mul_self

/-- The elementwise sum of arrays of real numbers that are not negative is one. -/
theorem allNonneg_addf {x y : FVec Ideal s φ} (hx : AllNonneg x) (hy : AllNonneg y) :
    AllNonneg (addf (F := Ideal) x y) := fun i => (hx i).add (hy i)

/-- An array of real numbers that are not negative plus an array of positive real numbers is positive:
    a variance plus its stabilising constant. -/
theorem allPos_addf {x y : FVec Ideal s φ} (hx : AllNonneg x) (hy : AllPos y) : AllPos (addf (F := Ideal) x y) :=
  fun i => (hx i).add_pos (hy i)

/-! ### The host's quotient and reciprocal square root -/

/-- The host's quotient of real numbers by real numbers that are not zero is real. -/
theorem allReal_divf {x y : FVec Ideal s φ} (hx : AllReal x) (hy : AllReal y) (h0 : ∀ i, y i ≠ 0) :
    AllReal (Host.divf x y) := fun i => (hx i).div (hy i) (h0 i)

/-- The host's quotient of real numbers by positive real numbers is real: a mean. -/
theorem allReal_divf_pos {x y : FVec Ideal s φ} (hx : AllReal x) (hy : AllPos y) : AllReal (Host.divf x y) :=
  fun i => (hx i).div (hy i).isReal (hy i).ne_zero

/-- The host's quotient of real numbers that are not negative by positive real numbers is not negative: a variance. -/
theorem allNonneg_divf {x y : FVec Ideal s φ} (hx : AllNonneg x) (hy : AllPos y) : AllNonneg (Host.divf x y) :=
  fun i => (hx i).div (hy i)

/-- The host's reciprocal square root at an index is the ideal instance's of the entry. -/
theorem host_rsqrt_apply (x : FVec Ideal s φ) (i : s.Idx) : Host.rsqrt x i = Ideal.rsqrt (x i) := rfl

/-- The host's reciprocal square root of positive real numbers is positive real numbers. -/
theorem allPos_rsqrt {x : FVec Ideal s φ} (hx : AllPos x) : AllPos (Host.rsqrt x) := fun i => (hx i).rsqrt

/-- The guarded reciprocal square root where(x > z, rsqrt x, b) of a real array x, against a threshold z that is not
    negative and with a real fallback b, is real: the reciprocal square root is taken only where x is positive. -/
theorem allReal_select_gt_rsqrt {x z b : FVec Ideal s φ} (hx : AllReal x) (hz : AllNonneg z) (hb : AllReal b) :
    AllReal (select (cmpf .ogt x z) (Host.rsqrt x) b) :=
  all_select_of
    (fun i hc => ((hx i).isPos (lt_of_le_of_lt (hz i).nonneg (cmpf_ogt_eq_one_iff.1 hc))).rsqrt.isReal)
    (fun i _ => hb i)

/-! ### Sums: scatter-add, reduce-add, dot product -/

/-- The host's scatter-add of real updates into a real operand is real, whatever the indices are: each entry is
    the operand's plus a finite sum of updates. -/
theorem allReal_scatterAdd {si u : Shape} {w : Nat} {d : ScatterDims s si u} {x : FVec Ideal s φ} {idx : IVec si w}
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's scatter-add of updates that are not negative into such an operand is not negative. -/
theorem allNonneg_scatterAdd {si u : Shape} {w : Nat} {d : ScatterDims s si u} {x : FVec Ideal s φ} {idx : IVec si w}
    {upd : FVec Ideal u φ} (hx : AllNonneg x) (hu : AllNonneg upd) : AllNonneg (Host.scatterAdd d x idx upd) := by
  intro i
  show IsNonneg (Ideal.hostScatterAdd d x idx upd i)
  unfold Ideal.hostScatterAdd
  exact (hx i).add (isNonneg_sum _ _ fun j _ => hu j)

/-- The host's sum-reduction of a real array from a real initial value is real: each entry is the initial value
    plus a finite sum of entries. -/
theorem allReal_reduceAdd {axes : List (Fin s.rank)} {u : Shape} {x : FVec Ideal s φ} {init : u.Idx → Ideal φ}
    {h : s.ReducesTo axes t} {hu : 0 < u.numel} (hx : AllReal x) (hi : AllReal init) :
    AllReal (Host.reduceAdd x init h hu) := by
  intro j
  show IsReal (Ideal.hostReduceAdd h x (init (Shape.Idx.first hu)) j)
  unfold Ideal.hostReduceAdd
  exact (hi _).add (isReal_sum _ _ fun i _ => hx i)

/-- The host's sum-reduction of an array that is not negative from such an initial value is not negative. -/
theorem allNonneg_reduceAdd {axes : List (Fin s.rank)} {u : Shape} {x : FVec Ideal s φ} {init : u.Idx → Ideal φ}
    {h : s.ReducesTo axes t} {hu : 0 < u.numel} (hx : AllNonneg x) (hi : AllNonneg init) :
    AllNonneg (Host.reduceAdd x init h hu) := by
  intro j
  show IsNonneg (Ideal.hostReduceAdd h x (init (Shape.Idx.first hu)) j)
  unfold Ideal.hostReduceAdd
  exact (hi _).add (isNonneg_sum _ _ fun i _ => hx i)

/-- The host's dot product of real arrays is real, at any dimension numbers: each entry is a finite sum of
    products of entries. -/
theorem allReal_dotGeneral {sl sr so : Shape} {φ₁ φ₂ : FTy} {d : DotDims sl sr so} {prec : Option ContractPrecision}
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Arrays

/-! ## The float literals of a normalisation -/

/-- The f32 pattern 0x46C35000 is the real number 25000. -/
theorem ofBits_f32_25000 : Ideal.ofBits .f32 0x46C35000#32 = ((25000 : ℝ) : EReal) := by
  simp [Ideal.ofBits, Ideal.ieee, -EReal.coe_mul]; norm_num

/-- The f32 pattern 0x47C35000 is the real number 100000. -/
theorem ofBits_f32_100000 : Ideal.ofBits .f32 0x47C35000#32 = ((100000 : ℝ) : EReal) := by
  simp [Ideal.ofBits, Ideal.ieee, -EReal.coe_mul]; norm_num

/-- The f32 pattern 0x3727C5AC, the float nearest to one hundred-thousandth, is the real number 10995116 / 2 ^ 40. -/
theorem ofBits_f32_eps : Ideal.ofBits .f32 0x3727C5AC#32 = ((10995116 * (2 : ℝ) ^ (-40 : ℤ) : ℝ) : EReal) := by
  simp [Ideal.ofBits, Ideal.ieee, -EReal.coe_mul]

/-- The f32 pattern of zero denotes a real number that is not negative. -/
theorem isNonneg_ofBits_f32_zero : IsNonneg (Ideal.ofBits .f32 0x00000000#32) := by
  rw [Ideal.ofBits_zero_f32]; exact isNonneg_zero

/-- The f32 pattern of zero denotes a real number. -/
theorem isReal_ofBits_f32_zero : IsReal (Ideal.ofBits .f32 0x00000000#32) := isNonneg_ofBits_f32_zero.isReal

/-- The f32 pattern of one denotes a positive real number. -/
theorem isPos_ofBits_f32_one : IsPos (Ideal.ofBits .f32 0x3F800000#32) := by
  rw [Ideal.ofBits_one_f32]; exact isPos_one

/-- The f32 pattern of 25000 denotes a positive real number. -/
theorem isPos_ofBits_f32_25000 : IsPos (Ideal.ofBits .f32 0x46C35000#32) :=
  ⟨25000, by norm_num, ofBits_f32_25000⟩

/-- The f32 pattern of 100000 denotes a positive real number. -/
theorem isPos_ofBits_f32_100000 : IsPos (Ideal.ofBits .f32 0x47C35000#32) :=
  ⟨100000, by norm_num, ofBits_f32_100000⟩

/-- The f32 pattern 0x3727C5AC (one hundred-thousandth, rounded) denotes a positive real number. -/
theorem isPos_ofBits_f32_eps : IsPos (Ideal.ofBits .f32 0x3727C5AC#32) :=
  ⟨10995116 * (2 : ℝ) ^ (-40 : ℤ), by positivity, ofBits_f32_eps⟩

/-! ## A closing tactic for operator trees -/

section More
variable {s : Shape} {φ : FTy} {P : EReal → Prop}

/-- A copy has the property of its operand. -/
theorem all_id {x : s.Idx → EReal} (hx : All P x) : All P (id x) := hx

/-- The host's reciprocal square root of positive real numbers is real. -/
theorem allReal_rsqrt {x : FVec Ideal s φ} (hx : AllPos x) : AllReal (Host.rsqrt x) :=
  allReal_of_allPos (allPos_rsqrt hx)

/-- The elementwise product of arrays of real numbers that are not negative is one. -/
theorem allNonneg_mulf {x y : FVec Ideal s φ} (hx : AllNonneg x) (hy : AllNonneg y) :
    AllNonneg (mulf (F := Ideal) x y) := fun i => (hx i).mul (hy i)

/-- The elementwise product of arrays of positive real numbers is one. -/
theorem allPos_mulf {x y : FVec Ideal s φ} (hx : AllPos x) (hy : AllPos y) : AllPos (mulf (F := Ideal) x y) :=
  fun i => (hx i).mul (hy i)

/-- The host's quotient of arrays of positive real numbers is one. -/
theorem allPos_divf {x y : FVec Ideal s φ} (hx : AllPos x) (hy : AllPos y) : AllPos (Host.divf x y) :=
  fun i => (hx i).div (hy i)

end More

/-- Closes a goal AllReal t, AllNonneg t or AllPos t, where t is a tree of the host's operations (elementwise
    arithmetic, rectifier, layout operations, gather, scatter-add, sum-reduction, dot product, quotient by one of
    the positive literals, reciprocal square root of a variance plus its positive constant) over arrays whose
    property is a hypothesis in the context. The rules are chosen by the property asked and the head operation:
    a quotient asks its divisor to be positive, a reciprocal square root asks its operand to be positive, a sum
    is positive when its left term is not negative and its right term is positive, a square is not negative.
    Integer index arrays are arbitrary. -/
macro "all_real" : tactic => `(tactic| with_reducible
  repeat' (first
    | assumption
    | exact isNonneg_ofBits_f32_zero | exact isReal_ofBits_f32_zero
    | exact isPos_ofBits_f32_one | exact isPos_ofBits_f32_one.isNonneg | exact isPos_ofBits_f32_one.isReal
    | exact isPos_ofBits_f32_eps | exact isPos_ofBits_f32_eps.isNonneg | exact isPos_ofBits_f32_eps.isReal
    | exact isPos_ofBits_f32_25000 | exact isPos_ofBits_f32_25000.isNonneg | exact isPos_ofBits_f32_25000.isReal
    | exact isPos_ofBits_f32_100000 | exact isPos_ofBits_f32_100000.isNonneg | exact isPos_ofBits_f32_100000.isReal
    | apply allPos_rsqrt | apply allPos_addf | apply allPos_mulf | apply allPos_divf
    | apply allNonneg_mulf_self | apply allNonneg_mulf | apply allNonneg_addf | apply allNonneg_maximumf
    | apply allNonneg_divf | apply allNonneg_scatterAdd | apply allNonneg_reduceAdd
    | apply allReal_addf | apply allReal_subf | apply allReal_mulf | apply allReal_maximumf | apply allReal_minimumf
    | apply allReal_divf_pos | apply allReal_rsqrt | apply allReal_scatterAdd | apply allReal_reduceAdd
    | apply allReal_dotGeneral | apply allReal_select_gt_rsqrt
    | apply all_constant | apply all_broadcastInDim | apply all_shapeCast | apply all_extractStridedSlice
    | apply all_gather | apply all_id | apply all_select
    | (apply allReal_of_allNonneg; assumption) | (apply allReal_of_allPos; assumption)
    | (apply allNonneg_of_allPos; assumption)))

end Cert.LibFinite
-- ==== Proof.FiniteInputs.lean ====
/-
  Every entry of the seven argument arrays is a real number, from the precondition.

  The precondition is the conjunction, over the seven arrays, of "every entry x has |x| < +∞", each conjunct written as
  a reduction by "and" of the elementwise comparisons. A conjunction of one-bit words is 1 only if each word is 1, a
  reduction by "and" into a single result is 1 only if every compared entry answered 1, and an extended real whose
  absolute value is below +∞ is neither infinity.
-/
import proofs.«137375_j22127671509167_2_alg».proof.Pre_finite_inputs
import proofs.«137375_j22127671509167_2_alg».proof.Proof.Gen.Pre_finite_inputs
import proofs.«137375_j22127671509167_2_alg».proof.Proof.LibFinite
import Idealize.ShloMosaic.Lib.ReduceAll
import Idealize.ShloMosaic.Lib.ValueIdx

noncomputable section

namespace Cert.FiniteInputs

open Idealize.ShloMosaic Idealize.ShloMosaic.ValueIdx Cert.Pre_finite_inputs Cert.LibFinite

/-- The rank-zero shape has one index. -/
local instance : Subsingleton S_.Idx := ⟨fun a b => funext fun d => d.elim0⟩

/-- The word `0x7F800000` denotes +∞. -/
theorem ofBits_posInf : Ideal.ofBits .f32 0x7F800000#32 = (⊤ : EReal) := by
  simp [Ideal.ofBits, Ideal.ieee]

/-- One conjunct: if the reduction by "and" of the comparisons |x| < +∞ over a whole array is 1, every entry of the
    array is a real number. -/
theorem real_of_all {s : Shape} {axes : List (Fin s.rank)} (x : FVec Ideal s .f32)
    (hb : S_.BroadcastsInDim s (![] : Fin 0 → Fin s.rank)) (h' : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) h' hu j = 1#1) :
    ∀ i, ∃ r : ℝ, x i = (r : EReal) :=
  allReal_of_abs_lt
    (all_broadcastInDim (P := fun y => y = ⊤) (all_constant (P := fun y => y = ⊤) ofBits_posInf))
    (fun i => Host.reduce_andi_all _ _ h' hu j e i)

/-- The precondition, answered 1, says every entry of every argument array is a real number. -/
theorem real_of_pre [Cert.Pre_finite_inputs.Facts] (a0 : (⟨⟨3, ![4, 4096, 512]⟩, .f32⟩ : BufTy).Contents (Elt Ideal)) (a1 : (⟨⟨2, ![512, 512]⟩, .f32⟩ : BufTy).Contents (Elt Ideal)) (a2 : (⟨⟨1, ![512]⟩, .f32⟩ : BufTy).Contents (Elt Ideal)) (a3 : (⟨⟨2, ![512, 512]⟩, .f32⟩ : BufTy).Contents (Elt Ideal)) (a4 : (⟨⟨1, ![512]⟩, .f32⟩ : BufTy).Contents (Elt Ideal)) (a5 : (⟨⟨2, ![512, 256]⟩, .f32⟩ : BufTy).Contents (Elt Ideal)) (a6 : (⟨⟨1, ![256]⟩, .f32⟩ : BufTy).Contents (Elt Ideal))
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) := by
  have h0 := congrFun h ix0
  dsimp only [fn, fn_part1, andi] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨real_of_all a0 _ _ _ _ e0, real_of_all a1 _ _ _ _ e1, real_of_all a2 _ _ _ _ e2, real_of_all a3 _ _ _ _ e3,
    real_of_all a4 _ _ _ _ e4, real_of_all a5 _ _ _ _ e5, real_of_all a6 _ _ _ _ e6⟩

end Cert.FiniteInputs

end
-- ==== Proof.lean ====
/-
  A fused attention layer: its kernel program and its plain reference compute one function.

  THE KERNEL PROGRAM is two device kernels among a few host operations. The host scales the query weights and the query
  bias by 1/16, lays the three weight matrices side by side (512 × 1280) and the three biases end to end, and merges the
  batch and position axes of the activations x (4 × 4096 × 512) into 16384 rows. The first kernel, on 16 blocks of 1024
  rows, forms rows · weights + bias and splits the 1280 columns into queries (512), keys (512) and values (256). The
  second, for each block of 1024 query rows of the 4 batches, streams the 4096 key and value rows in 16 blocks of 256:
  per query row it carries the running maximum of the scores (the inner products of the query row with the key rows, over
  the 512 features), a running denominator and a running numerator; a block with maximum C moves the maximum m to
  m' = max m C and both sums to  exp (m − m') · old + the block's terms exp (s_k − m')  (times the value row, for the
  numerator), from the start (−∞, 0, 0); after the last block it writes numerator / denominator.

  THE REFERENCE is host operations only: three dense layers x · W + b, the scores divided by 256^(1/2) = 16, the softmax
  written out — the row maximum, the exponentials of the differences, their sum, the quotients — and the weighted sum of
  the value rows.

  Read at the exact extended reals, where a change of float format is the identity and every operation is the textbook
  one, both result arrays are the same function `Cert.Attn.refSpec` of the seven argument arrays. Three identities of real
  numbers join the two sides. The scale: Σ_j ((Σ_i x_i · (W_ij · c)) + b_j · c) · K_j = (Σ_j ((Σ_i x_i · W_ij) + b_j) · K_j) · c,
  and the quotient by the nonzero real 16 is the product with c = 1/16. The streamed sums: exp (m − m') · exp (s_k − m) =
  exp (s_k − m'), so that after any number of blocks the carried pair is Σ exp (s_k − M) and Σ exp (s_k − M) · v_k over the
  keys seen, for the real M carried with them (at the start exp (−∞ − M) = 0 and 0 · 0 = 0). The shift: the common positive
  factor exp (−M) cancels from the quotient, so the streamed quotient and the reference's sum of normalised terms, whose
  shift is the row maximum, agree. These are laws of the real numbers — distributivity and cancellation fail at ±∞ — and this
  is where the precondition is used: it says that every entry of every argument is finite, hence every projection, score and
  partial sum is a real number. Only the kernel's side needs it; the reference is read operation by operation, with no law.

  THE FRAMES. Each kernel program — as printed, and read at the exact reals — terminates without fault and leaves its
  seven arguments unchanged: for the first region the body is loads, arithmetic and whole-block stores; the second
  carries three scratch arrays from one grid point to the next, and its invariant names their contents after every point.
  The reference's frame is its run with the result forgotten. The idealization rewrote no operation, so there is nothing to
  preserve.
-/
import proofs.«137375_j22127671509167_2_alg».proof.Defs
import proofs.«137375_j22127671509167_2_alg».proof.Proof.Gen.Kernel
import proofs.«137375_j22127671509167_2_alg».proof.Proof.Gen.KernelIdeal
import proofs.«137375_j22127671509167_2_alg».proof.Proof.Gen.ReferenceIdeal
import proofs.«137375_j22127671509167_2_alg».proof.Proof.Gen.Pre_finite_inputs
import proofs.«137375_j22127671509167_2_alg».proof.Proof.K.Frame
import proofs.«137375_j22127671509167_2_alg».proof.Proof.KI.Frame
import proofs.«137375_j22127671509167_2_alg».proof.Proof.KI.KernelValue
import proofs.«137375_j22127671509167_2_alg».proof.Proof.RefRead
import proofs.«137375_j22127671509167_2_alg».proof.Proof.FiniteInputs
import proofs.«137375_j22127671509167_2_alg».proof.Proof.Gen.ReferenceIdeal.Run
import Idealize.ShloMosaic.Adequacy
import Idealize.ShloMosaic.Init

noncomputable section

namespace Cert.Proof

open Idealize.ShloMosaic Idealize.ShloMosaic.TcCoe Idealize.SL.Sem

/-- The word-level kernel terminates and leaves its seven argument arrays as they were. -/
theorem frame_k : Cert.frame_Kernel := fun m ρ _ => Cert.Kernel.Hand.frame m ρ

/-- So does the kernel read at the exact reals. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories that agree on the seven arguments, end with the softmax attention `Cert.Attn.refSpec` of
    those arguments in their result arrays: the kernel by its run read at the exact reals (where the inputs' finiteness,
    which the precondition states, is used), the reference by reading its operations at an index. -/
theorem algebraic : Cert.algebraic_KernelIdeal_ReferenceIdeal := by
  intro m ρ m' ρ' hpre hagree
  refine ⟨fun c => (fun i : Cert.KernelIdeal.S4x4096x256.Idx => Cert.Attn.refSpec (Cert.KernelIdeal.Hand.xA m c) (Cert.KernelIdeal.Hand.wqA m c)
      (Cert.KernelIdeal.Hand.bqA m c) (Cert.KernelIdeal.Hand.wkA m c) (Cert.KernelIdeal.Hand.bkA m c) (Cert.KernelIdeal.Hand.wvA m c)
      (Cert.KernelIdeal.Hand.bvA m c) (i 0) (i 1) (i 2)),
    Cert.KernelIdeal.Hand.kernel_run m ρ (fun c => Cert.FiniteInputs.real_of_pre _ _ _ _ _ _ _ (hpre c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
